-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v113_0)) (v1 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113_0) = v0 c
          ∧ r.2.mem ((c.tc : Thread Cert.KernelIdeal.nD Cert.KernelIdeal.τ).loc Cert.KernelIdeal.main_v114) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_v137) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S2x600000 : Shape := ⟨2, ![2, 600000]⟩
abbrev S50000 : Shape := ⟨1, ![50000]⟩
abbrev S600000 : Shape := ⟨1, ![600000]⟩
abbrev S3x128 : Shape := ⟨2, ![3, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S128x1 : Shape := ⟨2, ![128, 1]⟩
abbrev S1 : Shape := ⟨1, ![1]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S600000 : S_.BroadcastsInDim S600000 (![] : Fin 0 → Fin S600000.rank)
  reducesTo_S600000_S_d0 : S600000.ReducesTo [0] S_
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S128x1 .f32) (main_arg17 : FVec F S1 .f32) (main_v63 : IVec S_ 1) (main_v67 : IVec S_ 1) : IVec S_ 1 :=
  let main_v68 : IVec S_ 1 := andi main_v63 main_v67
  let main_v69 : FVec F S128x1 .f32 := Host.absf main_arg16
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg13 : FVec F S128 .f32) (main_arg14 : FVec F S128x10 .f32) (main_arg15 : FVec F S10 .f32) (main_arg16 : FVec F S128x1 .f32) (main_arg17 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x10 .f32 := Host.absf main_arg14
  let main_cst_22 : FVec F S_ .f32 := constant S_ .f32 0x7F800000#32
  let main_v60 : FVec F S128x10 .f32 := broadcastInDim S128x10 ![] bcast_S_S128x10 main_cst_22
  let main_v61 : IVec S128x10 1 := cmpf .olt main_v59 main_v60
  let main_c_23 : IVec S_ 1 := constantI S_ 1 1#1
  let main_v62 : IVec S_ 1 := (fun x v => Host.reduce IntOp.andi x v reducesTo_S128x10_S_d0_1 h_S_) main_v61 main_c_23
  let main_v63 : IVec S_ 1 := andi main_v58 main_v62
  let main_v64 : FVec F S10 .f32 := Host.absf main_arg15
  let main_cst_24 : FVec F S_ .f32 := constant S_ .f32 0x7F800000#32
  let main_v65 : FVec F S10 .f32 := broadcastInDim S10 ![] bcast_S_S10 main_cst_24
  let main_v66 : IVec S10 1 := cmpf .olt main_v64 main_v65
  let main_c_25 : IVec S_ 1 := constantI S_ 1 1#1
  let main_v67 : IVec S_ 1 := (fun x v => Host.reduce IntOp.andi x v reducesTo_S10_S_d0 h_S_) main_v66 main_c_25
  fn_part4 (F := F) main_arg16 main_arg17 main_v63 main_v67

def fn_part2 {F : FTy → Type} [FloatOps F] (main_arg9 : FVec F S128 .f32) (main_arg10 : FVec F S128x128 .f32) (main_arg11 : FVec F S128 .f32) (main_arg12 : FVec F S128x128 .f32) (main_arg13 : FVec F S128 .f32) (main_arg14 : FVec F S128x10 .f32) (main_arg15 : FVec F S10 .f32) (main_arg16 : FVec F S128x1 .f32) (main_arg17 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x10 .f32) (main_arg15 : FVec F S10 .f32) (main_arg16 : FVec F S128x1 .f32) (main_arg17 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x3 .f32) (main_arg1 : IVec S2x600000 32) (main_arg2 : IVec S50000 32) (main_arg3 : FVec F S600000 .f32) (main_arg4 : FVec F S3x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x10 .f32) (main_arg15 : FVec F S10 .f32) (main_arg16 : FVec F S128x1 .f32) (main_arg17 : FVec F S1 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S600000 .f32 := Host.absf main_arg3
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x3 : Shape := ⟨2, ![50000, 3]⟩
abbrev S2x600000 : Shape := ⟨2, ![2, 600000]⟩
abbrev S50000 : Shape := ⟨1, ![50000]⟩
abbrev S600000 : Shape := ⟨1, ![600000]⟩
abbrev S3x128 : Shape := ⟨2, ![3, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S128x1 : Shape := ⟨2, ![128, 1]⟩
abbrev S1 : Shape := ⟨1, ![1]⟩
abbrev S1x600000 : Shape := ⟨2, ![1, 600000]⟩
abbrev S650000 : Shape := ⟨1, ![650000]⟩
abbrev S_ : Shape := ⟨0, ![]⟩
abbrev S650000x1 : Shape := ⟨2, ![650000, 1]⟩
abbrev S50000x128 : Shape := ⟨2, ![50000, 128]⟩
abbrev S5000x3 : Shape := ⟨2, ![5000, 3]⟩
abbrev S5000x128 : Shape := ⟨2, ![5000, 128]⟩
abbrev S650000x128 : Shape := ⟨2, ![650000, 128]⟩
abbrev S1x128 : Shape := ⟨2, ![1, 128]⟩
abbrev S256x128 : Shape := ⟨2, ![256, 128]⟩
abbrev S50000x1 : Shape := ⟨2, ![50000, 1]⟩
abbrev S256 : Shape := ⟨1, ![256]⟩
abbrev S256x1 : Shape := ⟨2, ![256, 1]⟩
abbrev S1x10 : Shape := ⟨2, ![1, 10]⟩
abbrev S1x1 : Shape := ⟨2, ![1, 1]⟩
abbrev S256x10 : Shape := ⟨2, ![256, 10]⟩

abbrev nBuf : Space → Nat
  | .hbm => 160
  | .vmem => 49
  | .smem => 0
  | _ => 0

abbrev hbmTy0_0 (i : Nat) : BufTy := match i % 128 with
  | 0 => ⟨S50000x3, .f32⟩
  | 1 => ⟨S2x600000, .i32⟩
  | 2 => ⟨S50000, .i32⟩
  | 3 => ⟨S600000, .f32⟩
  | 4 => ⟨S3x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x10, .f32⟩
  | 15 => ⟨S10, .f32⟩
  | 16 => ⟨S128x1, .f32⟩
  | 17 => ⟨S1, .f32⟩
  | 18 => ⟨S1x600000, .i32⟩
  | 19 => ⟨S600000, .i32⟩
  | 20 => ⟨S1x600000, .i32⟩
  | 21 => ⟨S600000, .i32⟩
  | 22 => ⟨S50000, .i32⟩
  | 23 => ⟨S650000, .i32⟩
  | 24 => ⟨S650000, .i32⟩
  | 25 => ⟨S_, .f32⟩
  | 26 => ⟨S50000, .f32⟩
  | 27 => ⟨S650000, .f32⟩
  | 28 => ⟨S_, .f32⟩
  | 29 => ⟨S50000, .f32⟩
  | 30 => ⟨S650000x1, .i32⟩
  | 31 => ⟨S50000, .f32⟩
  | 32 => ⟨S_, .f32⟩
  | 33 => ⟨S50000, .f32⟩
  | 34 => ⟨S50000, .i1⟩
  | 35 => ⟨S_, .f32⟩
  | 36 => ⟨S50000, .f32⟩
  | 37 => ⟨S50000, .f32⟩
  | 38 => ⟨S50000, .f32⟩
  | 39 => ⟨S_, .f32⟩
  | 40 => ⟨S50000, .f32⟩
  | 41 => ⟨S50000, .f32⟩
  | 42 => ⟨S_, .i32⟩
  | 43 => ⟨S650000, .i32⟩
  | 44 => ⟨S650000, .i1⟩
  | 45 => ⟨S_, .i32⟩
  | 46 => ⟨S650000, .i32⟩
  | 47 => ⟨S650000, .i32⟩
  | 48 => ⟨S650000, .i32⟩
  | 49 => ⟨S650000x1, .i32⟩
  | 50 => ⟨S650000, .f32⟩
  | 51 => ⟨S650000, .f32⟩
  | 52 => ⟨S_, .i32⟩
  | 53 => ⟨S650000, .i32⟩
  | 54 => ⟨S650000, .i1⟩
  | 55 => ⟨S_, .i32⟩
  | 56 => ⟨S650000, .i32⟩
  | 57 => ⟨S650000, .i32⟩
  | 58 => ⟨S650000, .i32⟩
  | 59 => ⟨S650000x1, .i32⟩
  | 60 => ⟨S650000, .f32⟩
  | 61 => ⟨S650000, .f32⟩
  | 62 => ⟨S50000x128, .f32⟩
  | 63 => ⟨S_, .i32⟩
  | 64 => ⟨S650000, .i32⟩
  | 65 => ⟨S650000, .i1⟩
  | 66 => ⟨S_, .i32⟩
  | 67 => ⟨S650000, .i32⟩
  | 68 => ⟨S650000, .i32⟩
  | 69 => ⟨S650000, .i32⟩
  | 70 => ⟨S650000x1, .i32⟩
  | 71 => ⟨S650000x128, .f32⟩
  | 72 => ⟨S650000x1, .f32⟩
  | 73 => ⟨S650000x128, .f32⟩
  | 74 => ⟨S650000x128, .f32⟩
  | 75 => ⟨S_, .f32⟩
  | 76 => ⟨S50000x128, .f32⟩
  | 77 => ⟨S650000x1, .i32⟩
  | 78 => ⟨S50000x128, .f32⟩
  | 79 => ⟨S1x128, .f32⟩
  | 80 => ⟨S50000x128, .f32⟩
  | 81 => ⟨S50000x128, .f32⟩
  | 82 => ⟨S_, .i32⟩
  | 83 => ⟨S650000, .i32⟩
  | 84 => ⟨S650000, .i1⟩
  | 85 => ⟨S_, .i32⟩
  | 86 => ⟨S650000, .i32⟩
  | 87 => ⟨S650000, .i32⟩
  | 88 => ⟨S650000, .i32⟩
  | 89 => ⟨S650000x1, .i32⟩
  | 90 => ⟨S650000x128, .f32⟩
  | 91 => ⟨S650000x1, .f32⟩
  | 92 => ⟨S650000x128, .f32⟩
  | 93 => ⟨S650000x128, .f32⟩
  | 94 => ⟨S_, .f32⟩
  | 95 => ⟨S50000x128, .f32⟩
  | 96 => ⟨S650000x1, .i32⟩
  | 97 => ⟨S50000x128, .f32⟩
  | 98 => ⟨S1x128, .f32⟩
  | 99 => ⟨S50000x128, .f32⟩
  | 100 => ⟨S50000x128, .f32⟩
  | 101 => ⟨S_, .i32⟩
  | 102 => ⟨S650000, .i32⟩
  | 103 => ⟨S650000, .i1⟩
  | 104 => ⟨S_, .i32⟩
  | 105 => ⟨S650000, .i32⟩
  | 106 => ⟨S650000, .i32⟩
  | 107 => ⟨S650000, .i32⟩
  | 108 => ⟨S650000x1, .i32⟩
  | 109 => ⟨S650000x128, .f32⟩
  | 110 => ⟨S650000x1, .f32⟩
  | 111 => ⟨S650000x128, .f32⟩
  | 112 => ⟨S650000x128, .f32⟩
  | 113 => ⟨S_, .f32⟩
  | 114 => ⟨S50000x128, .f32⟩
  | 115 => ⟨S650000x1, .i32⟩
  | 116 => ⟨S50000x128, .f32⟩
  | 117 => ⟨S1x128, .f32⟩
  | 118 => ⟨S50000x128, .f32⟩
  | 119 => ⟨S50000x128, .f32⟩
  | 120 => ⟨S_, .i32⟩
  | 121 => ⟨S650000, .i32⟩
  | 122 => ⟨S650000, .i1⟩
  | 123 => ⟨S_, .i32⟩
  | 124 => ⟨S650000, .i32⟩
  | 125 => ⟨S650000, .i32⟩
  | 126 => ⟨S650000, .i32⟩
  | 127 => ⟨S650000x1, .i32⟩
  | _ => ⟨S50000x3, .f32⟩

abbrev hbmTy0_1 (i : Nat) : BufTy := match i % 128 with
  | 0 => ⟨S650000x128, .f32⟩
  | 1 => ⟨S650000x1, .f32⟩
  | 2 => ⟨S650000x128, .f32⟩
  | 3 => ⟨S650000x128, .f32⟩
  | 4 => ⟨S_, .f32⟩
  | 5 => ⟨S50000x128, .f32⟩
  | 6 => ⟨S650000x1, .i32⟩
  | 7 => ⟨S50000x128, .f32⟩
  | 8 => ⟨S1x128, .f32⟩
  | 9 => ⟨S50000x128, .f32⟩
  | 10 => ⟨S_, .f32⟩
  | 11 => ⟨S256x128, .f32⟩
  | 12 => ⟨S50000x1, .i32⟩
  | 13 => ⟨S256x128, .f32⟩
  | 14 => ⟨S_, .f32⟩
  | 15 => ⟨S50000, .f32⟩
  | 16 => ⟨S_, .f32⟩
  | 17 => ⟨S256, .f32⟩
  | 18 => ⟨S50000x1, .i32⟩
  | 19 => ⟨S256, .f32⟩
  | 20 => ⟨S_, .f32⟩
  | 21 => ⟨S256, .f32⟩
  | 22 => ⟨S256, .f32⟩
  | 23 => ⟨S256x1, .f32⟩
  | 24 => ⟨S256x128, .f32⟩
  | 25 => ⟨S256x128, .f32⟩
  | 26 => ⟨S1x128, .f32⟩
  | 27 => ⟨S1x10, .f32⟩
  | 28 => ⟨S1x1, .f32⟩
  | 29 => ⟨S256x10, .f32⟩
  | 30 => ⟨S256x1, .f32⟩
  | 31 => ⟨S256, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | .local _ .vmem, ⟨0, _⟩ => ⟨S5000x3, .f32⟩
  | .local _ .vmem, ⟨1, _⟩ => ⟨S5000x3, .f32⟩
  | .local _ .vmem, ⟨2, _⟩ => ⟨S3x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S256x128, .f32⟩
  | .local _ .vmem, ⟨41, _⟩ => ⟨S128x128, .f32⟩
  | .local _ .vmem, ⟨42, _⟩ => ⟨S1x128, .f32⟩
  | .local _ .vmem, ⟨43, _⟩ => ⟨S128x10, .f32⟩
  | .local _ .vmem, ⟨44, _⟩ => ⟨S1x10, .f32⟩
  | .local _ .vmem, ⟨45, _⟩ => ⟨S128x1, .f32⟩
  | .local _ .vmem, ⟨46, _⟩ => ⟨S1x1, .f32⟩
  | .local _ .vmem, ⟨47, _⟩ => ⟨S256x10, .f32⟩
  | .local _ .vmem, ⟨48, _⟩ => ⟨S256x1, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_3 : Ref sig .tc := ⟨.hbm, 39, rfl⟩
abbrev main_call0_v0 : Ref sig .tc := ⟨.hbm, 40, rfl⟩
abbrev main_v17 : Ref sig .tc := ⟨.hbm, 41, rfl⟩
abbrev main_c : Ref sig .tc := ⟨.hbm, 42, rfl⟩
abbrev main_v18 : Ref sig .tc := ⟨.hbm, 43, rfl⟩
abbrev main_v19 : Ref sig .tc := ⟨.hbm, 44, rfl⟩
abbrev main_c_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_5 : Ref sig .tc := ⟨.hbm, 52, rfl⟩
abbrev main_v26 : Ref sig .tc := ⟨.hbm, 53, rfl⟩
abbrev main_v27 : Ref sig .tc := ⟨.hbm, 54, rfl⟩
abbrev main_c_6 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_c_7 : Ref sig .tc := ⟨.hbm, 63, rfl⟩
abbrev main_v35 : Ref sig .tc := ⟨.hbm, 64, rfl⟩
abbrev main_v36 : Ref sig .tc := ⟨.hbm, 65, rfl⟩
abbrev main_c_8 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_9 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_c_10 : Ref sig .tc := ⟨.hbm, 82, rfl⟩
abbrev main_v51 : Ref sig .tc := ⟨.hbm, 83, rfl⟩
abbrev main_v52 : Ref sig .tc := ⟨.hbm, 84, rfl⟩
abbrev main_c_11 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_12 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_c_13 : Ref sig .tc := ⟨.hbm, 101, rfl⟩
abbrev main_v67 : Ref sig .tc := ⟨.hbm, 102, rfl⟩
abbrev main_v68 : Ref sig .tc := ⟨.hbm, 103, rfl⟩
abbrev main_c_14 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_15 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_c_16 : Ref sig .tc := ⟨.hbm, 120, rfl⟩
abbrev main_v83 : Ref sig .tc := ⟨.hbm, 121, rfl⟩
abbrev main_v84 : Ref sig .tc := ⟨.hbm, 122, rfl⟩
abbrev main_c_17 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_18 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_19 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_cst_20 : Ref sig .tc := ⟨.hbm, 142, rfl⟩
abbrev main_v101 : Ref sig .tc := ⟨.hbm, 143, rfl⟩
abbrev main_cst_21 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_22 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113_0 : Ref sig .tc := ⟨.hbm, 157, rfl⟩
abbrev main_v113_1 : Ref sig .tc := ⟨.hbm, 158, rfl⟩
abbrev main_v114 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg1_0 : Ref sig .tc := ⟨.vmem, 41, rfl⟩
abbrev cc8_stg2_0 : Ref sig .tc := ⟨.vmem, 42, rfl⟩
abbrev cc8_stg3_0 : Ref sig .tc := ⟨.vmem, 43, rfl⟩
abbrev cc8_stg4_0 : Ref sig .tc := ⟨.vmem, 44, rfl⟩
abbrev cc8_stg5_0 : Ref sig .tc := ⟨.vmem, 45, rfl⟩
abbrev cc8_stg6_0 : Ref sig .tc := ⟨.vmem, 46, rfl⟩
abbrev cc8_stg7_0 : Ref sig .tc := ⟨.vmem, 47, rfl⟩
abbrev cc8_stg8_0 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem1_0 : DmaSem sig := 41
abbrev cc8_sem2_0 : DmaSem sig := 42
abbrev cc8_sem3_0 : DmaSem sig := 43
abbrev cc8_sem4_0 : DmaSem sig := 44
abbrev cc8_sem5_0 : DmaSem sig := 45
abbrev cc8_sem6_0 : DmaSem sig := 46
abbrev cc8_sem7_0 : DmaSem sig := 47
abbrev cc8_sem8_0 : DmaSem sig := 48

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S256x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x10 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x10 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S128x1 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x1 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S256x10 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S256x1 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  inb_S5000x3_S5000x3_0_0 : ∀ a, (![0, 0] : Fin 2 → Nat) a + S5000x3.size a ≤ S5000x3.size a
  h_S5000x3 : 0 < S5000x3.numel
  inb_S3x128_S3x128_0_0 : ∀ a, (![0, 0] : Fin 2 → Nat) a + S3x128.size a ≤ S3x128.size a
  h_S3x128 : 0 < S3x128.numel
  inb_S5000x128_S5000x128_0_0 : ∀ a, (![0, 0] : Fin 2 → Nat) a + S5000x128.size a ≤ S5000x128.size a
  h_S5000x128 : 0 < S5000x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  bcast_S_S256x128 : S_.BroadcastsInDim S256x128 (![] : Fin 0 → Fin S256x128.rank)
  bcast_S50000_S50000x1_0 : S50000.BroadcastsInDim S50000x1 (![0] : Fin 1 → Fin S50000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  shapeCasts_S10_S1x10 : S10.ShapeCasts S1x10
  shapeCasts_S1_S1x1 : S1.ShapeCasts S1x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x128_S256x128 : S1x128.Broadcasts S256x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S256x10 : S1x10.Broadcasts S256x10
  inb_S256x10_S256x10_0_0 : ∀ a, (![0, 0] : Fin 2 → Nat) a + S256x10.size a ≤ S256x10.size a
  h_S256x10 : 0 < S256x10.numel
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  shapeCasts_S256x1_S256 : S256x1.ShapeCasts S256
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x3_S3x128_S5000x128_1_0_0_1_n_n_wf : DotDims.WF S5000x3 S3x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x128_S5000x128_1_0_0_1_n_n_wf : DotDims.WF S5000x128 S128x128 S5000x128 [1] [0] [0] [1] [] []
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x128_S256x128_1_0_0_1_n_n_wf : DotDims.WF S256x128 S128x128 S256x128 [1] [0] [0] [1] [] []
  dot_S256x128_S128x10_S256x10_1_0_0_1_n_n_wf : DotDims.WF S256x128 S128x10 S256x10 [1] [0] [0] [1] [] []
  dot_S256x128_S128x1_S256x1_1_0_0_1_n_n_wf : DotDims.WF S256x128 S128x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S50000x3.size a
  hwx0_0 : ∀ i : grid0.Coords, EltTy.bits .f32 = 32 ∨ (Rect.block (s := S50000x3) S5000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128.size a ≤ S3x128.size a
  hwx0_1 : ∀ i : grid0.Coords, EltTy.bits .f32 = 32 ∨ (Rect.block (s := S3x128) S3x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S50000x128.size a
  hwx7_2 : ∀ i : grid7.Coords, EltTy.bits .f32 = 32 ∨ (Rect.block (s := S50000x128) S5000x128.size (cc7_transform_2 i) (hinb7_2 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S256x128.size a ≤ S256x128.size a
  hwx8_0 : ∀ i : grid8.Coords, EltTy.bits .f32 = 32 ∨ (Rect.block (s := S256x128) S256x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x10.size a ≤ S128x10.size a
  hwx8_3 : ∀ i : grid8.Coords, EltTy.bits .f32 = 32 ∨ (Rect.block (s := S128x10) S128x10.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x10.size a ≤ S1x10.size a
  hwx8_4 : ∀ i : grid8.Coords, EltTy.bits .f32 = 32 ∨ (Rect.block (s := S1x10) S1x10.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S128x1.size a ≤ S128x1.size a
  hwx8_5 : ∀ i : grid8.Coords, EltTy.bits .f32 = 32 ∨ (Rect.block (s := S128x1) S128x1.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x1.size a ≤ S1x1.size a
  hwx8_6 : ∀ i : grid8.Coords, EltTy.bits .f32 = 32 ∨ (Rect.block (s := S1x1) S1x1.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S256x10.size a ≤ S256x10.size a
  hwx8_7 : ∀ i : grid8.Coords, EltTy.bits .f32 = 32 ∨ (Rect.block (s := S256x10) S256x10.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S256x1.size a ≤ S256x1.size a
  hwx8_8 : ∀ i : grid8.Coords, EltTy.bits .f32 = 32 ∨ (Rect.block (s := S256x1) S256x1.size (cc8_transform_8 i) (hinb8_8 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x3_S3x128_S5000x128_1_0_0_1_n_n : DotDims S5000x3 S3x128 S5000x128 where
  lhsContracting := [1]
  rhsContracting := [0]
  lhsNonContracting := [0]
  rhsNonContracting := [1]
  lhsBatch := []
  rhsBatch := []
  wf := dot_S5000x3_S3x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S3x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v65) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v66) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v79) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v80) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v81) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v81) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v82) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v95) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v96) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v97) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v109) S256x128.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_arg12) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v110) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg14) S128x10.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v111) S1x10.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_arg16) S128x1.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v112) S1x1.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v113_0) S256x10.size cc8_transform_7 reads8_7 true true 1 stage8_7 sem8_7
    hrank8 hreads8_7 hinb8_7 nbuf8_7 (Memref.isWhole_whole _) hwx8_7 hstage8_7

abbrev win8_8 : Pipeline.Window sig grid8 :=
  Pipeline.Window.ofSpec (Memref.whole main_v113_1) S256x1.size cc8_transform_8 reads8_8 true true 1 stage8_8 sem8_8
    hrank8 hreads8_8 hinb8_8 nbuf8_8 (Memref.isWhole_whole _) hwx8_8 hstage8_8

abbrev win8 : Fin 9 → Pipeline.Window sig grid8 := fun | 0 => win8_0 | 1 => win8_1 | 2 => win8_2 | 3 => win8_3 | 4 => win8_4 | 5 => win8_5 | 6 => win8_6 | 7 => win8_7 | 8 => win8_8 | ⟨_ + 9, h⟩ => absurd h (Nat.not_lt.2 (Nat.le_add_left _ _))
abbrev spec8 : Fin 9 → Pipeline.WinSpec sig grid8.rank := fun w => (win8 w).toWinSpec

class Facts : Prop extends Facts₀ where

variable [Facts]
-- ==== ReferenceIdeal.lean ====
abbrev S50000x3 : Shape := ⟨2, ![50000, 3]⟩
abbrev S2x600000 : Shape := ⟨2, ![2, 600000]⟩
abbrev S50000 : Shape := ⟨1, ![50000]⟩
abbrev S600000 : Shape := ⟨1, ![600000]⟩
abbrev S3x128 : Shape := ⟨2, ![3, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S128x1 : Shape := ⟨2, ![128, 1]⟩
abbrev S1 : Shape := ⟨1, ![1]⟩
abbrev S1x600000 : Shape := ⟨2, ![1, 600000]⟩
abbrev S650000 : Shape := ⟨1, ![650000]⟩
abbrev S_ : Shape := ⟨0, ![]⟩
abbrev S650000x1 : Shape := ⟨2, ![650000, 1]⟩
abbrev S50000x128 : Shape := ⟨2, ![50000, 128]⟩
abbrev S650000x128 : Shape := ⟨2, ![650000, 128]⟩
abbrev S1x128 : Shape := ⟨2, ![1, 128]⟩
abbrev S256x128 : Shape := ⟨2, ![256, 128]⟩
abbrev S50000x1 : Shape := ⟨2, ![50000, 1]⟩
abbrev S256 : Shape := ⟨1, ![256]⟩
abbrev S256x1 : Shape := ⟨2, ![256, 1]⟩
abbrev S256x10 : Shape := ⟨2, ![256, 10]⟩
abbrev S1x10 : Shape := ⟨2, ![1, 10]⟩
abbrev S1x1 : Shape := ⟨2, ![1, 1]⟩

abbrev nBuf : Space → Nat
  | .hbm => 194
  | .vmem => 0
  | .smem => 0
  | _ => 0

abbrev hbmTy0_0 (i : Nat) : BufTy := match i % 128 with
  | 0 => ⟨S50000x3, .f32⟩
  | 1 => ⟨S2x600000, .i32⟩
  | 2 => ⟨S50000, .i32⟩
  | 3 => ⟨S600000, .f32⟩
  | 4 => ⟨S3x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x10, .f32⟩
  | 15 => ⟨S10, .f32⟩
  | 16 => ⟨S128x1, .f32⟩
  | 17 => ⟨S1, .f32⟩
  | 18 => ⟨S1x600000, .i32⟩
  | 19 => ⟨S600000, .i32⟩
  | 20 => ⟨S1x600000, .i32⟩
  | 21 => ⟨S600000, .i32⟩
  | 22 => ⟨S50000, .i32⟩
  | 23 => ⟨S650000, .i32⟩
  | 24 => ⟨S650000, .i32⟩
  | 25 => ⟨S_, .f32⟩
  | 26 => ⟨S50000, .f32⟩
  | 27 => ⟨S650000, .f32⟩
  | 28 => ⟨S_, .f32⟩
  | 29 => ⟨S50000, .f32⟩
  | 30 => ⟨S650000x1, .i32⟩
  | 31 => ⟨S50000, .f32⟩
  | 32 => ⟨S_, .f32⟩
  | 33 => ⟨S50000, .f32⟩
  | 34 => ⟨S50000, .i1⟩
  | 35 => ⟨S_, .f32⟩
  | 36 => ⟨S50000, .f32⟩
  | 37 => ⟨S50000, .f32⟩
  | 38 => ⟨S50000, .f32⟩
  | 39 => ⟨S_, .f32⟩
  | 40 => ⟨S50000, .f32⟩
  | 41 => ⟨S50000, .f32⟩
  | 42 => ⟨S_, .i32⟩
  | 43 => ⟨S650000, .i32⟩
  | 44 => ⟨S650000, .i1⟩
  | 45 => ⟨S_, .i32⟩
  | 46 => ⟨S650000, .i32⟩
  | 47 => ⟨S650000, .i32⟩
  | 48 => ⟨S650000, .i32⟩
  | 49 => ⟨S650000x1, .i32⟩
  | 50 => ⟨S650000, .f32⟩
  | 51 => ⟨S650000, .f32⟩
  | 52 => ⟨S_, .i32⟩
  | 53 => ⟨S650000, .i32⟩
  | 54 => ⟨S650000, .i1⟩
  | 55 => ⟨S_, .i32⟩
  | 56 => ⟨S650000, .i32⟩
  | 57 => ⟨S650000, .i32⟩
  | 58 => ⟨S650000, .i32⟩
  | 59 => ⟨S650000x1, .i32⟩
  | 60 => ⟨S650000, .f32⟩
  | 61 => ⟨S650000, .f32⟩
  | 62 => ⟨S50000x128, .f32⟩
  | 63 => ⟨S_, .i32⟩
  | 64 => ⟨S650000, .i32⟩
  | 65 => ⟨S650000, .i1⟩
  | 66 => ⟨S_, .i32⟩
  | 67 => ⟨S650000, .i32⟩
  | 68 => ⟨S650000, .i32⟩
  | 69 => ⟨S650000, .i32⟩
  | 70 => ⟨S650000x1, .i32⟩
  | 71 => ⟨S650000x128, .f32⟩
  | 72 => ⟨S650000x1, .f32⟩
  | 73 => ⟨S650000x128, .f32⟩
  | 74 => ⟨S650000x128, .f32⟩
  | 75 => ⟨S_, .f32⟩
  | 76 => ⟨S50000x128, .f32⟩
  | 77 => ⟨S650000x1, .i32⟩
  | 78 => ⟨S50000x128, .f32⟩
  | 79 => ⟨S1x128, .f32⟩
  | 80 => ⟨S50000x128, .f32⟩
  | 81 => ⟨S50000x128, .f32⟩
  | 82 => ⟨S_, .f32⟩
  | 83 => ⟨S50000x128, .f32⟩
  | 84 => ⟨S50000x128, .f32⟩
  | 85 => ⟨S50000x128, .f32⟩
  | 86 => ⟨S_, .i32⟩
  | 87 => ⟨S650000, .i32⟩
  | 88 => ⟨S650000, .i1⟩
  | 89 => ⟨S_, .i32⟩
  | 90 => ⟨S650000, .i32⟩
  | 91 => ⟨S650000, .i32⟩
  | 92 => ⟨S650000, .i32⟩
  | 93 => ⟨S650000x1, .i32⟩
  | 94 => ⟨S650000x128, .f32⟩
  | 95 => ⟨S650000x1, .f32⟩
  | 96 => ⟨S650000x128, .f32⟩
  | 97 => ⟨S650000x128, .f32⟩
  | 98 => ⟨S_, .f32⟩
  | 99 => ⟨S50000x128, .f32⟩
  | 100 => ⟨S650000x1, .i32⟩
  | 101 => ⟨S50000x128, .f32⟩
  | 102 => ⟨S1x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S50000x128, .f32⟩
  | 109 => ⟨S_, .i32⟩
  | 110 => ⟨S650000, .i32⟩
  | 111 => ⟨S650000, .i1⟩
  | 112 => ⟨S_, .i32⟩
  | 113 => ⟨S650000, .i32⟩
  | 114 => ⟨S650000, .i32⟩
  | 115 => ⟨S650000, .i32⟩
  | 116 => ⟨S650000x1, .i32⟩
  | 117 => ⟨S650000x128, .f32⟩
  | 118 => ⟨S650000x1, .f32⟩
  | 119 => ⟨S650000x128, .f32⟩
  | 120 => ⟨S650000x128, .f32⟩
  | 121 => ⟨S_, .f32⟩
  | 122 => ⟨S50000x128, .f32⟩
  | 123 => ⟨S650000x1, .i32⟩
  | 124 => ⟨S50000x128, .f32⟩
  | 125 => ⟨S1x128, .f32⟩
  | 126 => ⟨S50000x128, .f32⟩
  | 127 => ⟨S50000x128, .f32⟩
  | _ => ⟨S50000x3, .f32⟩

abbrev hbmTy0_1 (i : Nat) : BufTy := match i % 128 with
  | 0 => ⟨S_, .f32⟩
  | 1 => ⟨S50000x128, .f32⟩
  | 2 => ⟨S50000x128, .f32⟩
  | 3 => ⟨S50000x128, .f32⟩
  | 4 => ⟨S_, .i32⟩
  | 5 => ⟨S650000, .i32⟩
  | 6 => ⟨S650000, .i1⟩
  | 7 => ⟨S_, .i32⟩
  | 8 => ⟨S650000, .i32⟩
  | 9 => ⟨S650000, .i32⟩
  | 10 => ⟨S650000, .i32⟩
  | 11 => ⟨S650000x1, .i32⟩
  | 12 => ⟨S650000x128, .f32⟩
  | 13 => ⟨S650000x1, .f32⟩
  | 14 => ⟨S650000x128, .f32⟩
  | 15 => ⟨S650000x128, .f32⟩
  | 16 => ⟨S_, .f32⟩
  | 17 => ⟨S50000x128, .f32⟩
  | 18 => ⟨S650000x1, .i32⟩
  | 19 => ⟨S50000x128, .f32⟩
  | 20 => ⟨S1x128, .f32⟩
  | 21 => ⟨S50000x128, .f32⟩
  | 22 => ⟨S50000x128, .f32⟩
  | 23 => ⟨S_, .f32⟩
  | 24 => ⟨S50000x128, .f32⟩
  | 25 => ⟨S50000x128, .f32⟩
  | 26 => ⟨S_, .f32⟩
  | 27 => ⟨S256x128, .f32⟩
  | 28 => ⟨S50000x1, .i32⟩
  | 29 => ⟨S256x128, .f32⟩
  | 30 => ⟨S_, .f32⟩
  | 31 => ⟨S50000, .f32⟩
  | 32 => ⟨S_, .f32⟩
  | 33 => ⟨S256, .f32⟩
  | 34 => ⟨S50000x1, .i32⟩
  | 35 => ⟨S256, .f32⟩
  | 36 => ⟨S_, .f32⟩
  | 37 => ⟨S256, .f32⟩
  | 38 => ⟨S256, .f32⟩
  | 39 => ⟨S256x1, .f32⟩
  | 40 => ⟨S256x128, .f32⟩
  | 41 => ⟨S256x128, .f32⟩
  | 42 => ⟨S256x128, .f32⟩
  | 43 => ⟨S1x128, .f32⟩
  | 44 => ⟨S256x128, .f32⟩
  | 45 => ⟨S256x128, .f32⟩
  | 46 => ⟨S_, .f32⟩
  | 47 => ⟨S256x128, .f32⟩
  | 48 => ⟨S256x128, .f32⟩
  | 49 => ⟨S256x10, .f32⟩
  | 50 => ⟨S1x10, .f32⟩
  | 51 => ⟨S256x10, .f32⟩
  | 52 => ⟨S256x10, .f32⟩
  | 53 => ⟨S256x1, .f32⟩
  | 54 => ⟨S1x1, .f32⟩
  | 55 => ⟨S256x1, .f32⟩
  | 56 => ⟨S256x1, .f32⟩
  | 57 => ⟨S256x1, .f32⟩
  | 58 => ⟨S256x1, .f32⟩
  | 59 => ⟨S_, .f32⟩
  | 60 => ⟨S256x1, .f32⟩
  | 61 => ⟨S256x1, .f32⟩
  | 62 => ⟨S_, .f32⟩
  | 63 => ⟨S256x1, .f32⟩
  | 64 => ⟨S256x1, .f32⟩
  | 65 => ⟨S256, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_3 : Ref sig .tc := ⟨.hbm, 39, rfl⟩
abbrev main_call0_v0 : Ref sig .tc := ⟨.hbm, 40, rfl⟩
abbrev main_v17 : Ref sig .tc := ⟨.hbm, 41, rfl⟩
abbrev main_c : Ref sig .tc := ⟨.hbm, 42, rfl⟩
abbrev main_v18 : Ref sig .tc := ⟨.hbm, 43, rfl⟩
abbrev main_v19 : Ref sig .tc := ⟨.hbm, 44, rfl⟩
abbrev main_c_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_5 : Ref sig .tc := ⟨.hbm, 52, rfl⟩
abbrev main_v26 : Ref sig .tc := ⟨.hbm, 53, rfl⟩
abbrev main_v27 : Ref sig .tc := ⟨.hbm, 54, rfl⟩
abbrev main_c_6 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_c_7 : Ref sig .tc := ⟨.hbm, 63, rfl⟩
abbrev main_v35 : Ref sig .tc := ⟨.hbm, 64, rfl⟩
abbrev main_v36 : Ref sig .tc := ⟨.hbm, 65, rfl⟩
abbrev main_c_8 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_9 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_call1_cst : Ref sig .tc := ⟨.hbm, 82, rfl⟩
abbrev main_call1_v0 : Ref sig .tc := ⟨.hbm, 83, rfl⟩
abbrev main_v51 : Ref sig .tc := ⟨.hbm, 84, rfl⟩
abbrev main_v52 : Ref sig .tc := ⟨.hbm, 85, rfl⟩
abbrev main_c_10 : Ref sig .tc := ⟨.hbm, 86, rfl⟩
abbrev main_v53 : Ref sig .tc := ⟨.hbm, 87, rfl⟩
abbrev main_v54 : Ref sig .tc := ⟨.hbm, 88, rfl⟩
abbrev main_c_11 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_12 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_call2_cst : Ref sig .tc := ⟨.hbm, 105, rfl⟩
abbrev main_call2_v0 : Ref sig .tc := ⟨.hbm, 106, rfl⟩
abbrev main_v69 : Ref sig .tc := ⟨.hbm, 107, rfl⟩
abbrev main_v70 : Ref sig .tc := ⟨.hbm, 108, rfl⟩
abbrev main_c_13 : Ref sig .tc := ⟨.hbm, 109, rfl⟩
abbrev main_v71 : Ref sig .tc := ⟨.hbm, 110, rfl⟩
abbrev main_v72 : Ref sig .tc := ⟨.hbm, 111, rfl⟩
abbrev main_c_14 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_15 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_call3_cst : Ref sig .tc := ⟨.hbm, 128, rfl⟩
abbrev main_call3_v0 : Ref sig .tc := ⟨.hbm, 129, rfl⟩
abbrev main_v87 : Ref sig .tc := ⟨.hbm, 130, rfl⟩
abbrev main_v88 : Ref sig .tc := ⟨.hbm, 131, rfl⟩
abbrev main_c_16 : Ref sig .tc := ⟨.hbm, 132, rfl⟩
abbrev main_v89 : Ref sig .tc := ⟨.hbm, 133, rfl⟩
abbrev main_v90 : Ref sig .tc := ⟨.hbm, 134, rfl⟩
abbrev main_c_17 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_18 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_call4_cst : Ref sig .tc := ⟨.hbm, 151, rfl⟩
abbrev main_call4_v0 : Ref sig .tc := ⟨.hbm, 152, rfl⟩
abbrev main_v105 : Ref sig .tc := ⟨.hbm, 153, rfl⟩
abbrev main_cst_19 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_cst_20 : Ref sig .tc := ⟨.hbm, 158, rfl⟩
abbrev main_v109 : Ref sig .tc := ⟨.hbm, 159, rfl⟩
abbrev main_cst_21 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_cst_22 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_call5_cst : Ref sig .tc := ⟨.hbm, 174, rfl⟩
abbrev main_call5_v0 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_cst_23 : Ref sig .tc := ⟨.hbm, 187, rfl⟩
abbrev main_v133 : Ref sig .tc := ⟨.hbm, 188, rfl⟩
abbrev main_v134 : Ref sig .tc := ⟨.hbm, 189, rfl⟩
abbrev main_cst_24 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S256x128 : S_.BroadcastsInDim S256x128 (![] : Fin 0 → Fin S256x128.rank)
  bcast_S50000_S50000x1_0 : S50000.BroadcastsInDim S50000x1 (![0] : Fin 1 → Fin S50000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S1x128_S256x128_0_1 : S1x128.BroadcastsInDim S256x128 (![0, 1] : Fin 2 → Fin S256x128.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  bcast_S_S256x1 : S_.BroadcastsInDim S256x1 (![] : Fin 0 → Fin S256x1.rank)
  shapeCasts_S256x1_S256 : S256x1.ShapeCasts S256
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x3_S3x128_S50000x128_1_0_0_1_n_n_wf : DotDims.WF S50000x3 S3x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x128_S50000x128_1_0_0_1_n_n_wf : DotDims.WF S50000x128 S128x128 S50000x128 [1] [0] [0] [1] [] []
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x128_S256x128_1_0_0_1_n_n_wf : DotDims.WF S256x128 S128x128 S256x128 [1] [0] [0] [1] [] []
  dot_S256x128_S128x10_S256x10_1_0_0_1_n_n_wf : DotDims.WF S256x128 S128x10 S256x10 [1] [0] [0] [1] [] []
  dot_S256x128_S128x1_S256x1_1_0_0_1_n_n_wf : DotDims.WF S256x128 S128x1 S256x1 [1] [0] [0] [1] [] []

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x3_S3x128_S50000x128_1_0_0_1_n_n : DotDims S50000x3 S3x128 S50000x128 where
  lhsContracting := [1]
  rhsContracting := [0]
  lhsNonContracting := [0]
  rhsNonContracting := [1]
  lhsBatch := []
  rhsBatch := []
  wf := dot_S50000x3_S3x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

class Facts : Prop extends Facts₀ where

variable [Facts]
-- ==== Proof.KernelRun.lean ====
/-
  The idealized kernel's run with its two results named.

  The program is a chain of eighteen segments: ten stretches of host operations and nine pipelined regions.
  The contents of every unscoped buffer after the k-th segment form a fold from the launch memory (a stretch
  applies its operations; a region replaces its output arrays by what its grid points wrote back and keeps
  every other buffer).  Every weakly fair execution terminates, and in the final state each unscoped buffer
  holds the last value of that fold.  Read at the two result buffers and at the eighteen argument buffers this
  is the statement below: the results are the fold's last valuation at their buffers, the arguments are the
  launch memory.
-/
import proofs.«158055_j16381005267206_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the two result buffers end at the fold's last
    valuation, and the argument buffers end as launched. -/
theorem run_results : θ_run defs (onTc (τ := τ) (main (F := F))) ⟨m, fun _ => 0, ρ⟩ (fun r => ∀ c : Dev nD,
      r.2.mem ((c.tc : Thread nD τ).loc main_v113_0) = W18 m ρ c (Proc.devRef .tc main_v113_0)
      ∧ r.2.mem ((c.tc : Thread nD τ).loc main_v114) = W18 m ρ c (Proc.devRef .tc main_v114)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v113_0 (by decide)),
       h c _ (mem_uc main_v114 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c),
       (h c _ (mem_uc main_arg15 (by decide))).trans (W18_main_arg15 m ρ c),
       (h c _ (mem_uc main_arg16 (by decide))).trans (W18_main_arg16 m ρ c),
       (h c _ (mem_uc main_arg17 (by decide))).trans (W18_main_arg17 m ρ c)⟩)

end Cert.KernelIdeal.RunValue

end
-- ==== Proof.FoldArgs.lean ====
/-
  The arguments along the fold of buffer contents.

  The kernel's program is a chain of host stretches and pipelined regions; the contents of the buffers after
  each segment form a fold from the launch memory.  No host operation writes an argument, and a region only
  reads one through an input window, so at every boundary an argument buffer still holds the launch contents.
  This file records that fact at exactly the boundaries where a later segment reads the argument.
-/
import proofs.«158055_j16381005267206_1_alg».proof.Defs
import proofs.«158055_j16381005267206_1_alg».proof.Proof.Gen.KernelIdeal.Frame

set_option maxRecDepth 16384

noncomputable section

open Idealize.ShloMosaic Idealize.ShloMosaic.TcCoe Idealize.SL.Sem
open Idealize.ShloMosaic.Pipeline (Dat)

namespace Cert.KernelIdeal.Fold

open Cert.KernelIdeal Cert.KernelIdeal.Gen

variable (m : (ℓ : Loc nD τ sig) → Buf (Elt Ideal) ℓ) (ρ : Dev nD → PrngReg) (c : Dev nD)
/-- No segment up to boundary 3 writes argument 0: it is still the launch contents. -/
theorem arg0_at3 : W3 m ρ c (Proc.devRef .tc main_arg0) = (m ((c : Thread nD τ).loc main_arg0)) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg0)) := rfl

/-- No segment up to boundary 3 writes argument 4: it is still the launch contents. -/
theorem arg4_at3 : W3 m ρ c (Proc.devRef .tc main_arg4) = (m ((c : Thread nD τ).loc main_arg4)) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg4)) := rfl

/-- No segment up to boundary 4 writes argument 5: it is still the launch contents. -/
theorem arg5_at4 : W4 m ρ c (Proc.devRef .tc main_arg5) = (m ((c : Thread nD τ).loc main_arg5)) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg5)) := rfl

/-- No segment up to boundary 6 writes argument 6: it is still the launch contents. -/
theorem arg6_at6 : W6 m ρ c (Proc.devRef .tc main_arg6) = (m ((c : Thread nD τ).loc main_arg6)) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg6)) := rfl

/-- No segment up to boundary 7 writes argument 7: it is still the launch contents. -/
theorem arg7_at7 : W7 m ρ c (Proc.devRef .tc main_arg7) = (m ((c : Thread nD τ).loc main_arg7)) :=
  calc W7 m ρ c (Proc.devRef .tc main_arg7)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg7)) := rfl

/-- No segment up to boundary 9 writes argument 8: it is still the launch contents. -/
theorem arg8_at9 : W9 m ρ c (Proc.devRef .tc main_arg8) = (m ((c : Thread nD τ).loc main_arg8)) :=
  calc W9 m ρ c (Proc.devRef .tc main_arg8)
    _ = W8 m ρ c (Proc.devRef .tc main_arg8) := W9_of_ne m ρ c main_arg8 (by decide)
    _ = W7 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg8)) := rfl

/-- No segment up to boundary 10 writes argument 9: it is still the launch contents. -/
theorem arg9_at10 : W10 m ρ c (Proc.devRef .tc main_arg9) = (m ((c : Thread nD τ).loc main_arg9)) :=
  calc W10 m ρ c (Proc.devRef .tc main_arg9)
    _ = W9 m ρ c (Proc.devRef .tc main_arg9) := W10_of_ne m ρ c main_arg9 (by decide)
    _ = W8 m ρ c (Proc.devRef .tc main_arg9) := W9_of_ne m ρ c main_arg9 (by decide)
    _ = W7 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg9)) := rfl

/-- No segment up to boundary 12 writes argument 10: it is still the launch contents. -/
theorem arg10_at12 : W12 m ρ c (Proc.devRef .tc main_arg10) = (m ((c : Thread nD τ).loc main_arg10)) :=
  calc W12 m ρ c (Proc.devRef .tc main_arg10)
    _ = W11 m ρ c (Proc.devRef .tc main_arg10) := W12_of_ne m ρ c main_arg10 (by decide)
    _ = W10 m ρ c (Proc.devRef .tc main_arg10) := StableHlo.after_of_forall_not_mem (b := Proc.devRef .tc main_arg10) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg10) := W10_of_ne m ρ c main_arg10 (by decide)
    _ = W8 m ρ c (Proc.devRef .tc main_arg10) := W9_of_ne m ρ c main_arg10 (by decide)
    _ = W7 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg10)) := rfl

/-- No segment up to boundary 13 writes argument 11: it is still the launch contents. -/
theorem arg11_at13 : W13 m ρ c (Proc.devRef .tc main_arg11) = (m ((c : Thread nD τ).loc main_arg11)) :=
  calc W13 m ρ c (Proc.devRef .tc main_arg11)
    _ = W12 m ρ c (Proc.devRef .tc main_arg11) := W13_of_ne m ρ c main_arg11 (by decide)
    _ = W11 m ρ c (Proc.devRef .tc main_arg11) := W12_of_ne m ρ c main_arg11 (by decide)
    _ = W10 m ρ c (Proc.devRef .tc main_arg11) := StableHlo.after_of_forall_not_mem (b := Proc.devRef .tc main_arg11) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg11) := W10_of_ne m ρ c main_arg11 (by decide)
    _ = W8 m ρ c (Proc.devRef .tc main_arg11) := W9_of_ne m ρ c main_arg11 (by decide)
    _ = W7 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg11) := W7_of_ne m ρ c main_arg11 (by decide)
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := StableHlo.after_of_forall_not_mem (b := Proc.devRef .tc main_arg11) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg11)) := rfl

/-- No segment up to boundary 15 writes argument 2: it is still the launch contents. -/
theorem arg2_at15 : W15 m ρ c (Proc.devRef .tc main_arg2) = (m ((c : Thread nD τ).loc main_arg2)) :=
  calc W15 m ρ c (Proc.devRef .tc main_arg2)
    _ = W14 m ρ c (Proc.devRef .tc main_arg2) := W15_of_ne m ρ c main_arg2 (by decide)
    _ = W13 m ρ c (Proc.devRef .tc main_arg2) := StableHlo.after_of_forall_not_mem (b := Proc.devRef .tc main_arg2) _ _ (List.forall_iff_forall_mem.mp (by
          simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg2) := W13_of_ne m ρ c main_arg2 (by decide)
    _ = W11 m ρ c (Proc.devRef .tc main_arg2) := W12_of_ne m ρ c main_arg2 (by decide)
    _ = W10 m ρ c (Proc.devRef .tc main_arg2) := StableHlo.after_of_forall_not_mem (b := Proc.devRef .tc main_arg2) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg2) := W10_of_ne m ρ c main_arg2 (by decide)
    _ = W8 m ρ c (Proc.devRef .tc main_arg2) := W9_of_ne m ρ c main_arg2 (by decide)
    _ = W7 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg2)) := rfl

/-- No segment up to boundary 15 writes argument 13: it is still the launch contents. -/
theorem arg13_at15 : W15 m ρ c (Proc.devRef .tc main_arg13) = (m ((c : Thread nD τ).loc main_arg13)) :=
  calc W15 m ρ c (Proc.devRef .tc main_arg13)
    _ = W14 m ρ c (Proc.devRef .tc main_arg13) := W15_of_ne m ρ c main_arg13 (by decide)
    _ = W13 m ρ c (Proc.devRef .tc main_arg13) := StableHlo.after_of_forall_not_mem (b := Proc.devRef .tc main_arg13) _ _ (List.forall_iff_forall_mem.mp (by
          simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg13) := W13_of_ne m ρ c main_arg13 (by decide)
    _ = W11 m ρ c (Proc.devRef .tc main_arg13) := W12_of_ne m ρ c main_arg13 (by decide)
    _ = W10 m ρ c (Proc.devRef .tc main_arg13) := StableHlo.after_of_forall_not_mem (b := Proc.devRef .tc main_arg13) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg13) := W10_of_ne m ρ c main_arg13 (by decide)
    _ = W8 m ρ c (Proc.devRef .tc main_arg13) := W9_of_ne m ρ c main_arg13 (by decide)
    _ = W7 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg13) := W7_of_ne m ρ c main_arg13 (by decide)
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := StableHlo.after_of_forall_not_mem (b := Proc.devRef .tc main_arg13) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg13)) := rfl

/-- No segment up to boundary 15 writes argument 15: it is still the launch contents. -/
theorem arg15_at15 : W15 m ρ c (Proc.devRef .tc main_arg15) = (m ((c : Thread nD τ).loc main_arg15)) :=
  calc W15 m ρ c (Proc.devRef .tc main_arg15)
    _ = W14 m ρ c (Proc.devRef .tc main_arg15) := W15_of_ne m ρ c main_arg15 (by decide)
    _ = W13 m ρ c (Proc.devRef .tc main_arg15) := StableHlo.after_of_forall_not_mem (b := Proc.devRef .tc main_arg15) _ _ (List.forall_iff_forall_mem.mp (by
          simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg15) := W13_of_ne m ρ c main_arg15 (by decide)
    _ = W11 m ρ c (Proc.devRef .tc main_arg15) := W12_of_ne m ρ c main_arg15 (by decide)
    _ = W10 m ρ c (Proc.devRef .tc main_arg15) := StableHlo.after_of_forall_not_mem (b := Proc.devRef .tc main_arg15) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg15) := W10_of_ne m ρ c main_arg15 (by decide)
    _ = W8 m ρ c (Proc.devRef .tc main_arg15) := W9_of_ne m ρ c main_arg15 (by decide)
    _ = W7 m ρ c (Proc.devRef .tc main_arg15) := StableHlo.after_of_forall_not_mem (b := Proc.devRef .tc main_arg15) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg15) := W7_of_ne m ρ c main_arg15 (by decide)
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := StableHlo.after_of_forall_not_mem (b := Proc.devRef .tc main_arg15) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg15)) := rfl

/-- No segment up to boundary 15 writes argument 17: it is still the launch contents. -/
theorem arg17_at15 : W15 m ρ c (Proc.devRef .tc main_arg17) = (m ((c : Thread nD τ).loc main_arg17)) :=
  calc W15 m ρ c (Proc.devRef .tc main_arg17)
    _ = W14 m ρ c (Proc.devRef .tc main_arg17) := W15_of_ne m ρ c main_arg17 (by decide)
    _ = W13 m ρ c (Proc.devRef .tc main_arg17) := StableHlo.after_of_forall_not_mem (b := Proc.devRef .tc main_arg17) _ _ (List.forall_iff_forall_mem.mp (by
          simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg17) := W13_of_ne m ρ c main_arg17 (by decide)
    _ = W11 m ρ c (Proc.devRef .tc main_arg17) := W12_of_ne m ρ c main_arg17 (by decide)
    _ = W10 m ρ c (Proc.devRef .tc main_arg17) := StableHlo.after_of_forall_not_mem (b := Proc.devRef .tc main_arg17) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg17) := W10_of_ne m ρ c main_arg17 (by decide)
    _ = W8 m ρ c (Proc.devRef .tc main_arg17) := W9_of_ne m ρ c main_arg17 (by decide)
    _ = W7 m ρ c (Proc.devRef .tc main_arg17) := StableHlo.after_of_forall_not_mem (b := Proc.devRef .tc main_arg17) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg17) := W7_of_ne m ρ c main_arg17 (by decide)
    _ = W5 m ρ c (Proc.devRef .tc main_arg17) := W6_of_ne m ρ c main_arg17 (by decide)
    _ = W4 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := StableHlo.after_of_forall_not_mem (b := Proc.devRef .tc main_arg17) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg17)) := rfl

/-- No segment up to boundary 16 writes argument 12: it is still the launch contents. -/
theorem arg12_at16 : W16 m ρ c (Proc.devRef .tc main_arg12) = (m ((c : Thread nD τ).loc main_arg12)) :=
  calc W16 m ρ c (Proc.devRef .tc main_arg12)
    _ = W15 m ρ c (Proc.devRef .tc main_arg12) := StableHlo.after_of_forall_not_mem (b := Proc.devRef .tc main_arg12) _ _ (List.forall_iff_forall_mem.mp (by
          simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W14 m ρ c (Proc.devRef .tc main_arg12) := W15_of_ne m ρ c main_arg12 (by decide)
    _ = W13 m ρ c (Proc.devRef .tc main_arg12) := StableHlo.after_of_forall_not_mem (b := Proc.devRef .tc main_arg12) _ _ (List.forall_iff_forall_mem.mp (by
          simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg12) := W13_of_ne m ρ c main_arg12 (by decide)
    _ = W11 m ρ c (Proc.devRef .tc main_arg12) := W12_of_ne m ρ c main_arg12 (by decide)
    _ = W10 m ρ c (Proc.devRef .tc main_arg12) := StableHlo.after_of_forall_not_mem (b := Proc.devRef .tc main_arg12) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg12) := W10_of_ne m ρ c main_arg12 (by decide)
    _ = W8 m ρ c (Proc.devRef .tc main_arg12) := W9_of_ne m ρ c main_arg12 (by decide)
    _ = W7 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg12) := W7_of_ne m ρ c main_arg12 (by decide)
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := StableHlo.after_of_forall_not_mem (b := Proc.devRef .tc main_arg12) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg12)) := rfl

/-- No segment up to boundary 16 writes argument 14: it is still the launch contents. -/
theorem arg14_at16 : W16 m ρ c (Proc.devRef .tc main_arg14) = (m ((c : Thread nD τ).loc main_arg14)) :=
  calc W16 m ρ c (Proc.devRef .tc main_arg14)
    _ = W15 m ρ c (Proc.devRef .tc main_arg14) := StableHlo.after_of_forall_not_mem (b := Proc.devRef .tc main_arg14) _ _ (List.forall_iff_forall_mem.mp (by
          simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W14 m ρ c (Proc.devRef .tc main_arg14) := W15_of_ne m ρ c main_arg14 (by decide)
    _ = W13 m ρ c (Proc.devRef .tc main_arg14) := StableHlo.after_of_forall_not_mem (b := Proc.devRef .tc main_arg14) _ _ (List.forall_iff_forall_mem.mp (by
          simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg14) := W13_of_ne m ρ c main_arg14 (by decide)
    _ = W11 m ρ c (Proc.devRef .tc main_arg14) := W12_of_ne m ρ c main_arg14 (by decide)
    _ = W10 m ρ c (Proc.devRef .tc main_arg14) := StableHlo.after_of_forall_not_mem (b := Proc.devRef .tc main_arg14) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg14) := W10_of_ne m ρ c main_arg14 (by decide)
    _ = W8 m ρ c (Proc.devRef .tc main_arg14) := W9_of_ne m ρ c main_arg14 (by decide)
    _ = W7 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg14) := W7_of_ne m ρ c main_arg14 (by decide)
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := StableHlo.after_of_forall_not_mem (b := Proc.devRef .tc main_arg14) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg14)) := rfl

/-- No segment up to boundary 16 writes argument 16: it is still the launch contents. -/
theorem arg16_at16 : W16 m ρ c (Proc.devRef .tc main_arg16) = (m ((c : Thread nD τ).loc main_arg16)) :=
  calc W16 m ρ c (Proc.devRef .tc main_arg16)
    _ = W15 m ρ c (Proc.devRef .tc main_arg16) := StableHlo.after_of_forall_not_mem (b := Proc.devRef .tc main_arg16) _ _ (List.forall_iff_forall_mem.mp (by
          simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W14 m ρ c (Proc.devRef .tc main_arg16) := W15_of_ne m ρ c main_arg16 (by decide)
    _ = W13 m ρ c (Proc.devRef .tc main_arg16) := StableHlo.after_of_forall_not_mem (b := Proc.devRef .tc main_arg16) _ _ (List.forall_iff_forall_mem.mp (by
          simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg16) := W13_of_ne m ρ c main_arg16 (by decide)
    _ = W11 m ρ c (Proc.devRef .tc main_arg16) := W12_of_ne m ρ c main_arg16 (by decide)
    _ = W10 m ρ c (Proc.devRef .tc main_arg16) := StableHlo.after_of_forall_not_mem (b := Proc.devRef .tc main_arg16) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg16) := W10_of_ne m ρ c main_arg16 (by decide)
    _ = W8 m ρ c (Proc.devRef .tc main_arg16) := W9_of_ne m ρ c main_arg16 (by decide)
    _ = W7 m ρ c (Proc.devRef .tc main_arg16) := StableHlo.after_of_forall_not_mem (b := Proc.devRef .tc main_arg16) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg16) := W7_of_ne m ρ c main_arg16 (by decide)
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := StableHlo.after_of_forall_not_mem (b := Proc.devRef .tc main_arg16) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg16)) := rfl

end Cert.KernelIdeal.Fold

end
-- ==== Proof.FoldCarry.lean ====
/-
  The edge arrays along the fold.

  Three arrays computed before the first region are read again by every layer's gather and scatter: the source
  index of every edge (with the self loops appended), the destination index, and the symmetric normalisation
  weight of every edge.  No later host operation writes them and no region owns them, so each layer finds them
  as the preamble left them.
-/
import proofs.«158055_j16381005267206_1_alg».proof.Defs
import proofs.«158055_j16381005267206_1_alg».proof.Proof.Gen.KernelIdeal.Frame

set_option maxRecDepth 16384

noncomputable section

open Idealize.ShloMosaic Idealize.ShloMosaic.TcCoe Idealize.SL.Sem
open Idealize.ShloMosaic.Pipeline (Dat)

namespace Cert.KernelIdeal.Fold

open Cert.KernelIdeal Cert.KernelIdeal.Gen

variable (m : (ℓ : Loc nD τ sig) → Buf (Elt Ideal) ℓ) (ρ : Dev nD → PrngReg) (c : Dev nD)
/-- Between boundaries 3 and 4 nothing writes this edge array. -/
theorem v5_at4 : W4 m ρ c (Proc.devRef .tc main_v5) = W3 m ρ c (Proc.devRef .tc main_v5) :=
  calc W4 m ρ c (Proc.devRef .tc main_v5)
    _ = W3 m ρ c (Proc.devRef .tc main_v5) := W4_of_ne m ρ c main_v5 (by decide)

/-- Between boundaries 4 and 7 nothing writes this edge array. -/
theorem v5_at7 : W7 m ρ c (Proc.devRef .tc main_v5) = W4 m ρ c (Proc.devRef .tc main_v5) :=
  calc W7 m ρ c (Proc.devRef .tc main_v5)
    _ = W6 m ρ c (Proc.devRef .tc main_v5) := W7_of_ne m ρ c main_v5 (by decide)
    _ = W5 m ρ c (Proc.devRef .tc main_v5) := W6_of_ne m ρ c main_v5 (by decide)
    _ = W4 m ρ c (Proc.devRef .tc main_v5) := StableHlo.after_of_forall_not_mem (b := Proc.devRef .tc main_v5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Between boundaries 7 and 10 nothing writes this edge array. -/
theorem v5_at10 : W10 m ρ c (Proc.devRef .tc main_v5) = W7 m ρ c (Proc.devRef .tc main_v5) :=
  calc W10 m ρ c (Proc.devRef .tc main_v5)
    _ = W9 m ρ c (Proc.devRef .tc main_v5) := W10_of_ne m ρ c main_v5 (by decide)
    _ = W8 m ρ c (Proc.devRef .tc main_v5) := W9_of_ne m ρ c main_v5 (by decide)
    _ = W7 m ρ c (Proc.devRef .tc main_v5) := StableHlo.after_of_forall_not_mem (b := Proc.devRef .tc main_v5) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Between boundaries 10 and 13 nothing writes this edge array. -/
theorem v5_at13 : W13 m ρ c (Proc.devRef .tc main_v5) = W10 m ρ c (Proc.devRef .tc main_v5) :=
  calc W13 m ρ c (Proc.devRef .tc main_v5)
    _ = W12 m ρ c (Proc.devRef .tc main_v5) := W13_of_ne m ρ c main_v5 (by decide)
    _ = W11 m ρ c (Proc.devRef .tc main_v5) := W12_of_ne m ρ c main_v5 (by decide)
    _ = W10 m ρ c (Proc.devRef .tc main_v5) := StableHlo.after_of_forall_not_mem (b := Proc.devRef .tc main_v5) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Between boundaries 3 and 4 nothing writes this edge array. -/
theorem v6_at4 : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

/-- Between boundaries 4 and 7 nothing writes this edge array. -/
theorem v6_at7 : W7 m ρ c (Proc.devRef .tc main_v6) = W4 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Between boundaries 7 and 10 nothing writes this edge array. -/
theorem v6_at10 : W10 m ρ c (Proc.devRef .tc main_v6) = W7 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := StableHlo.after_of_forall_not_mem (b := Proc.devRef .tc main_v6) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Between boundaries 10 and 13 nothing writes this edge array. -/
theorem v6_at13 : W13 m ρ c (Proc.devRef .tc main_v6) = W10 m ρ c (Proc.devRef .tc main_v6) :=
  calc W13 m ρ c (Proc.devRef .tc main_v6)
    _ = W12 m ρ c (Proc.devRef .tc main_v6) := W13_of_ne m ρ c main_v6 (by decide)
    _ = W11 m ρ c (Proc.devRef .tc main_v6) := W12_of_ne m ρ c main_v6 (by decide)
    _ = W10 m ρ c (Proc.devRef .tc main_v6) := StableHlo.after_of_forall_not_mem (b := Proc.devRef .tc main_v6) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Between boundaries 3 and 4 nothing writes this edge array. -/
theorem v33_at4 : W4 m ρ c (Proc.devRef .tc main_v33) = W3 m ρ c (Proc.devRef .tc main_v33) :=
  calc W4 m ρ c (Proc.devRef .tc main_v33)
    _ = W3 m ρ c (Proc.devRef .tc main_v33) := W4_of_ne m ρ c main_v33 (by decide)

/-- Between boundaries 4 and 7 nothing writes this edge array. -/
theorem v33_at7 : W7 m ρ c (Proc.devRef .tc main_v33) = W4 m ρ c (Proc.devRef .tc main_v33) :=
  calc W7 m ρ c (Proc.devRef .tc main_v33)
    _ = W6 m ρ c (Proc.devRef .tc main_v33) := W7_of_ne m ρ c main_v33 (by decide)
    _ = W5 m ρ c (Proc.devRef .tc main_v33) := W6_of_ne m ρ c main_v33 (by decide)
    _ = W4 m ρ c (Proc.devRef .tc main_v33) := StableHlo.after_of_forall_not_mem (b := Proc.devRef .tc main_v33) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Between boundaries 7 and 10 nothing writes this edge array. -/
theorem v33_at10 : W10 m ρ c (Proc.devRef .tc main_v33) = W7 m ρ c (Proc.devRef .tc main_v33) :=
  calc W10 m ρ c (Proc.devRef .tc main_v33)
    _ = W9 m ρ c (Proc.devRef .tc main_v33) := W10_of_ne m ρ c main_v33 (by decide)
    _ = W8 m ρ c (Proc.devRef .tc main_v33) := W9_of_ne m ρ c main_v33 (by decide)
    _ = W7 m ρ c (Proc.devRef .tc main_v33) := StableHlo.after_of_forall_not_mem (b := Proc.devRef .tc main_v33) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Between boundaries 10 and 13 nothing writes this edge array. -/
theorem v33_at13 : W13 m ρ c (Proc.devRef .tc main_v33) = W10 m ρ c (Proc.devRef .tc main_v33) :=
  calc W13 m ρ c (Proc.devRef .tc main_v33)
    _ = W12 m ρ c (Proc.devRef .tc main_v33) := W13_of_ne m ρ c main_v33 (by decide)
    _ = W11 m ρ c (Proc.devRef .tc main_v33) := W12_of_ne m ρ c main_v33 (by decide)
    _ = W10 m ρ c (Proc.devRef .tc main_v33) := StableHlo.after_of_forall_not_mem (b := Proc.devRef .tc main_v33) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Fold

end
-- ==== Proof.Matmul.lean ====
/-
  The four matrix-product regions of the kernel, each as one whole-array function.

  Each of these regions multiplies the rows of a node-feature array (50000 rows; 3 columns in the first layer, 128
  afterwards) by a weight matrix with 128 columns.  The grid has ten points; point t loads rows 5000·t … 5000·t + 4999
  of the left factor and the whole right factor, multiplies them into a zero accumulator, and writes the 5000 × 128
  block of products back to the same rows of the output.  At the ideal instance a product into a zero accumulator is
  the plain sum over the contracted axis, so block t of the output is block t of the whole product, and since the ten
  row blocks tile the 50000 rows the output array ends holding the whole product.
-/
import proofs.«158055_j16381005267206_1_alg».proof.Defs
import proofs.«158055_j16381005267206_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.MatmulValue

open Cert.KernelIdeal Cert.KernelIdeal.Gen

theorem hz : (![0, 0] : Fin 2 → Nat) = fun _ => 0 := funext fun a => by fin_cases a <;> rfl

/-! ## The whole-array products -/

/-- Entry (r, k) of a 50000 × 3 array, for the output index (r, q). -/
abbrev arow3 (i : S50000x128.Idx) (k : Fin 3) : S50000x3.Idx := fun a => match a with
  | ⟨0, _⟩ => ⟨(i 0).val, (i 0).isLt⟩
  | ⟨1, _⟩ => ⟨k.val, k.isLt⟩
/-- Entry (k, q) of a 3 × 128 array, for the output index (r, q). -/
abbrev acol3 (i : S50000x128.Idx) (k : Fin 3) : S3x128.Idx := fun a => match a with
  | ⟨0, _⟩ => ⟨k.val, k.isLt⟩
  | ⟨1, _⟩ => ⟨(i 1).val, (i 1).isLt⟩
/-- The product of a 50000 × 3 array and a 3 × 128 array over the extended reals. -/
def prod3 (X : S50000x3.Idx → EReal) (Wt : S3x128.Idx → EReal) : S50000x128.Idx → EReal :=
  fun i => ∑ k : Fin 3, X (arow3 i k) * Wt (acol3 i k)
theorem prod3_apply (X : S50000x3.Idx → EReal) (Wt : S3x128.Idx → EReal) (i : S50000x128.Idx) :
    prod3 X Wt i = ∑ k : Fin 3, X (arow3 i k) * Wt (acol3 i k) := rfl

/-- Entry (r, k) of a 50000 × 128 array, for the output index (r, q). -/
abbrev arow128 (i : S50000x128.Idx) (k : Fin 128) : S50000x128.Idx := fun a => match a with
  | ⟨0, _⟩ => ⟨(i 0).val, (i 0).isLt⟩
  | ⟨1, _⟩ => ⟨k.val, k.isLt⟩
/-- Entry (k, q) of a 128 × 128 array, for the output index (r, q). -/
abbrev acol128 (i : S50000x128.Idx) (k : Fin 128) : S128x128.Idx := fun a => match a with
  | ⟨0, _⟩ => ⟨k.val, k.isLt⟩
  | ⟨1, _⟩ => ⟨(i 1).val, (i 1).isLt⟩
/-- The product of a 50000 × 128 array and a 128 × 128 array over the extended reals. -/
def prod128 (X : S50000x128.Idx → EReal) (Wt : S128x128.Idx → EReal) : S50000x128.Idx → EReal :=
  fun i => ∑ k : Fin 128, X (arow128 i k) * Wt (acol128 i k)
theorem prod128_apply (X : S50000x128.Idx → EReal) (Wt : S128x128.Idx → EReal) (i : S50000x128.Idx) :
    prod128 X Wt i = ∑ k : Fin 128, X (arow128 i k) * Wt (acol128 i k) := rfl

variable (V : (c : Dev nD) → (b : Ref sig .tc) → Buf (Elt Ideal) ((c : Thread nD τ).loc b))

/-! ## Region 0: rows of a 50000x3 array times a 3x128 array, 5000 rows per grid point -/

theorem lhs0_0 (j : S5000x128.Idx) (q : dot_S5000x3_S3x128_S5000x128_1_0_0_1_n_n.contr.Idx) : (dot_S5000x3_S3x128_S5000x128_1_0_0_1_n_n.lhsIdx j q 0).val = (j 0).val := by
  unfold DotDims.lhsIdx
  rw [dif_neg (show ¬(0 : Fin S5000x3.rank) ∈ dot_S5000x3_S3x128_S5000x128_1_0_0_1_n_n.lhsBatch by decide), dif_pos (show (0 : Fin S5000x3.rank) ∈ dot_S5000x3_S3x128_S5000x128_1_0_0_1_n_n.lhsNonContracting by decide)]
  rfl
theorem lhs0_1 (j : S5000x128.Idx) (q : dot_S5000x3_S3x128_S5000x128_1_0_0_1_n_n.contr.Idx) : (dot_S5000x3_S3x128_S5000x128_1_0_0_1_n_n.lhsIdx j q 1).val = (q ⟨0, by decide⟩).val :=
  dot_S5000x3_S3x128_S5000x128_1_0_0_1_n_n.lhsIdx_val_of_single rfl j q
theorem rhs0_0 (j : S5000x128.Idx) (q : dot_S5000x3_S3x128_S5000x128_1_0_0_1_n_n.contr.Idx) : (dot_S5000x3_S3x128_S5000x128_1_0_0_1_n_n.rhsIdx j q 0).val = (q ⟨0, by decide⟩).val :=
  dot_S5000x3_S3x128_S5000x128_1_0_0_1_n_n.rhsIdx_val_of_single rfl j q
theorem rhs0_1 (j : S5000x128.Idx) (q : dot_S5000x3_S3x128_S5000x128_1_0_0_1_n_n.contr.Idx) : (dot_S5000x3_S3x128_S5000x128_1_0_0_1_n_n.rhsIdx j q 1).val = (j 1).val := by
  unfold DotDims.rhsIdx
  rw [dif_neg (show ¬(1 : Fin S3x128.rank) ∈ dot_S5000x3_S3x128_S5000x128_1_0_0_1_n_n.rhsBatch by decide), dif_pos (show (1 : Fin S3x128.rank) ∈ dot_S5000x3_S3x128_S5000x128_1_0_0_1_n_n.rhsNonContracting by decide)]
  rfl

/-- Row `j 0` of a block of the left factor, at column `k`. -/
abbrev brow0 (j : S5000x128.Idx) (k : Fin 3) : S5000x3.Idx := fun a => match a with
  | ⟨0, _⟩ => ⟨(j 0).val, (j 0).isLt⟩
  | ⟨1, _⟩ => ⟨k.val, k.isLt⟩
/-- Column `j 1` of the right factor, at row `k`. -/
abbrev bcol0 (j : S5000x128.Idx) (k : Fin 3) : S3x128.Idx := fun a => match a with
  | ⟨0, _⟩ => ⟨k.val, k.isLt⟩
  | ⟨1, _⟩ => ⟨(j 1).val, (j 1).isLt⟩

/-- The body's one store, read at an index: the matrix product into a zero accumulator is the plain sum over the
    contracted axis. -/
theorem pay0_apply (x : Vec Ideal S5000x3 .f32) (w : Vec Ideal S3x128 .f32) (j : S5000x128.Idx) :
    k0_pay1 (F := Ideal) x w j = ∑ k : Fin 3, x (brow0 j k) * w (bcol0 j k) := by
  unfold k0_pay1
  refine (Ideal.matmul_constant_zero_apply dot_S5000x3_S3x128_S5000x128_1_0_0_1_n_n none x w j).trans ?_
  rw [← Equiv.sum_comp (ValueIdx.contrEquiv1 dot_S5000x3_S3x128_S5000x128_1_0_0_1_n_n 3 rfl rfl).symm]
  refine Finset.sum_congr rfl fun k _ => ?_
  have hk := ValueIdx.contrEquiv1_symm_val dot_S5000x3_S3x128_S5000x128_1_0_0_1_n_n 3 rfl rfl k
  have el : dot_S5000x3_S3x128_S5000x128_1_0_0_1_n_n.lhsIdx j ((ValueIdx.contrEquiv1 dot_S5000x3_S3x128_S5000x128_1_0_0_1_n_n 3 rfl rfl).symm k) = brow0 j k := funext fun a => Fin.ext (by
    match a with
    | ⟨0, _⟩ => exact lhs0_0 _ _
    | ⟨1, _⟩ => exact (lhs0_1 _ _).trans hk)
  have er : dot_S5000x3_S3x128_S5000x128_1_0_0_1_n_n.rhsIdx j ((ValueIdx.contrEquiv1 dot_S5000x3_S3x128_S5000x128_1_0_0_1_n_n 3 rfl rfl).symm k) = bcol0 j k := funext fun a => Fin.ext (by
    match a with
    | ⟨0, _⟩ => exact (rhs0_0 _ _).trans hk
    | ⟨1, _⟩ => exact rhs0_1 _ _)
  rw [el, er]

/-- The index maps over the ten grid points: the left factor's block moves with the output's along the rows and
    sits at column block 0; the right factor is one block; the output has one column block. -/
theorem idx0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every row block is some grid point's. -/
theorem onto0 : ∀ q : Fin 10, ∃ t : Fin cfg0.N, win0_2.index t = ![q.val, 0] :=
  (by decide +kernel : ∀ q : Fin 10, ∃ t : Fin grid0.N, win0_2.index t = ![q.val, 0])

/-- What grid point `t` writes back is block `t` of the product of the two arrays the region finds. -/
theorem flushed0 (c : Dev nD) (t : Fin cfg0.N) :
    (dat0 (F := Ideal) V c).flushed 2 t = ((cfg0.win 2).blk t).view.read (Elt Ideal)
      (prod3 (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S5000x3) hz, View.ld_unit_zero (S := S3x128) hz]
  obtain ⟨e0, e1, e2, e3, e4⟩ := idx0 t
  funext j
  show k0_pay1 (F := Ideal) (iblk0 V c 0 t) (iblk0 V c 1 t) j
    = prod3 (V c (Pipeline.arrRef spec0 0)) (V c (Pipeline.arrRef spec0 1)) (((cfg0.win 2).blk t).view.emb j)
  rw [pay0_apply, prod3_apply]
  refine Finset.sum_congr rfl fun k _ => ?_
  have h0 : ((cfg0.win 0).blk t).view.emb (brow0 j k) = arow3 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 3 + 1 * k.val = k.val; omega
  have h1 : ((cfg0.win 1).blk t).view.emb (bcol0 j k) = acol3 (((cfg0.win 2).blk t).view.emb j) k := by
    funext a; apply Fin.ext
    match a with
    | ⟨0, _⟩ => show win0_1.index t (0 : Fin 2) * 3 + 1 * k.val = k.val; omega
    | ⟨1, _⟩ => show win0_1.index t (1 : Fin 2) * 128 + 1 * (j 1).val = win0_2.index t (1 : Fin 2) * 128 + 1 * (j 1).val; omega
  unfold iblk0
  rw [View.read_apply, View.read_apply, h0, h1]
  rfl

/-- An index of the output array is in point `t`'s block iff each coordinate is in the block's range. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v34).slice (win0_2.rect t)).set ↔ _
  rw [View.set_slice_whole, Rect.mem_set_unit]
  exact Iff.rfl

/-- The ten row blocks tile the output, so after the region it holds the whole product. -/
theorem region0 (c : Dev nD) :
    (dat0 (F := Ideal) V c).arrAt 2 cfg0.N = prod3 (V c (Pipeline.arrRef spec0 0)) (V c (Pipeline.arrRef spec0 1)) :=
  (dat0 (F := Ideal) V c).arrAt_eq_of_cover 2 _ (fun t _ => flushed0 V c t) (fun i => by
    have hi0 : (i 0).val < 50000 := (i 0).isLt
    have hi1 : (i 1).val < 128 := (i 1).isLt
    obtain ⟨t, ht⟩ := onto0 ⟨(i 0).val / 5000, by omega⟩
    have q0 : win0_2.index t (0 : Fin 2) = (i 0).val / 5000 := congrFun ht 0
    have q1 : win0_2.index t (1 : Fin 2) = 0 := congrFun ht 1
    refine ⟨t, flush0_2 t, ?_⟩
    rw [mem_blk0]
    intro a
    match a with
    | ⟨0, _⟩ => show win0_2.index t (0 : Fin 2) * 5000 ≤ (i 0).val ∧ (i 0).val < win0_2.index t (0 : Fin 2) * 5000 + 5000; omega
    | ⟨1, _⟩ => show win0_2.index t (1 : Fin 2) * 128 ≤ (i 1).val ∧ (i 1).val < win0_2.index t (1 : Fin 2) * 128 + 128; omega)

/-! ## Region 2: rows of a 50000x128 array times a 128x128 array, 5000 rows per grid point -/

theorem lhs2_0 (j : S5000x128.Idx) (q : dot_S5000x128_S128x128_S5000x128_1_0_0_1_n_n.contr.Idx) : (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs2_1 (j : S5000x128.Idx) (q : dot_S5000x128_S128x128_S5000x128_1_0_0_1_n_n.contr.Idx) : (dot_S5000x128_S128x128_S5000x128_1_0_0_1_n_n.lhsIdx j q 1).val = (q ⟨0, by decide⟩).val :=
  dot_S5000x128_S128x128_S5000x128_1_0_0_1_n_n.lhsIdx_val_of_single rfl j q
theorem rhs2_0 (j : S5000x128.Idx) (q : dot_S5000x128_S128x128_S5000x128_1_0_0_1_n_n.contr.Idx) : (dot_S5000x128_S128x128_S5000x128_1_0_0_1_n_n.rhsIdx j q 0).val = (q ⟨0, by decide⟩).val :=
  dot_S5000x128_S128x128_S5000x128_1_0_0_1_n_n.rhsIdx_val_of_single rfl j q
theorem rhs2_1 (j : S5000x128.Idx) (q : dot_S5000x128_S128x128_S5000x128_1_0_0_1_n_n.contr.Idx) : (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Row `j 0` of a block of the left factor, at column `k`. -/
abbrev brow2 (j : S5000x128.Idx) (k : Fin 128) : S5000x128.Idx := fun a => match a with
  | ⟨0, _⟩ => ⟨(j 0).val, (j 0).isLt⟩
  | ⟨1, _⟩ => ⟨k.val, k.isLt⟩
/-- Column `j 1` of the right factor, at row `k`. -/
abbrev bcol2 (j : S5000x128.Idx) (k : Fin 128) : S128x128.Idx := fun a => match a with
  | ⟨0, _⟩ => ⟨k.val, k.isLt⟩
  | ⟨1, _⟩ => ⟨(j 1).val, (j 1).isLt⟩

/-- The body's one store, read at an index: the matrix product into a zero accumulator is the plain sum over the
    contracted axis. -/
theorem pay2_apply (x : Vec Ideal S5000x128 .f32) (w : Vec Ideal S128x128 .f32) (j : S5000x128.Idx) :
    k2_pay1 (F := Ideal) x w j = ∑ k : Fin 128, x (brow2 j k) * w (bcol2 j k) := by
  unfold k2_pay1
  simp only [shapeCast_self]
  refine (Ideal.matmul_constant_zero_apply dot_S5000x128_S128x128_S5000x128_1_0_0_1_n_n none x w j).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = brow2 j k := funext fun a => Fin.ext (by
    match a with
    | ⟨0, _⟩ => exact lhs2_0 _ _
    | ⟨1, _⟩ => exact (lhs2_1 _ _).trans hk)
  have er : dot_S5000x128_S128x128_S5000x128_1_0_0_1_n_n.rhsIdx j ((ValueIdx.contrEquiv1 dot_S5000x128_S128x128_S5000x128_1_0_0_1_n_n 128 rfl rfl).symm k) = bcol2 j k := funext fun a => Fin.ext (by
    match a with
    | ⟨0, _⟩ => exact (rhs2_0 _ _).trans hk
    | ⟨1, _⟩ => exact rhs2_1 _ _)
  rw [el, er]

/-- The index maps over the ten grid points: the left factor's block moves with the output's along the rows and
    sits at column block 0; the right factor is one block; the output has one column block. -/
theorem idx2 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 :=
  (by decide +kernel : ∀ t : Fin grid2.N, _)

/-- Every row block is some grid point's. -/
theorem onto2 : ∀ q : Fin 10, ∃ t : Fin cfg2.N, win2_2.index t = ![q.val, 0] :=
  (by decide +kernel : ∀ q : Fin 10, ∃ t : Fin grid2.N, win2_2.index t = ![q.val, 0])

/-- What grid point `t` writes back is block `t` of the product of the two arrays the region finds. -/
theorem flushed2 (c : Dev nD) (t : Fin cfg2.N) :
    (dat2 (F := Ideal) V c).flushed 2 t = ((cfg2.win 2).blk t).view.read (Elt Ideal)
      (prod128 (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4⟩ := idx2 t
  funext j
  show k2_pay1 (F := Ideal) (iblk2 V c 0 t) (iblk2 V c 1 t) j
    = prod128 (V c (Pipeline.arrRef spec2 0)) (V c (Pipeline.arrRef spec2 1)) (((cfg2.win 2).blk t).view.emb j)
  rw [pay2_apply, prod128_apply]
  refine Finset.sum_congr rfl fun k _ => ?_
  have h0 : ((cfg2.win 0).blk t).view.emb (brow2 j k) = arow128 (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : ((cfg2.win 1).blk t).view.emb (bcol2 j k) = acol128 (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  unfold iblk2
  rw [View.read_apply, View.read_apply, h0, h1]
  rfl

/-- An index of the output array is in point `t`'s block iff each coordinate is in the block's range. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v50).slice (win2_2.rect t)).set ↔ _
  rw [View.set_slice_whole, Rect.mem_set_unit]
  exact Iff.rfl

/-- The ten row blocks tile the output, so after the region it holds the whole product. -/
theorem region2 (c : Dev nD) :
    (dat2 (F := Ideal) V c).arrAt 2 cfg2.N = prod128 (V c (Pipeline.arrRef spec2 0)) (V c (Pipeline.arrRef spec2 1)) :=
  (dat2 (F := Ideal) V c).arrAt_eq_of_cover 2 _ (fun t _ => flushed2 V c t) (fun i => by
    have hi0 : (i 0).val < 50000 := (i 0).isLt
    have hi1 : (i 1).val < 128 := (i 1).isLt
    obtain ⟨t, ht⟩ := onto2 ⟨(i 0).val / 5000, by omega⟩
    have q0 : win2_2.index t (0 : Fin 2) = (i 0).val / 5000 := congrFun ht 0
    have q1 : win2_2.index t (1 : Fin 2) = 0 := congrFun ht 1
    refine ⟨t, flush2_2 t, ?_⟩
    rw [mem_blk2]
    intro a
    match a with
    | ⟨0, _⟩ => show win2_2.index t (0 : Fin 2) * 5000 ≤ (i 0).val ∧ (i 0).val < win2_2.index t (0 : Fin 2) * 5000 + 5000; omega
    | ⟨1, _⟩ => show win2_2.index t (1 : Fin 2) * 128 ≤ (i 1).val ∧ (i 1).val < win2_2.index t (1 : Fin 2) * 128 + 128; omega)

/-! ## Region 4: rows of a 50000x128 array times a 128x128 array, 5000 rows per grid point -/

theorem lhs4_0 (j : S5000x128.Idx) (q : dot_S5000x128_S128x128_S5000x128_1_0_0_1_n_n.contr.Idx) : (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs4_1 (j : S5000x128.Idx) (q : dot_S5000x128_S128x128_S5000x128_1_0_0_1_n_n.contr.Idx) : (dot_S5000x128_S128x128_S5000x128_1_0_0_1_n_n.lhsIdx j q 1).val = (q ⟨0, by decide⟩).val :=
  dot_S5000x128_S128x128_S5000x128_1_0_0_1_n_n.lhsIdx_val_of_single rfl j q
theorem rhs4_0 (j : S5000x128.Idx) (q : dot_S5000x128_S128x128_S5000x128_1_0_0_1_n_n.contr.Idx) : (dot_S5000x128_S128x128_S5000x128_1_0_0_1_n_n.rhsIdx j q 0).val = (q ⟨0, by decide⟩).val :=
  dot_S5000x128_S128x128_S5000x128_1_0_0_1_n_n.rhsIdx_val_of_single rfl j q
theorem rhs4_1 (j : S5000x128.Idx) (q : dot_S5000x128_S128x128_S5000x128_1_0_0_1_n_n.contr.Idx) : (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Row `j 0` of a block of the left factor, at column `k`. -/
abbrev brow4 (j : S5000x128.Idx) (k : Fin 128) : S5000x128.Idx := fun a => match a with
  | ⟨0, _⟩ => ⟨(j 0).val, (j 0).isLt⟩
  | ⟨1, _⟩ => ⟨k.val, k.isLt⟩
/-- Column `j 1` of the right factor, at row `k`. -/
abbrev bcol4 (j : S5000x128.Idx) (k : Fin 128) : S128x128.Idx := fun a => match a with
  | ⟨0, _⟩ => ⟨k.val, k.isLt⟩
  | ⟨1, _⟩ => ⟨(j 1).val, (j 1).isLt⟩

/-- The body's one store, read at an index: the matrix product into a zero accumulator is the plain sum over the
    contracted axis. -/
theorem pay4_apply (x : Vec Ideal S5000x128 .f32) (w : Vec Ideal S128x128 .f32) (j : S5000x128.Idx) :
    k4_pay1 (F := Ideal) x w j = ∑ k : Fin 128, x (brow4 j k) * w (bcol4 j k) := by
  unfold k4_pay1
  simp only [shapeCast_self]
  refine (Ideal.matmul_constant_zero_apply dot_S5000x128_S128x128_S5000x128_1_0_0_1_n_n none x w j).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = brow4 j k := funext fun a => Fin.ext (by
    match a with
    | ⟨0, _⟩ => exact lhs4_0 _ _
    | ⟨1, _⟩ => exact (lhs4_1 _ _).trans hk)
  have er : dot_S5000x128_S128x128_S5000x128_1_0_0_1_n_n.rhsIdx j ((ValueIdx.contrEquiv1 dot_S5000x128_S128x128_S5000x128_1_0_0_1_n_n 128 rfl rfl).symm k) = bcol4 j k := funext fun a => Fin.ext (by
    match a with
    | ⟨0, _⟩ => exact (rhs4_0 _ _).trans hk
    | ⟨1, _⟩ => exact rhs4_1 _ _)
  rw [el, er]

/-- The index maps over the ten grid points: the left factor's block moves with the output's along the rows and
    sits at column block 0; the right factor is one block; the output has one column block. -/
theorem idx4 : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 :=
  (by decide +kernel : ∀ t : Fin grid4.N, _)

/-- Every row block is some grid point's. -/
theorem onto4 : ∀ q : Fin 10, ∃ t : Fin cfg4.N, win4_2.index t = ![q.val, 0] :=
  (by decide +kernel : ∀ q : Fin 10, ∃ t : Fin grid4.N, win4_2.index t = ![q.val, 0])

/-- What grid point `t` writes back is block `t` of the product of the two arrays the region finds. -/
theorem flushed4 (c : Dev nD) (t : Fin cfg4.N) :
    (dat4 (F := Ideal) V c).flushed 2 t = ((cfg4.win 2).blk t).view.read (Elt Ideal)
      (prod128 (V c (Pipeline.arrRef spec4 0)) (V c (Pipeline.arrRef spec4 1))) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x128) hz]
  obtain ⟨e0, e1, e2, e3, e4⟩ := idx4 t
  funext j
  show k4_pay1 (F := Ideal) (iblk4 V c 0 t) (iblk4 V c 1 t) j
    = prod128 (V c (Pipeline.arrRef spec4 0)) (V c (Pipeline.arrRef spec4 1)) (((cfg4.win 2).blk t).view.emb j)
  rw [pay4_apply, prod128_apply]
  refine Finset.sum_congr rfl fun k _ => ?_
  have h0 : ((cfg4.win 0).blk t).view.emb (brow4 j k) = arow128 (((cfg4.win 2).blk t).view.emb j) k := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  have h1 : ((cfg4.win 1).blk t).view.emb (bcol4 j k) = acol128 (((cfg4.win 2).blk t).view.emb j) k := by
    funext a; apply Fin.ext
    match a with
    | ⟨0, _⟩ => show win4_1.index t (0 : Fin 2) * 128 + 1 * k.val = k.val; omega
    | ⟨1, _⟩ => show win4_1.index t (1 : Fin 2) * 128 + 1 * (j 1).val = win4_2.index t (1 : Fin 2) * 128 + 1 * (j 1).val; omega
  unfold iblk4
  rw [View.read_apply, View.read_apply, h0, h1]
  rfl

/-- An index of the output array is in point `t`'s block iff each coordinate is in the block's range. -/
theorem mem_blk4 (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v66).slice (win4_2.rect t)).set ↔ _
  rw [View.set_slice_whole, Rect.mem_set_unit]
  exact Iff.rfl

/-- The ten row blocks tile the output, so after the region it holds the whole product. -/
theorem region4 (c : Dev nD) :
    (dat4 (F := Ideal) V c).arrAt 2 cfg4.N = prod128 (V c (Pipeline.arrRef spec4 0)) (V c (Pipeline.arrRef spec4 1)) :=
  (dat4 (F := Ideal) V c).arrAt_eq_of_cover 2 _ (fun t _ => flushed4 V c t) (fun i => by
    have hi0 : (i 0).val < 50000 := (i 0).isLt
    have hi1 : (i 1).val < 128 := (i 1).isLt
    obtain ⟨t, ht⟩ := onto4 ⟨(i 0).val / 5000, by omega⟩
    have q0 : win4_2.index t (0 : Fin 2) = (i 0).val / 5000 := congrFun ht 0
    have q1 : win4_2.index t (1 : Fin 2) = 0 := congrFun ht 1
    refine ⟨t, flush4_2 t, ?_⟩
    rw [mem_blk4]
    intro a
    match a with
    | ⟨0, _⟩ => show win4_2.index t (0 : Fin 2) * 5000 ≤ (i 0).val ∧ (i 0).val < win4_2.index t (0 : Fin 2) * 5000 + 5000; omega
    | ⟨1, _⟩ => show win4_2.index t (1 : Fin 2) * 128 ≤ (i 1).val ∧ (i 1).val < win4_2.index t (1 : Fin 2) * 128 + 128; omega)

/-! ## Region 6: rows of a 50000x128 array times a 128x128 array, 5000 rows per grid point -/

theorem lhs6_0 (j : S5000x128.Idx) (q : dot_S5000x128_S128x128_S5000x128_1_0_0_1_n_n.contr.Idx) : (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs6_1 (j : S5000x128.Idx) (q : dot_S5000x128_S128x128_S5000x128_1_0_0_1_n_n.contr.Idx) : (dot_S5000x128_S128x128_S5000x128_1_0_0_1_n_n.lhsIdx j q 1).val = (q ⟨0, by decide⟩).val :=
  dot_S5000x128_S128x128_S5000x128_1_0_0_1_n_n.lhsIdx_val_of_single rfl j q
theorem rhs6_0 (j : S5000x128.Idx) (q : dot_S5000x128_S128x128_S5000x128_1_0_0_1_n_n.contr.Idx) : (dot_S5000x128_S128x128_S5000x128_1_0_0_1_n_n.rhsIdx j q 0).val = (q ⟨0, by decide⟩).val :=
  dot_S5000x128_S128x128_S5000x128_1_0_0_1_n_n.rhsIdx_val_of_single rfl j q
theorem rhs6_1 (j : S5000x128.Idx) (q : dot_S5000x128_S128x128_S5000x128_1_0_0_1_n_n.contr.Idx) : (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Row `j 0` of a block of the left factor, at column `k`. -/
abbrev brow6 (j : S5000x128.Idx) (k : Fin 128) : S5000x128.Idx := fun a => match a with
  | ⟨0, _⟩ => ⟨(j 0).val, (j 0).isLt⟩
  | ⟨1, _⟩ => ⟨k.val, k.isLt⟩
/-- Column `j 1` of the right factor, at row `k`. -/
abbrev bcol6 (j : S5000x128.Idx) (k : Fin 128) : S128x128.Idx := fun a => match a with
  | ⟨0, _⟩ => ⟨k.val, k.isLt⟩
  | ⟨1, _⟩ => ⟨(j 1).val, (j 1).isLt⟩

/-- The body's one store, read at an index: the matrix product into a zero accumulator is the plain sum over the
    contracted axis. -/
theorem pay6_apply (x : Vec Ideal S5000x128 .f32) (w : Vec Ideal S128x128 .f32) (j : S5000x128.Idx) :
    k6_pay1 (F := Ideal) x w j = ∑ k : Fin 128, x (brow6 j k) * w (bcol6 j k) := by
  unfold k6_pay1
  simp only [shapeCast_self]
  refine (Ideal.matmul_constant_zero_apply dot_S5000x128_S128x128_S5000x128_1_0_0_1_n_n none x w j).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = brow6 j k := funext fun a => Fin.ext (by
    match a with
    | ⟨0, _⟩ => exact lhs6_0 _ _
    | ⟨1, _⟩ => exact (lhs6_1 _ _).trans hk)
  have er : dot_S5000x128_S128x128_S5000x128_1_0_0_1_n_n.rhsIdx j ((ValueIdx.contrEquiv1 dot_S5000x128_S128x128_S5000x128_1_0_0_1_n_n 128 rfl rfl).symm k) = bcol6 j k := funext fun a => Fin.ext (by
    match a with
    | ⟨0, _⟩ => exact (rhs6_0 _ _).trans hk
    | ⟨1, _⟩ => exact rhs6_1 _ _)
  rw [el, er]

/-- The index maps over the ten grid points: the left factor's block moves with the output's along the rows and
    sits at column block 0; the right factor is one block; the output has one column block. -/
theorem idx6 : ∀ t : Fin cfg6.N, win6_0.index t (0 : Fin 2) = win6_2.index t (0 : Fin 2)
    ∧ win6_0.index t (1 : Fin 2) = 0 ∧ win6_1.index t (0 : Fin 2) = 0 ∧ win6_1.index t (1 : Fin 2) = 0
    ∧ win6_2.index t (1 : Fin 2) = 0 :=
  (by decide +kernel : ∀ t : Fin grid6.N, _)

/-- Every row block is some grid point's. -/
theorem onto6 : ∀ q : Fin 10, ∃ t : Fin cfg6.N, win6_2.index t = ![q.val, 0] :=
  (by decide +kernel : ∀ q : Fin 10, ∃ t : Fin grid6.N, win6_2.index t = ![q.val, 0])

set_option maxHeartbeats 1600000 in
/-- What grid point `t` writes back is block `t` of the product of the two arrays the region finds. -/
theorem flushed6 (c : Dev nD) (t : Fin cfg6.N) :
    (dat6 (F := Ideal) V c).flushed 2 t = ((cfg6.win 2).blk t).view.read (Elt Ideal)
      (prod128 (V c (Pipeline.arrRef spec6 0)) (V c (Pipeline.arrRef spec6 1))) := by
  show (cfg6.win 2).cut (grid6.coords t) ((dat6 V c).after 2 t) = _
  rw [after6_2]
  unfold out6_2
  rw [View.canon_unit_zero hz]
  simp only [View.ld_unit_zero (S := S5000x128) hz, View.ld_unit_zero (S := S128x128) hz]
  obtain ⟨e0, e1, e2, e3, e4⟩ := idx6 t
  funext j
  show k6_pay1 (F := Ideal) (iblk6 V c 0 t) (iblk6 V c 1 t) j
    = prod128 (V c (Pipeline.arrRef spec6 0)) (V c (Pipeline.arrRef spec6 1)) (((cfg6.win 2).blk t).view.emb j)
  rw [pay6_apply, prod128_apply]
  refine Finset.sum_congr rfl fun k _ => ?_
  have h0 : ((cfg6.win 0).blk t).view.emb (brow6 j k) = arow128 (((cfg6.win 2).blk t).view.emb j) k := by
    funext a; apply Fin.ext
    match a with
    | ⟨0, _⟩ => show win6_0.index t (0 : Fin 2) * 5000 + 1 * (j 0).val = win6_2.index t (0 : Fin 2) * 5000 + 1 * (j 0).val; omega
    | ⟨1, _⟩ => show win6_0.index t (1 : Fin 2) * 128 + 1 * k.val = k.val; omega
  have h1 : ((cfg6.win 1).blk t).view.emb (bcol6 j k) = acol128 (((cfg6.win 2).blk t).view.emb j) k := by
    funext a; apply Fin.ext
    match a with
    | ⟨0, _⟩ => show win6_1.index t (0 : Fin 2) * 128 + 1 * k.val = k.val; omega
    | ⟨1, _⟩ => show win6_1.index t (1 : Fin 2) * 128 + 1 * (j 1).val = win6_2.index t (1 : Fin 2) * 128 + 1 * (j 1).val; omega
  unfold iblk6
  rw [View.read_apply, View.read_apply, h0, h1]
  rfl

/-- An index of the output array is in point `t`'s block iff each coordinate is in the block's range. -/
theorem mem_blk6 (t : Fin cfg6.N) (i : S50000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v82).slice (win6_2.rect t)).set ↔ _
  rw [View.set_slice_whole, Rect.mem_set_unit]
  exact Iff.rfl

set_option maxHeartbeats 1600000 in
/-- The ten row blocks tile the output, so after the region it holds the whole product. -/
theorem region6 (c : Dev nD) :
    (dat6 (F := Ideal) V c).arrAt 2 cfg6.N = prod128 (V c (Pipeline.arrRef spec6 0)) (V c (Pipeline.arrRef spec6 1)) :=
  (dat6 (F := Ideal) V c).arrAt_eq_of_cover 2 _ (fun t _ => flushed6 V c t) (fun i => by
    have hi0 : (i 0).val < 50000 := (i 0).isLt
    have hi1 : (i 1).val < 128 := (i 1).isLt
    obtain ⟨t, ht⟩ := onto6 ⟨(i 0).val / 5000, by omega⟩
    have q0 : win6_2.index t (0 : Fin 2) = (i 0).val / 5000 := congrFun ht 0
    have q1 : win6_2.index t (1 : Fin 2) = 0 := congrFun ht 1
    refine ⟨t, flush6_2 t, ?_⟩
    rw [mem_blk6]
    intro a
    match a with
    | ⟨0, _⟩ => show win6_2.index t (0 : Fin 2) * 5000 ≤ (i 0).val ∧ (i 0).val < win6_2.index t (0 : Fin 2) * 5000 + 5000; omega
    | ⟨1, _⟩ => show win6_2.index t (1 : Fin 2) * 128 ≤ (i 1).val ∧ (i 1).val < win6_2.index t (1 : Fin 2) * 128 + 128; omega)

end Cert.KernelIdeal.MatmulValue

end
-- ==== Proof.Bridge.lean ====
/-
  The reference's matrix products are the kernel regions' whole-array products.

  At the ideal instance the host's `dot_general` with one contracted axis is, index by index, the sum over that
  axis of the left operand's row entry times the right operand's column entry — the same sum the kernel's row blocks
  tile.  This file states that for the two shapes that occur: 50000×3 by 3×128 (the first layer) and 50000×128 by
  128×128 (the three later layers).
-/
import proofs.«158055_j16381005267206_1_alg».proof.Defs
import proofs.«158055_j16381005267206_1_alg».proof.Proof.Gen.ReferenceIdeal.Read
import proofs.«158055_j16381005267206_1_alg».proof.Proof.Matmul
import Idealize.ShloMosaic.Lib.ValueIdx
import Idealize.ShloMosaic.PureOps.Ideal.Laws

set_option maxRecDepth 16384

noncomputable section

open Idealize.ShloMosaic Idealize.ShloMosaic.TcCoe Idealize.SL.Sem

namespace Cert.KernelIdeal.Bridge

open Cert.KernelIdeal Cert.KernelIdeal.MatmulValue

/-- The first layer's `dot_general` is the product of the 50000 × 3 features with the 3 × 128 weights. -/
theorem dot3 (X : FVec Ideal Cert.ReferenceIdeal.S50000x3 .f32) (Wt : FVec Ideal Cert.ReferenceIdeal.S3x128 .f32) :
    Cert.ReferenceIdeal.Read.val_main_v34 (F := Ideal) X Wt = prod3 X Wt := by
  funext i
  rw [Cert.ReferenceIdeal.Read.val_main_v34_apply, prod3_apply]
  refine Finset.sum_congr rfl fun k _ => ?_
  have hl : Cert.ReferenceIdeal.Read.lidx_main_v34 i k = arow3 i k := funext fun a => Fin.ext (by
    match a with
    | ⟨0, _⟩ => rfl
    | ⟨1, _⟩ => rfl)
  have hr : Cert.ReferenceIdeal.Read.ridx_main_v34 i k = acol3 i k := funext fun a => Fin.ext (by
    match a with
    | ⟨0, _⟩ => rfl
    | ⟨1, _⟩ => rfl)
  rw [hl, hr]

/-- The later layers' `dot_general`, as a function of its two operands, is the product of a 50000 × 128 array with
    a 128 × 128 array: the sum over the 128 contracted positions. -/
theorem dot128 (X : FVec Ideal Cert.ReferenceIdeal.S50000x128 .f32) (Wt : FVec Ideal Cert.ReferenceIdeal.S128x128 .f32) :
    Host.dotGeneral Cert.ReferenceIdeal.dot_S50000x128_S128x128_S50000x128_1_0_0_1_n_n none X Wt = prod128 X Wt := by
  funext i
  simp only [Host.dotGeneral]
  rw [Ideal.dotGeneral_apply, ← Equiv.sum_comp (ValueIdx.contrEquiv1 Cert.ReferenceIdeal.dot_S50000x128_S128x128_S50000x128_1_0_0_1_n_n 128 rfl rfl).symm, prod128_apply]
  refine Finset.sum_congr rfl fun k _ => ?_
  have hk := ValueIdx.contrEquiv1_symm_val Cert.ReferenceIdeal.dot_S50000x128_S128x128_S50000x128_1_0_0_1_n_n 128 rfl rfl k
  have el : Cert.ReferenceIdeal.dot_S50000x128_S128x128_S50000x128_1_0_0_1_n_n.lhsIdx i ((ValueIdx.contrEquiv1 Cert.ReferenceIdeal.dot_S50000x128_S128x128_S50000x128_1_0_0_1_n_n 128 rfl rfl).symm k) = arow128 i k := funext fun a => Fin.ext (by
    match a with
    | ⟨0, _⟩ => exact Cert.ReferenceIdeal.Read.lhs_main_v52_0 _ _
    | ⟨1, _⟩ => exact (Cert.ReferenceIdeal.Read.lhs_main_v52_1 _ _).trans hk)
  have er : Cert.ReferenceIdeal.dot_S50000x128_S128x128_S50000x128_1_0_0_1_n_n.rhsIdx i ((ValueIdx.contrEquiv1 Cert.ReferenceIdeal.dot_S50000x128_S128x128_S50000x128_1_0_0_1_n_n 128 rfl rfl).symm k) = acol128 i k := funext fun a => Fin.ext (by
    match a with
    | ⟨0, _⟩ => exact (Cert.ReferenceIdeal.Read.rhs_main_v52_0 _ _).trans hk
    | ⟨1, _⟩ => exact Cert.ReferenceIdeal.Read.rhs_main_v52_1 _ _)
  rw [el, er]

end Cert.KernelIdeal.Bridge

end
-- ==== Proof.ReluBias.lean ====
/- The four bias-add-and-ReLU regions of the kernel (regions 1, 3, 5, 7), each read as one function of the two arrays
   the region finds: the [50000, 128] activations and the [1, 128] bias row. A region walks ten row blocks of 5000
   rows; at each it loads the block and the bias row, adds the row to every row of the block, takes the maximum with
   zero, and stores the block back. Here: the function `biasRelu` entry by entry; the body's arithmetic at an entry of
   a block (`pay_apply`); what a grid point writes back is its block of `biasRelu` (`flushedK_eq`); the ten blocks
   cover the array (`coverK`), so the output array after region K is `biasRelu` of the inputs (`regionK`); and the
   host's spelling of the same function — two broadcasts of the bias vector, a sum, a maximum with a broadcast zero —
   is `biasRelu` of the bias vector reshaped to a row (`host_form`). -/
import proofs.«158055_j16381005267206_1_alg».proof.Defs
import proofs.«158055_j16381005267206_1_alg».proof.Proof.Gen.KernelIdeal.Frame
import proofs.«158055_j16381005267206_1_alg».proof.Proof.Gen.ReferenceIdeal
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.ReluBias

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

/-- Bias-add followed by ReLU, entry by entry: entry (r, k) is max(A(r, k) + b(0, k), 0), the zero written as the
    word the program prints. -/
def biasRelu (A : S50000x128.Idx → EReal) (b : S1x128.Idx → EReal) : S50000x128.Idx → EReal :=
  fun i => max (A i + b (ix2 (0 : Fin 1) (⟨(i 1).val, (i 1).isLt⟩ : Fin 128))) (Ideal.ofBits .f32 0x00000000#32)

theorem hz : (![0, 0] : Fin 2 → Nat) = fun _ => 0 := funext fun a => by fin_cases a <;> rfl

/-- The body's arithmetic as one pure term of the two loaded blocks: the row block plus the bias row broadcast down
    the rows, then the maximum with the zero splat. -/
def pay (x : Vec Ideal S5000x128 .f32) (brow : Vec Ideal S1x128 .f32) : FVec Ideal S5000x128 .f32 :=
  maximumf (addf (shapeCast S5000x128 x Facts₀.shapeCasts_S5000x128_S5000x128)
      (broadcastTo S5000x128 (shapeCast S1x128 brow Facts₀.shapeCasts_S1x128_S1x128) Facts₀.broadcasts_S1x128_S5000x128))
    (broadcast S5000x128 (Scalar.ofBits .f32 0x00000000#32))

/-- The payload at entry (p, q) of a block: the block's entry plus the bias row's entry q, against zero. -/
theorem pay_ix2 (x : Vec Ideal S5000x128 .f32) (brow : Vec Ideal S1x128 .f32) (p : Fin 5000) (q : Fin 128) :
    pay x brow (ix2 p q) = max (x (ix2 p q) + brow (ix2 (0 : Fin 1) q)) (Ideal.ofBits .f32 0x00000000#32) := by
  unfold pay
  rw [shapeCast_self, shapeCast_self]
  show max (x (ix2 p q) + broadcastTo S5000x128 brow Facts₀.broadcasts_S1x128_S5000x128 (ix2 p q)) _ = _
  rw [broadcastTo_1b_ab_apply]
  rfl

/-- The same at any index of the block. -/
theorem pay_apply (x : Vec Ideal S5000x128 .f32) (brow : Vec Ideal S1x128 .f32) (j : S5000x128.Idx) :
    pay x brow j = max (x j + brow (ix2 (0 : Fin 1) (⟨(j 1).val, (j 1).isLt⟩ : Fin 128))) (Ideal.ofBits .f32 0x00000000#32) := by
  obtain ⟨p, q, rfl⟩ : ∃ (p : Fin 5000) (q : Fin 128), j = ix2 p q := ⟨j 0, j 1, eq_ix2 j⟩
  exact pay_ix2 x brow p q

/-- A block entry of the payload is the array entry of the specification, once the block's entry is the first
    array's entry there and the bias row's entry is the second array's entry in the same column. -/
theorem point_eq (A : S50000x128.Idx → EReal) (B : S1x128.Idx → EReal) (x : Vec Ideal S5000x128 .f32) (brow : Vec Ideal S1x128 .f32)
    (j : S5000x128.Idx) (i : S50000x128.Idx) (hx : x j = A i)
    (hb : brow (ix2 (0 : Fin 1) (⟨(j 1).val, (j 1).isLt⟩ : Fin 128)) = B (ix2 (0 : Fin 1) (⟨(i 1).val, (i 1).isLt⟩ : Fin 128))) :
    pay x brow j = biasRelu A B i := by
  rw [pay_apply, hx, hb]
  rfl

/-- `biasRelu` at entry (p, q). -/
theorem biasRelu_ix2 (A : S50000x128.Idx → EReal) (b : S1x128.Idx → EReal) (p : Fin 50000) (q : Fin 128) :
    biasRelu A b (ix2 p q) = max (A (ix2 p q) + b (ix2 (0 : Fin 1) q)) (Ideal.ofBits .f32 0x00000000#32) := rfl

/-- The zero word is the extended real zero, so an entry of `biasRelu` is max(A(r, k) + b(0, k), 0). -/
theorem biasRelu_apply (A : S50000x128.Idx → EReal) (b : S1x128.Idx → EReal) (i : S50000x128.Idx) :
    biasRelu A b i = max (A i + b (ix2 (0 : Fin 1) (⟨(i 1).val, (i 1).isLt⟩ : Fin 128))) 0 := by
  unfold biasRelu
  rw [Ideal.ofBits_zero_f32]

/-- The host's form of the same function: the bias vector broadcast to a row, the row broadcast down the rows, the sum,
    and the maximum with the broadcast zero — against the bias vector reshaped to a row. -/
theorem host_form (A : FVec Ideal Cert.ReferenceIdeal.S50000x128 .f32) (b : FVec Ideal Cert.ReferenceIdeal.S128 .f32) :
    maximumf (addf A (broadcastInDim Cert.ReferenceIdeal.S50000x128 ![0, 1] Cert.ReferenceIdeal.Facts₀.bcast_S1x128_S50000x128_0_1 (broadcastInDim Cert.ReferenceIdeal.S1x128 ![1] Cert.ReferenceIdeal.Facts₀.bcast_S128_S1x128_1 b)))
             (broadcastInDim Cert.ReferenceIdeal.S50000x128 ![] Cert.ReferenceIdeal.Facts₀.bcast_S_S50000x128 (constant (F := Ideal) Cert.ReferenceIdeal.S_ .f32 0x00000000#32))
      = biasRelu A (shapeCast S1x128 b Facts₀.shapeCasts_S128_S1x128) := by
  funext i
  obtain ⟨p, q, rfl⟩ : ∃ (p : Fin 50000) (q : Fin 128), i = ix2 p q := ⟨i 0, i 1, eq_ix2 i⟩
  have e1 : broadcastInDim Cert.ReferenceIdeal.S50000x128 ![0, 1] Cert.ReferenceIdeal.Facts₀.bcast_S1x128_S50000x128_0_1
      (broadcastInDim Cert.ReferenceIdeal.S1x128 ![1] Cert.ReferenceIdeal.Facts₀.bcast_S128_S1x128_1 b) (ix2 p q) = b (ix1 q) := by
    refine (broadcastInDim_apply _ Cert.ReferenceIdeal.Facts₀.bcast_S1x128_S50000x128_0_1 _ (ix2 p q) (ix2 (0 : Fin 1) q) (fun a => match a with
      | ⟨0, _⟩ => by show 0 = if (1 : Nat) = 1 then 0 else p.val; rw [if_pos rfl]
      | ⟨1, _⟩ => by show q.val = if (128 : Nat) = 1 then 0 else q.val; rw [if_neg (by decide)])).trans ?_
    exact broadcastInDim_apply _ Cert.ReferenceIdeal.Facts₀.bcast_S128_S1x128_1 b (ix2 (0 : Fin 1) q) (ix1 q) (fun a => match a with
      | ⟨0, _⟩ => by show q.val = if (128 : Nat) = 1 then 0 else q.val; rw [if_neg (by decide)])
  have e2 : shapeCast S1x128 b Facts₀.shapeCasts_S128_S1x128 (ix2 (0 : Fin 1) q) = b (ix1 q) :=
    shapeCast_a_1a_apply b Facts₀.shapeCasts_S128_S1x128 0 q
  have e3 : broadcastInDim Cert.ReferenceIdeal.S50000x128 ![] Cert.ReferenceIdeal.Facts₀.bcast_S_S50000x128 (constant (F := Ideal) Cert.ReferenceIdeal.S_ .f32 0x00000000#32) (ix2 p q)
      = Ideal.ofBits .f32 0x00000000#32 :=
    broadcastInDim_apply _ Cert.ReferenceIdeal.Facts₀.bcast_S_S50000x128 _ (ix2 p q) ix0 (fun a => a.elim0)
  show max (A (ix2 p q) + _) _ = max (A (ix2 p q) + _) _
  rw [e1, e3]
  exact congrArg (fun z => max (A (ix2 p q) + z) (Ideal.ofBits .f32 0x00000000#32)) e2.symm

/-! ## Region 1 -/

theorem pay1_eq (x : Vec Ideal S5000x128 .f32) (brow : Vec Ideal S1x128 .f32) : k1_pay1 x brow = pay x brow := rfl

/-- The printed index maps, decided once over the grid's ten points: the input row block moves with the output row
    block, the bias row stays at block (0, 0), the output's block index is (t, 0). -/
theorem idx_facts1 : ∀ t : Fin cfg1.N, win1_0.index t (0 : Fin 2) = win1_2.index t (0 : Fin 2)
    ∧ win1_0.index t (1 : Fin 2) = win1_2.index t (1 : Fin 2)
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the bias-add-and-ReLU of the arrays as the region finds them. -/
theorem flushed1_eq (V : (c : Dev nD) → (b : Ref sig .tc) → Buf (Elt Ideal) ((c : Thread nD τ).loc b)) (c : Dev nD) (t : Fin cfg1.N) :
    (dat1 (F := Ideal) V c).flushed 2 t
      = ((cfg1.win 2).blk t).view.read (Elt Ideal) (biasRelu (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  rw [pay1_eq]
  obtain ⟨e0, e1, e2, e3, e4, e5⟩ := idx_facts1 t
  funext j
  refine point_eq (V c (Pipeline.arrRef spec1 0)) (V c (Pipeline.arrRef spec1 1)) (iblk1 V c 0 t) (iblk1 V c 1 t) j (((cfg1.win 2).blk t).view.emb j) ?_ ?_
  · show V c (Pipeline.arrRef spec1 0) (((cfg1.win 0).blk t).view.emb j) = _
    refine congrArg (V c (Pipeline.arrRef spec1 0)) ?_
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  · show V c (Pipeline.arrRef spec1 1) (((cfg1.win 1).blk t).view.emb (ix2 (0 : Fin 1) (⟨(j 1).val, (j 1).isLt⟩ : Fin 128))) = _
    refine congrArg (V c (Pipeline.arrRef spec1 1)) ?_
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega

/-- An index of the array is in point `t`'s block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v49).slice (win1_2.rect t)).set ↔ _
  rw [View.set_slice_whole, Rect.mem_set_unit]
  exact Iff.rfl

/-- Every entry of the array is in some point's block: row r is in the block of point r / 5000. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 10 := N_1
  have ht : (i 0).val / 5000 < cfg1.N := by show (i 0).val / 5000 < grid1.N; omega
  obtain ⟨e0, e1, e2, e3, e4, e5⟩ := idx_facts1 ⟨(i 0).val / 5000, ht⟩
  have e4' : win1_2.index ⟨(i 0).val / 5000, ht⟩ (0 : Fin 2) = (i 0).val / 5000 := e4
  refine ⟨⟨(i 0).val / 5000, ht⟩, flush1_2 _, ?_⟩
  rw [mem_blk1]
  intro a
  match a with
  | ⟨0, _⟩ => show win1_2.index ⟨(i 0).val / 5000, ht⟩ (0 : Fin 2) * 5000 ≤ (i 0).val ∧ (i 0).val < win1_2.index ⟨(i 0).val / 5000, ht⟩ (0 : Fin 2) * 5000 + 5000; omega
  | ⟨1, _⟩ => show win1_2.index ⟨(i 0).val / 5000, ht⟩ (1 : Fin 2) * 128 ≤ (i 1).val ∧ (i 1).val < win1_2.index ⟨(i 0).val / 5000, ht⟩ (1 : Fin 2) * 128 + 128; omega

/-- The output array after region 1: the bias-add-and-ReLU of the two input arrays as the region finds them. -/
theorem region1 (V : (c : Dev nD) → (b : Ref sig .tc) → Buf (Elt Ideal) ((c : Thread nD τ).loc b)) (c : Dev nD) :
    (Gen.dat1 (F := Ideal) V c).arrAt 2 cfg1.N = biasRelu (V c (Pipeline.arrRef spec1 0)) (V c (Pipeline.arrRef spec1 1)) :=
  (dat1 (F := Ideal) V c).arrAt_eq_of_cover 2 _ (fun t _ => flushed1_eq V c t) cover1

/-! ## Region 3 -/

theorem pay3_eq (x : Vec Ideal S5000x128 .f32) (brow : Vec Ideal S1x128 .f32) : k3_pay1 x brow = pay x brow := rfl

/-- The printed index maps, decided once over the grid's ten points: the input row block moves with the output row
    block, the bias row stays at block (0, 0), the output's block index is (t, 0). -/
theorem idx_facts3 : ∀ t : Fin cfg3.N, win3_0.index t (0 : Fin 2) = win3_2.index t (0 : Fin 2)
    ∧ win3_0.index t (1 : Fin 2) = win3_2.index t (1 : Fin 2)
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the bias-add-and-ReLU of the arrays as the region finds them. -/
theorem flushed3_eq (V : (c : Dev nD) → (b : Ref sig .tc) → Buf (Elt Ideal) ((c : Thread nD τ).loc b)) (c : Dev nD) (t : Fin cfg3.N) :
    (dat3 (F := Ideal) V c).flushed 2 t
      = ((cfg3.win 2).blk t).view.read (Elt Ideal) (biasRelu (V c (Pipeline.arrRef spec3 0)) (V c (Pipeline.arrRef spec3 1))) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  rw [pay3_eq]
  obtain ⟨e0, e1, e2, e3, e4, e5⟩ := idx_facts3 t
  funext j
  refine point_eq (V c (Pipeline.arrRef spec3 0)) (V c (Pipeline.arrRef spec3 1)) (iblk3 V c 0 t) (iblk3 V c 1 t) j (((cfg3.win 2).blk t).view.emb j) ?_ ?_
  · show V c (Pipeline.arrRef spec3 0) (((cfg3.win 0).blk t).view.emb j) = _
    refine congrArg (V c (Pipeline.arrRef spec3 0)) ?_
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  · show V c (Pipeline.arrRef spec3 1) (((cfg3.win 1).blk t).view.emb (ix2 (0 : Fin 1) (⟨(j 1).val, (j 1).isLt⟩ : Fin 128))) = _
    refine congrArg (V c (Pipeline.arrRef spec3 1)) ?_
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega

/-- An index of the array is in point `t`'s block iff each coordinate is in the block's range on its axis. -/
theorem mem_blk3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v65).slice (win3_2.rect t)).set ↔ _
  rw [View.set_slice_whole, Rect.mem_set_unit]
  exact Iff.rfl

/-- Every entry of the array is in some point's block: row r is in the block of point r / 5000. -/
theorem cover3 (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  have hN : grid3.N = 10 := N_3
  have ht : (i 0).val / 5000 < cfg3.N := by show (i 0).val / 5000 < grid3.N; omega
  obtain ⟨e0, e1, e2, e3, e4, e5⟩ := idx_facts3 ⟨(i 0).val / 5000, ht⟩
  have e4' : win3_2.index ⟨(i 0).val / 5000, ht⟩ (0 : Fin 2) = (i 0).val / 5000 := e4
  refine ⟨⟨(i 0).val / 5000, ht⟩, flush3_2 _, ?_⟩
  rw [mem_blk3]
  intro a
  match a with
  | ⟨0, _⟩ => show win3_2.index ⟨(i 0).val / 5000, ht⟩ (0 : Fin 2) * 5000 ≤ (i 0).val ∧ (i 0).val < win3_2.index ⟨(i 0).val / 5000, ht⟩ (0 : Fin 2) * 5000 + 5000; omega
  | ⟨1, _⟩ => show win3_2.index ⟨(i 0).val / 5000, ht⟩ (1 : Fin 2) * 128 ≤ (i 1).val ∧ (i 1).val < win3_2.index ⟨(i 0).val / 5000, ht⟩ (1 : Fin 2) * 128 + 128; omega

/-- The output array after region 3: the bias-add-and-ReLU of the two input arrays as the region finds them. -/
theorem region3 (V : (c : Dev nD) → (b : Ref sig .tc) → Buf (Elt Ideal) ((c : Thread nD τ).loc b)) (c : Dev nD) :
    (Gen.dat3 (F := Ideal) V c).arrAt 2 cfg3.N = biasRelu (V c (Pipeline.arrRef spec3 0)) (V c (Pipeline.arrRef spec3 1)) :=
  (dat3 (F := Ideal) V c).arrAt_eq_of_cover 2 _ (fun t _ => flushed3_eq V c t) cover3

/-! ## Region 5 -/

theorem pay5_eq (x : Vec Ideal S5000x128 .f32) (brow : Vec Ideal S1x128 .f32) : k5_pay1 x brow = pay x brow := rfl

/-- The printed index maps, decided once over the grid's ten points: the input row block moves with the output row
    block, the bias row stays at block (0, 0), the output's block index is (t, 0). -/
theorem idx_facts5 : ∀ t : Fin cfg5.N, win5_0.index t (0 : Fin 2) = win5_2.index t (0 : Fin 2)
    ∧ win5_0.index t (1 : Fin 2) = win5_2.index t (1 : Fin 2)
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the bias-add-and-ReLU of the arrays as the region finds them. -/
theorem flushed5_eq (V : (c : Dev nD) → (b : Ref sig .tc) → Buf (Elt Ideal) ((c : Thread nD τ).loc b)) (c : Dev nD) (t : Fin cfg5.N) :
    (dat5 (F := Ideal) V c).flushed 2 t
      = ((cfg5.win 2).blk t).view.read (Elt Ideal) (biasRelu (V c (Pipeline.arrRef spec5 0)) (V c (Pipeline.arrRef spec5 1))) := by
  show (cfg5.win 2).cut (grid5.coords t) ((dat5 V c).after 2 t) = _
  rw [after5_2]
  unfold out5_2
  rw [View.canon_unit_zero hz]
  simp only [View.ld_unit_zero (S := S5000x128) hz, View.ld_unit_zero (S := S1x128) hz]
  rw [pay5_eq]
  obtain ⟨e0, e1, e2, e3, e4, e5⟩ := idx_facts5 t
  funext j
  refine point_eq (V c (Pipeline.arrRef spec5 0)) (V c (Pipeline.arrRef spec5 1)) (iblk5 V c 0 t) (iblk5 V c 1 t) j (((cfg5.win 2).blk t).view.emb j) ?_ ?_
  · show V c (Pipeline.arrRef spec5 0) (((cfg5.win 0).blk t).view.emb j) = _
    refine congrArg (V c (Pipeline.arrRef spec5 0)) ?_
    funext a; apply Fin.ext
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 128 + 1 * (j 1).val = win5_2.index t (1 : Fin 2) * 128 + 1 * (j 1).val; omega
  · show V c (Pipeline.arrRef spec5 1) (((cfg5.win 1).blk t).view.emb (ix2 (0 : Fin 1) (⟨(j 1).val, (j 1).isLt⟩ : Fin 128))) = _
    refine congrArg (V c (Pipeline.arrRef spec5 1)) ?_
    funext a; apply Fin.ext
    match a with
    | ⟨0, _⟩ => show win5_1.index t (0 : Fin 2) * 1 + 1 * 0 = 0; omega
    | ⟨1, _⟩ => show win5_1.index t (1 : Fin 2) * 128 + 1 * (j 1).val = win5_2.index t (1 : Fin 2) * 128 + 1 * (j 1).val; omega

/-- An index of the array is in point `t`'s block iff each coordinate is in the block's range on its axis. -/
theorem mem_blk5 (t : Fin cfg5.N) (i : S50000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v81).slice (win5_2.rect t)).set ↔ _
  rw [View.set_slice_whole, Rect.mem_set_unit]
  exact Iff.rfl

/-- Every entry of the array is in some point's block: row r is in the block of point r / 5000. -/
theorem cover5 (i : S50000x128.Idx) : ∃ t : Fin cfg5.N, (cfg5.win 2).flush t = true ∧ i ∈ ((cfg5.win 2).blk t).view.set := by
  have hi0 : (i 0).val < 50000 := (i 0).isLt
  have hi1 : (i 1).val < 128 := (i 1).isLt
  have hN : grid5.N = 10 := N_5
  have ht : (i 0).val / 5000 < cfg5.N := by show (i 0).val / 5000 < grid5.N; omega
  obtain ⟨e0, e1, e2, e3, e4, e5⟩ := idx_facts5 ⟨(i 0).val / 5000, ht⟩
  have e4' : win5_2.index ⟨(i 0).val / 5000, ht⟩ (0 : Fin 2) = (i 0).val / 5000 := e4
  refine ⟨⟨(i 0).val / 5000, ht⟩, flush5_2 _, ?_⟩
  rw [mem_blk5]
  intro a
  match a with
  | ⟨0, _⟩ => show win5_2.index ⟨(i 0).val / 5000, ht⟩ (0 : Fin 2) * 5000 ≤ (i 0).val ∧ (i 0).val < win5_2.index ⟨(i 0).val / 5000, ht⟩ (0 : Fin 2) * 5000 + 5000; omega
  | ⟨1, _⟩ => show win5_2.index ⟨(i 0).val / 5000, ht⟩ (1 : Fin 2) * 128 ≤ (i 1).val ∧ (i 1).val < win5_2.index ⟨(i 0).val / 5000, ht⟩ (1 : Fin 2) * 128 + 128; omega

/-- The output array after region 5: the bias-add-and-ReLU of the two input arrays as the region finds them. -/
theorem region5 (V : (c : Dev nD) → (b : Ref sig .tc) → Buf (Elt Ideal) ((c : Thread nD τ).loc b)) (c : Dev nD) :
    (Gen.dat5 (F := Ideal) V c).arrAt 2 cfg5.N = biasRelu (V c (Pipeline.arrRef spec5 0)) (V c (Pipeline.arrRef spec5 1)) :=
  (dat5 (F := Ideal) V c).arrAt_eq_of_cover 2 _ (fun t _ => flushed5_eq V c t) cover5

/-! ## Region 7 -/

theorem pay7_eq (x : Vec Ideal S5000x128 .f32) (brow : Vec Ideal S1x128 .f32) : k7_pay1 x brow = pay x brow := rfl

/-- The printed index maps, decided once over the grid's ten points: the input row block moves with the output row
    block, the bias row stays at block (0, 0), the output's block index is (t, 0). -/
theorem idx_facts7 : ∀ t : Fin cfg7.N, win7_0.index t (0 : Fin 2) = win7_2.index t (0 : Fin 2)
    ∧ win7_0.index t (1 : Fin 2) = win7_2.index t (1 : Fin 2)
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What point `t` writes back is block `t` of the bias-add-and-ReLU of the arrays as the region finds them. -/
theorem flushed7_eq (V : (c : Dev nD) → (b : Ref sig .tc) → Buf (Elt Ideal) ((c : Thread nD τ).loc b)) (c : Dev nD) (t : Fin cfg7.N) :
    (dat7 (F := Ideal) V c).flushed 2 t
      = ((cfg7.win 2).blk t).view.read (Elt Ideal) (biasRelu (V c (Pipeline.arrRef spec7 0)) (V c (Pipeline.arrRef spec7 1))) := by
  show (cfg7.win 2).cut (grid7.coords t) ((dat7 V c).after 2 t) = _
  rw [after7_2]
  unfold out7_2
  rw [View.canon_unit_zero hz]
  simp only [View.ld_unit_zero (S := S5000x128) hz, View.ld_unit_zero (S := S1x128) hz]
  rw [pay7_eq]
  obtain ⟨e0, e1, e2, e3, e4, e5⟩ := idx_facts7 t
  funext j
  refine point_eq (V c (Pipeline.arrRef spec7 0)) (V c (Pipeline.arrRef spec7 1)) (iblk7 V c 0 t) (iblk7 V c 1 t) j (((cfg7.win 2).blk t).view.emb j) ?_ ?_
  · show V c (Pipeline.arrRef spec7 0) (((cfg7.win 0).blk t).view.emb j) = _
    refine congrArg (V c (Pipeline.arrRef spec7 0)) ?_
    funext a; apply Fin.ext
    match a with
    | ⟨0, _⟩ => show win7_0.index t (0 : Fin 2) * 5000 + 1 * (j 0).val = win7_2.index t (0 : Fin 2) * 5000 + 1 * (j 0).val; omega
    | ⟨1, _⟩ => show win7_0.index t (1 : Fin 2) * 128 + 1 * (j 1).val = win7_2.index t (1 : Fin 2) * 128 + 1 * (j 1).val; omega
  · show V c (Pipeline.arrRef spec7 1) (((cfg7.win 1).blk t).view.emb (ix2 (0 : Fin 1) (⟨(j 1).val, (j 1).isLt⟩ : Fin 128))) = _
    refine congrArg (V c (Pipeline.arrRef spec7 1)) ?_
    funext a; apply Fin.ext
    match a with
    | ⟨0, _⟩ => show win7_1.index t (0 : Fin 2) * 1 + 1 * 0 = 0; omega
    | ⟨1, _⟩ => show win7_1.index t (1 : Fin 2) * 128 + 1 * (j 1).val = win7_2.index t (1 : Fin 2) * 128 + 1 * (j 1).val; omega

/-- An index of the array is in point `t`'s block iff each coordinate is in the block's range on its axis. -/
theorem mem_blk7 (t : Fin cfg7.N) (i : S50000x128.Idx) :
    i ∈ ((cfg7.win 2).blk t).view.set ↔ ∀ a : Fin 2, win7_2.index t a * S5000x128.size a ≤ (i a).val ∧ (i a).val < win7_2.index t a * S5000x128.size a + S5000x128.size a := by
  show i ∈ ((View.whole main_v97).slice (win7_2.rect t)).set ↔ _
  rw [View.set_slice_whole, Rect.mem_set_unit]
  exact Iff.rfl

/-- Every entry of the array is in some point's block: row r is in the block of point r / 5000. -/
theorem cover7 (i : S50000x128.Idx) : ∃ t : Fin cfg7.N, (cfg7.win 2).flush t = true ∧ i ∈ ((cfg7.win 2).blk t).view.set := by
  have hi0 : (i 0).val < 50000 := (i 0).isLt
  have hi1 : (i 1).val < 128 := (i 1).isLt
  have hN : grid7.N = 10 := N_7
  have ht : (i 0).val / 5000 < cfg7.N := by show (i 0).val / 5000 < grid7.N; omega
  obtain ⟨e0, e1, e2, e3, e4, e5⟩ := idx_facts7 ⟨(i 0).val / 5000, ht⟩
  have e4' : win7_2.index ⟨(i 0).val / 5000, ht⟩ (0 : Fin 2) = (i 0).val / 5000 := e4
  refine ⟨⟨(i 0).val / 5000, ht⟩, flush7_2 _, ?_⟩
  rw [mem_blk7]
  intro a
  match a with
  | ⟨0, _⟩ => show win7_2.index ⟨(i 0).val / 5000, ht⟩ (0 : Fin 2) * 5000 ≤ (i 0).val ∧ (i 0).val < win7_2.index ⟨(i 0).val / 5000, ht⟩ (0 : Fin 2) * 5000 + 5000; omega
  | ⟨1, _⟩ => show win7_2.index ⟨(i 0).val / 5000, ht⟩ (1 : Fin 2) * 128 ≤ (i 1).val ∧ (i 1).val < win7_2.index ⟨(i 0).val / 5000, ht⟩ (1 : Fin 2) * 128 + 128; omega

/-- The output array after region 7: the bias-add-and-ReLU of the two input arrays as the region finds them. -/
theorem region7 (V : (c : Dev nD) → (b : Ref sig .tc) → Buf (Elt Ideal) ((c : Thread nD τ).loc b)) (c : Dev nD) :
    (Gen.dat7 (F := Ideal) V c).arrAt 2 cfg7.N = biasRelu (V c (Pipeline.arrRef spec7 0)) (V c (Pipeline.arrRef spec7 1)) :=
  (dat7 (F := Ideal) V c).arrAt_eq_of_cover 2 _ (fun t _ => flushed7_eq V c t) cover7

end Cert.KernelIdeal.ReluBias

end
-- ==== Proof.FoldLayers.lean ====
/-
  The kernel's buffers after each segment, up to the last layer's activations.

  The buffer contents after each of the kernel's segments form a fold from the launch memory.  This file walks
  that fold through the host preamble and the four layers and identifies, at every boundary, the buffers the
  later segments read with the reference's own intermediate values of the same arguments:
    * the preamble's edge arrays (sources and destinations with the self loops appended, the weights with a one
      per self loop, the inverse square-root degrees, the normalisation of every edge) are computed by the same
      host operations in both programs;
    * a layer's linear step is a region whose output array is the whole matrix product, which is the reference's
      `dot_general`;
    * a layer's aggregation (gather by source, scale, scatter-add by destination) is again the same host operations,
      applied to equal arrays;
    * a layer's activation is a region whose output array is the bias row added to every row followed by the
      positive part, which is the reference's two broadcasts, add and maximum.
-/
import proofs.«158055_j16381005267206_1_alg».proof.Defs
import proofs.«158055_j16381005267206_1_alg».proof.Proof.Gen.KernelIdeal.Frame
import proofs.«158055_j16381005267206_1_alg».proof.Proof.Gen.ReferenceIdeal.Read
import proofs.«158055_j16381005267206_1_alg».proof.Proof.FoldArgs
import proofs.«158055_j16381005267206_1_alg».proof.Proof.FoldCarry
import proofs.«158055_j16381005267206_1_alg».proof.Proof.Matmul
import proofs.«158055_j16381005267206_1_alg».proof.Proof.Bridge
import proofs.«158055_j16381005267206_1_alg».proof.Proof.ReluBias
import Idealize.ShloMosaic.Lib.StableHlo.Run
set_option maxRecDepth 16384

noncomputable section

open Idealize.ShloMosaic Idealize.ShloMosaic.TcCoe Idealize.SL.Sem
open Idealize.ShloMosaic.Pipeline (Dat)

namespace Cert.KernelIdeal.Fold

open Cert.KernelIdeal Cert.KernelIdeal.Gen

variable (m : (ℓ : Loc nD τ sig) → Buf (Elt Ideal) ℓ) (ρ : Dev nD → PrngReg) (c : Dev nD)
/-- After the first stretch the source array is the reference's: the first row of the edge list followed by 0 … 49999. -/
theorem w1_v5 : W1 m ρ c (Proc.devRef .tc main_v5) = Cert.ReferenceIdeal.Read.val_main_v5 (F := Ideal) (m ((c : Thread nD τ).loc main_arg1)) := by
  show StableHlo.after hostOps0 (W0 m ρ c) (Proc.devRef .tc main_v5) = _
  after_results
  rfl

/-- The destination array: the second row of the edge list followed by 0 … 49999. -/
theorem w1_v6 : W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  after_results
  rfl

/-- The edge weights followed by a one per self loop. -/
theorem w1_v8 : W1 m ρ c (Proc.devRef .tc main_v8) = Cert.ReferenceIdeal.Read.val_main_v8 (F := Ideal) (m ((c : Thread nD τ).loc main_arg3)) := by
  show StableHlo.after hostOps0 (W0 m ρ c) (Proc.devRef .tc main_v8) = _
  after_results
  rfl

/-- Where the weighted in-degree is positive. -/
theorem w1_v13 : W1 m ρ c (Proc.devRef .tc main_v13) = Cert.ReferenceIdeal.Read.val_main_v13 (F := Ideal) (m ((c : Thread nD τ).loc main_arg1)) (m ((c : Thread nD τ).loc main_arg3)) := by
  show StableHlo.after hostOps0 (W0 m ρ c) (Proc.devRef .tc main_v13) = _
  after_results
  rfl

/-- The reciprocal square root of the in-degree clamped below at 1e-12. -/
theorem w1_v16 : W1 m ρ c (Proc.devRef .tc main_v16) = Cert.ReferenceIdeal.Read.val_main_v16 (F := Ideal) (m ((c : Thread nD τ).loc main_arg1)) (m ((c : Thread nD τ).loc main_arg3)) := by
  show StableHlo.after hostOps0 (W0 m ρ c) (Proc.devRef .tc main_v16) = _
  after_results
  rfl

/-- The zero the masked entries get. -/
theorem w1_cst3 : W1 m ρ c (Proc.devRef .tc main_cst_3) = Cert.ReferenceIdeal.Read.val_main_cst_3 (F := Ideal) := by
  show StableHlo.after hostOps0 (W0 m ρ c) (Proc.devRef .tc main_cst_3) = _
  after_results
  rfl

set_option maxHeartbeats 1000000 in
/-- The inverse square-root degree, zero where the degree is not positive. -/
theorem w2_v17 : W2 m ρ c (Proc.devRef .tc main_v17) = Cert.ReferenceIdeal.Read.val_main_v17 (F := Ideal) (m ((c : Thread nD τ).loc main_arg1)) (m ((c : Thread nD τ).loc main_arg3)) := by
  have h0 := w1_v13 m ρ c
  have h1 := w1_v16 m ρ c
  have h2 := w1_cst3 m ρ c
  show StableHlo.after hostOps0_1 (W1 m ρ c) (Proc.devRef .tc main_v17) = _
  generalize W1 m ρ c = Vp at h0 h1 h2 ⊢
  after_results_simp
  rw [h0, h1, h2]
  simp only [StableHlo.TRef.toBuf, StableHlo.TRef.ofBuf, cast_eq]
  rfl

/-- The select that follows does not write this array. -/
theorem w2_v5 : W2 m ρ c (Proc.devRef .tc main_v5) = Cert.ReferenceIdeal.Read.val_main_v5 (F := Ideal) (m ((c : Thread nD τ).loc main_arg1)) :=
  (StableHlo.after_of_forall_not_mem (b := Proc.devRef .tc main_v5) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (w1_v5 m ρ c)

/-- The select that follows does not write this array. -/
theorem w2_v6 : W2 m ρ c (Proc.devRef .tc main_v6) = Cert.ReferenceIdeal.Read.val_main_v6 (F := Ideal) (m ((c : Thread nD τ).loc main_arg1)) :=
  (StableHlo.after_of_forall_not_mem (b := Proc.devRef .tc main_v6) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (w1_v6 m ρ c)

/-- The select that follows does not write this array. -/
theorem w2_v8 : W2 m ρ c (Proc.devRef .tc main_v8) = Cert.ReferenceIdeal.Read.val_main_v8 (F := Ideal) (m ((c : Thread nD τ).loc main_arg3)) :=
  (StableHlo.after_of_forall_not_mem (b := Proc.devRef .tc main_v8) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (w1_v8 m ρ c)

set_option maxHeartbeats 1000000 in
/-- The symmetric normalisation of every edge: d(source)^(-1/2) · weight · d(destination)^(-1/2). -/
theorem w3_v33 : W3 m ρ c (Proc.devRef .tc main_v33) = Cert.ReferenceIdeal.Read.val_main_v33 (F := Ideal) (m ((c : Thread nD τ).loc main_arg1)) (m ((c : Thread nD τ).loc main_arg3)) := by
  have h0 := w2_v5 m ρ c
  have h1 := w2_v6 m ρ c
  have h2 := w2_v8 m ρ c
  have h3 := w2_v17 m ρ c
  show StableHlo.after hostOps0_2 (W2 m ρ c) (Proc.devRef .tc main_v33) = _
  generalize W2 m ρ c = Vp at h0 h1 h2 h3 ⊢
  after_results_simp
  rw [h0, h1, h2, h3]
  rfl

/-- The normalisation stretch does not write this array. -/
theorem w3_v5 : W3 m ρ c (Proc.devRef .tc main_v5) = Cert.ReferenceIdeal.Read.val_main_v5 (F := Ideal) (m ((c : Thread nD τ).loc main_arg1)) :=
  (StableHlo.after_of_forall_not_mem (b := Proc.devRef .tc main_v5) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (w2_v5 m ρ c)

/-- The normalisation stretch does not write this array. -/
theorem w3_v6 : W3 m ρ c (Proc.devRef .tc main_v6) = Cert.ReferenceIdeal.Read.val_main_v6 (F := Ideal) (m ((c : Thread nD τ).loc main_arg1)) :=
  (StableHlo.after_of_forall_not_mem (b := Proc.devRef .tc main_v6) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (w2_v6 m ρ c)

/-- The edge array as the preamble left it. -/
theorem w4_v5 : W4 m ρ c (Proc.devRef .tc main_v5) = Cert.ReferenceIdeal.Read.val_main_v5 (F := Ideal) (m ((c : Thread nD τ).loc main_arg1)) := (v5_at4 m ρ c).trans (w3_v5 m ρ c)

/-- The edge array as the preamble left it. -/
theorem w4_v6 : W4 m ρ c (Proc.devRef .tc main_v6) = Cert.ReferenceIdeal.Read.val_main_v6 (F := Ideal) (m ((c : Thread nD τ).loc main_arg1)) := (v6_at4 m ρ c).trans (w3_v6 m ρ c)

/-- The edge array as the preamble left it. -/
theorem w4_v33 : W4 m ρ c (Proc.devRef .tc main_v33) = Cert.ReferenceIdeal.Read.val_main_v33 (F := Ideal) (m ((c : Thread nD τ).loc main_arg1)) (m ((c : Thread nD τ).loc main_arg3)) := (v33_at4 m ρ c).trans (w3_v33 m ρ c)

/-- The edge array as the preamble left it. -/
theorem w7_v5 : W7 m ρ c (Proc.devRef .tc main_v5) = Cert.ReferenceIdeal.Read.val_main_v5 (F := Ideal) (m ((c : Thread nD τ).loc main_arg1)) := (v5_at7 m ρ c).trans (w4_v5 m ρ c)

/-- The edge array as the preamble left it. -/
theorem w7_v6 : W7 m ρ c (Proc.devRef .tc main_v6) = Cert.ReferenceIdeal.Read.val_main_v6 (F := Ideal) (m ((c : Thread nD τ).loc main_arg1)) := (v6_at7 m ρ c).trans (w4_v6 m ρ c)

/-- The edge array as the preamble left it. -/
theorem w7_v33 : W7 m ρ c (Proc.devRef .tc main_v33) = Cert.ReferenceIdeal.Read.val_main_v33 (F := Ideal) (m ((c : Thread nD τ).loc main_arg1)) (m ((c : Thread nD τ).loc main_arg3)) := (v33_at7 m ρ c).trans (w4_v33 m ρ c)

/-- The edge array as the preamble left it. -/
theorem w10_v5 : W10 m ρ c (Proc.devRef .tc main_v5) = Cert.ReferenceIdeal.Read.val_main_v5 (F := Ideal) (m ((c : Thread nD τ).loc main_arg1)) := (v5_at10 m ρ c).trans (w7_v5 m ρ c)

/-- The edge array as the preamble left it. -/
theorem w10_v6 : W10 m ρ c (Proc.devRef .tc main_v6) = Cert.ReferenceIdeal.Read.val_main_v6 (F := Ideal) (m ((c : Thread nD τ).loc main_arg1)) := (v6_at10 m ρ c).trans (w7_v6 m ρ c)

/-- The edge array as the preamble left it. -/
theorem w10_v33 : W10 m ρ c (Proc.devRef .tc main_v33) = Cert.ReferenceIdeal.Read.val_main_v33 (F := Ideal) (m ((c : Thread nD τ).loc main_arg1)) (m ((c : Thread nD τ).loc main_arg3)) := (v33_at10 m ρ c).trans (w7_v33 m ρ c)

/-- The edge array as the preamble left it. -/
theorem w13_v5 : W13 m ρ c (Proc.devRef .tc main_v5) = Cert.ReferenceIdeal.Read.val_main_v5 (F := Ideal) (m ((c : Thread nD τ).loc main_arg1)) := (v5_at13 m ρ c).trans (w10_v5 m ρ c)

/-- The edge array as the preamble left it. -/
theorem w13_v6 : W13 m ρ c (Proc.devRef .tc main_v6) = Cert.ReferenceIdeal.Read.val_main_v6 (F := Ideal) (m ((c : Thread nD τ).loc main_arg1)) := (v6_at13 m ρ c).trans (w10_v6 m ρ c)

/-- The edge array as the preamble left it. -/
theorem w13_v33 : W13 m ρ c (Proc.devRef .tc main_v33) = Cert.ReferenceIdeal.Read.val_main_v33 (F := Ideal) (m ((c : Thread nD τ).loc main_arg1)) (m ((c : Thread nD τ).loc main_arg3)) := (v33_at13 m ρ c).trans (w10_v33 m ρ c)

/-- Layer 1's linear step: the region leaves the product of the features with the first weight matrix, which is the reference's `dot_general`. -/
theorem w4_v34 : W4 m ρ c (Proc.devRef .tc main_v34) = Cert.ReferenceIdeal.Read.val_main_v34 (F := Ideal) (m ((c : Thread nD τ).loc main_arg0)) (m ((c : Thread nD τ).loc main_arg4)) := by
  refine (W4_arr m ρ c 2).trans ?_
  rw [Cert.KernelIdeal.MatmulValue.region0 (V3 m ρ) c]
  show Cert.KernelIdeal.MatmulValue.prod3 (W3 m ρ c (Proc.devRef .tc main_arg0)) (W3 m ρ c (Proc.devRef .tc main_arg4)) = _
  rw [arg0_at3 m ρ c, arg4_at3 m ρ c]
  exact (Cert.KernelIdeal.Bridge.dot3 _ _).symm

set_option maxHeartbeats 1000000 in
/-- Layer 1's aggregation: gather the transformed rows by source, scale each by its edge's normalisation, add into the destination rows. -/
theorem w5_v47 : W5 m ρ c (Proc.devRef .tc main_v47) = Cert.ReferenceIdeal.Read.val_main_v47 (F := Ideal) (m ((c : Thread nD τ).loc main_arg0)) (m ((c : Thread nD τ).loc main_arg1)) (m ((c : Thread nD τ).loc main_arg3)) (m ((c : Thread nD τ).loc main_arg4)) := by
  have h0 := w4_v34 m ρ c
  have h1 := w4_v5 m ρ c
  have h2 := w4_v6 m ρ c
  have h3 := w4_v33 m ρ c
  show StableHlo.after hostOps1 (W4 m ρ c) (Proc.devRef .tc main_v47) = _
  generalize W4 m ρ c = Vp at h0 h1 h2 h3 ⊢
  after_results_simp
  rw [h0, h1, h2, h3]
  rfl

set_option maxHeartbeats 1000000 in
/-- Layer 1's bias as a 1 × 128 row. -/
theorem w5_v48 : W5 m ρ c (Proc.devRef .tc main_v48) = (shapeCast S1x128 (m ((c : Thread nD τ).loc main_arg5)) shapeCasts_S128_S1x128) := by
  have h0 := arg5_at4 m ρ c
  show StableHlo.after hostOps1 (W4 m ρ c) (Proc.devRef .tc main_v48) = _
  generalize W4 m ρ c = Vp at h0 ⊢
  after_results_simp
  rw [h0]
  rfl

/-- Layer 1's activation: the region adds the bias row to every row of the aggregate and takes the positive part, which is the reference's broadcast add followed by `relu`. -/
theorem w6_v49 : W6 m ρ c (Proc.devRef .tc main_v49) = Cert.ReferenceIdeal.Read.val_main_v51 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W6_arr m ρ c 2).trans ?_
  rw [Cert.KernelIdeal.ReluBias.region1 (V5 m ρ) c]
  show Cert.KernelIdeal.ReluBias.biasRelu (W5 m ρ c (Proc.devRef .tc main_v47)) (W5 m ρ c (Proc.devRef .tc main_v48)) = _
  rw [w5_v47 m ρ c, w5_v48 m ρ c]
  exact (Cert.KernelIdeal.ReluBias.host_form _ _).symm

/-- Layer 2's linear step: the region leaves the product of the previous layer's activations with this layer's weight matrix, which is the reference's `dot_general`. -/
theorem w7_v50 : W7 m ρ c (Proc.devRef .tc main_v50) = Cert.ReferenceIdeal.Read.val_main_v52 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W7_arr m ρ c 2).trans ?_
  rw [Cert.KernelIdeal.MatmulValue.region2 (V6 m ρ) c]
  show Cert.KernelIdeal.MatmulValue.prod128 (W6 m ρ c (Proc.devRef .tc main_v49)) (W6 m ρ c (Proc.devRef .tc main_arg6)) = _
  rw [w6_v49 m ρ c, arg6_at6 m ρ c]
  exact (Cert.KernelIdeal.Bridge.dot128 _ _).symm

set_option maxHeartbeats 1000000 in
/-- Layer 2's aggregation: gather the transformed rows by source, scale each by its edge's normalisation, add into the destination rows. -/
theorem w8_v63 : W8 m ρ c (Proc.devRef .tc main_v63) = Cert.ReferenceIdeal.Read.val_main_v65 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  have h0 := w7_v50 m ρ c
  have h1 := w7_v5 m ρ c
  have h2 := w7_v6 m ρ c
  have h3 := w7_v33 m ρ c
  show StableHlo.after hostOps3 (W7 m ρ c) (Proc.devRef .tc main_v63) = _
  generalize W7 m ρ c = Vp at h0 h1 h2 h3 ⊢
  after_results_simp
  rw [h0, h1, h2, h3]
  rfl

set_option maxHeartbeats 1000000 in
/-- Layer 2's bias as a 1 × 128 row. -/
theorem w8_v64 : W8 m ρ c (Proc.devRef .tc main_v64) = (shapeCast S1x128 (m ((c : Thread nD τ).loc main_arg7)) shapeCasts_S128_S1x128) := by
  have h0 := arg7_at7 m ρ c
  show StableHlo.after hostOps3 (W7 m ρ c) (Proc.devRef .tc main_v64) = _
  generalize W7 m ρ c = Vp at h0 ⊢
  after_results_simp
  rw [h0]
  rfl

/-- Layer 2's activation: the region adds the bias row to every row of the aggregate and takes the positive part, which is the reference's broadcast add followed by `relu`. -/
theorem w9_v65 : W9 m ρ c (Proc.devRef .tc main_v65) = Cert.ReferenceIdeal.Read.val_main_v69 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W9_arr m ρ c 2).trans ?_
  rw [Cert.KernelIdeal.ReluBias.region3 (V8 m ρ) c]
  show Cert.KernelIdeal.ReluBias.biasRelu (W8 m ρ c (Proc.devRef .tc main_v63)) (W8 m ρ c (Proc.devRef .tc main_v64)) = _
  rw [w8_v63 m ρ c, w8_v64 m ρ c]
  exact (Cert.KernelIdeal.ReluBias.host_form _ _).symm

/-- Layer 3's linear step: the region leaves the product of the previous layer's activations with this layer's weight matrix, which is the reference's `dot_general`. -/
theorem w10_v66 : W10 m ρ c (Proc.devRef .tc main_v66) = Cert.ReferenceIdeal.Read.val_main_v70 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 2).trans ?_
  rw [Cert.KernelIdeal.MatmulValue.region4 (V9 m ρ) c]
  show Cert.KernelIdeal.MatmulValue.prod128 (W9 m ρ c (Proc.devRef .tc main_v65)) (W9 m ρ c (Proc.devRef .tc main_arg8)) = _
  rw [w9_v65 m ρ c, arg8_at9 m ρ c]
  exact (Cert.KernelIdeal.Bridge.dot128 _ _).symm

set_option maxHeartbeats 1000000 in
/-- Layer 3's aggregation: gather the transformed rows by source, scale each by its edge's normalisation, add into the destination rows. -/
theorem w11_v79 : W11 m ρ c (Proc.devRef .tc main_v79) = Cert.ReferenceIdeal.Read.val_main_v83 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h0 := w10_v66 m ρ c
  have h1 := w10_v5 m ρ c
  have h2 := w10_v6 m ρ c
  have h3 := w10_v33 m ρ c
  show StableHlo.after hostOps5 (W10 m ρ c) (Proc.devRef .tc main_v79) = _
  generalize W10 m ρ c = Vp at h0 h1 h2 h3 ⊢
  after_results_simp
  rw [h0, h1, h2, h3]
  rfl

set_option maxHeartbeats 1000000 in
/-- Layer 3's bias as a 1 × 128 row. -/
theorem w11_v80 : W11 m ρ c (Proc.devRef .tc main_v80) = (shapeCast S1x128 (m ((c : Thread nD τ).loc main_arg9)) shapeCasts_S128_S1x128) := by
  have h0 := arg9_at10 m ρ c
  show StableHlo.after hostOps5 (W10 m ρ c) (Proc.devRef .tc main_v80) = _
  generalize W10 m ρ c = Vp at h0 ⊢
  after_results_simp
  rw [h0]
  rfl

/-- Layer 3's activation: the region adds the bias row to every row of the aggregate and takes the positive part, which is the reference's broadcast add followed by `relu`. -/
theorem w12_v81 : W12 m ρ c (Proc.devRef .tc main_v81) = Cert.ReferenceIdeal.Read.val_main_v87 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W12_arr m ρ c 2).trans ?_
  rw [Cert.KernelIdeal.ReluBias.region5 (V11 m ρ) c]
  show Cert.KernelIdeal.ReluBias.biasRelu (W11 m ρ c (Proc.devRef .tc main_v79)) (W11 m ρ c (Proc.devRef .tc main_v80)) = _
  rw [w11_v79 m ρ c, w11_v80 m ρ c]
  exact (Cert.KernelIdeal.ReluBias.host_form _ _).symm

/-- Layer 4's linear step: the region leaves the product of the previous layer's activations with this layer's weight matrix, which is the reference's `dot_general`. -/
theorem w13_v82 : W13 m ρ c (Proc.devRef .tc main_v82) = Cert.ReferenceIdeal.Read.val_main_v88 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W13_arr m ρ c 2).trans ?_
  rw [Cert.KernelIdeal.MatmulValue.region6 (V12 m ρ) c]
  show Cert.KernelIdeal.MatmulValue.prod128 (W12 m ρ c (Proc.devRef .tc main_v81)) (W12 m ρ c (Proc.devRef .tc main_arg10)) = _
  rw [w12_v81 m ρ c, arg10_at12 m ρ c]
  exact (Cert.KernelIdeal.Bridge.dot128 _ _).symm

set_option maxHeartbeats 1000000 in
/-- Layer 4's aggregation: gather the transformed rows by source, scale each by its edge's normalisation, add into the destination rows. -/
theorem w14_v95 : W14 m ρ c (Proc.devRef .tc main_v95) = Cert.ReferenceIdeal.Read.val_main_v101 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have h0 := w13_v82 m ρ c
  have h1 := w13_v5 m ρ c
  have h2 := w13_v6 m ρ c
  have h3 := w13_v33 m ρ c
  show StableHlo.after hostOps7 (W13 m ρ c) (Proc.devRef .tc main_v95) = _
  generalize W13 m ρ c = Vp at h0 h1 h2 h3 ⊢
  after_results_simp
  rw [h0, h1, h2, h3]
  rfl

set_option maxHeartbeats 1000000 in
/-- Layer 4's bias as a 1 × 128 row. -/
theorem w14_v96 : W14 m ρ c (Proc.devRef .tc main_v96) = (shapeCast S1x128 (m ((c : Thread nD τ).loc main_arg11)) shapeCasts_S128_S1x128) := by
  have h0 := arg11_at13 m ρ c
  show StableHlo.after hostOps7 (W13 m ρ c) (Proc.devRef .tc main_v96) = _
  generalize W13 m ρ c = Vp at h0 ⊢
  after_results_simp
  rw [h0]
  rfl

/-- Layer 4's activation: the region adds the bias row to every row of the aggregate and takes the positive part, which is the reference's broadcast add followed by `relu`. -/
theorem w15_v97 : W15 m ρ c (Proc.devRef .tc main_v97) = Cert.ReferenceIdeal.Read.val_main_v105 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W15_arr m ρ c 2).trans ?_
  rw [Cert.KernelIdeal.ReluBias.region7 (V14 m ρ) c]
  show Cert.KernelIdeal.ReluBias.biasRelu (W14 m ρ c (Proc.devRef .tc main_v95)) (W14 m ρ c (Proc.devRef .tc main_v96)) = _
  rw [w14_v95 m ρ c, w14_v96 m ρ c]
  exact (Cert.KernelIdeal.ReluBias.host_form _ _).symm

end Cert.KernelIdeal.Fold

end
-- ==== Proof.Heads.lean ====
/- The two heads on the pooled embedding, as functions index by index.
   rankOf: row r, class q  |->  sum over k of max (sum over j of g(r,j) * wc1(j,k) + bc1(0,k)) 0 * wc2(k,q) + bc2(0,q).
   stabOf: row r  |->  logistic (sum over j of g(r,j) * wa(j,0) + ba(0,0)).
   Shown here: the last region of the kernel leaves exactly these two arrays (its one grid point loads every
   operand whole, so each block is its array); and the reference's operations for the same two heads, read at an
   index, are the same two functions once each bias vector is read as a one-row array. -/
import proofs.«158055_j16381005267206_1_alg».proof.Defs
import proofs.«158055_j16381005267206_1_alg».proof.Proof.Gen.KernelIdeal.Frame
import proofs.«158055_j16381005267206_1_alg».proof.Proof.Gen.ReferenceIdeal.Read
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Heads

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

/-! # The two heads as functions of the pooled embedding -/

/-- Hidden unit k of the rank head on row p: max (sum_j g(p,j) * wc1(j,k) + bc1(0,k)) 0. -/
def hidden (g : S256x128.Idx → EReal) (wc1 : S128x128.Idx → EReal) (bc1 : S1x128.Idx → EReal)
    (p : Fin 256) (k : Fin 128) : EReal :=
  max ((∑ j : Fin 128, g (ix2 p j) * wc1 (ix2 j k)) + bc1 (ix2 (0 : Fin 1) k)) 0

/-- The rank logits, index by index: sum_k hidden(r,k) * wc2(k,q) + bc2(0,q). -/
def rankOf (g : S256x128.Idx → EReal) (wc1 : S128x128.Idx → EReal) (bc1 : S1x128.Idx → EReal)
    (wc2 : S128x10.Idx → EReal) (bc2 : S1x10.Idx → EReal) : S256x10.Idx → EReal := fun i =>
  (∑ k : Fin 128, hidden g wc1 bc1 ⟨(i 0).val, (i 0).isLt⟩ k * wc2 (ix2 k ⟨(i 1).val, (i 1).isLt⟩))
    + bc2 (ix2 (0 : Fin 1) ⟨(i 1).val, (i 1).isLt⟩)

/-- The stability score, index by index: logistic (sum_j g(r,j) * wa(j,0) + ba(0,0)). -/
def stabOf (g : S256x128.Idx → EReal) (wa : S128x1.Idx → EReal) (ba : S1x1.Idx → EReal) : S256x1.Idx → EReal := fun i =>
  Ideal.logistic ((∑ j : Fin 128, g (ix2 ⟨(i 0).val, (i 0).isLt⟩ j) * wa (ix2 j (0 : Fin 1))) + ba (ix2 (0 : Fin 1) (0 : Fin 1)))

theorem rankOf_apply (g : S256x128.Idx → EReal) (wc1 : S128x128.Idx → EReal) (bc1 : S1x128.Idx → EReal)
    (wc2 : S128x10.Idx → EReal) (bc2 : S1x10.Idx → EReal) (p : Fin 256) (q : Fin 10) :
    rankOf g wc1 bc1 wc2 bc2 (ix2 p q)
      = (∑ k : Fin 128, hidden g wc1 bc1 p k * wc2 (ix2 k q)) + bc2 (ix2 (0 : Fin 1) q) := rfl

theorem stabOf_apply (g : S256x128.Idx → EReal) (wa : S128x1.Idx → EReal) (ba : S1x1.Idx → EReal) (p : Fin 256) (q : Fin 1) :
    stabOf g wa ba (ix2 p q)
      = Ideal.logistic ((∑ j : Fin 128, g (ix2 p j) * wa (ix2 j (0 : Fin 1))) + ba (ix2 (0 : Fin 1) (0 : Fin 1))) := rfl

/-! ## A matrix product read at an index

Each of the three products contracts the left operand's second axis with the right operand's first, an axis of
extent 128; the statements below are the same three facts for each of the three pairs of shapes. -/

/-! ### [256,128] times [128,128] -/

theorem lhsA_0 (i : S256x128.Idx) (q : dot_S256x128_S128x128_S256x128_1_0_0_1_n_n.contr.Idx) :
    (dot_S256x128_S128x128_S256x128_1_0_0_1_n_n.lhsIdx i q 0).val = (i 0).val := by
  unfold DotDims.lhsIdx
  rw [dif_neg (show ¬(0 : Fin S256x128.rank) ∈ dot_S256x128_S128x128_S256x128_1_0_0_1_n_n.lhsBatch by decide),
    dif_pos (show (0 : Fin S256x128.rank) ∈ dot_S256x128_S128x128_S256x128_1_0_0_1_n_n.lhsNonContracting by decide)]
  rfl

theorem rhsA_1 (i : S256x128.Idx) (q : dot_S256x128_S128x128_S256x128_1_0_0_1_n_n.contr.Idx) :
    (dot_S256x128_S128x128_S256x128_1_0_0_1_n_n.rhsIdx i q 1).val = (i 1).val := by
  unfold DotDims.rhsIdx
  rw [dif_neg (show ¬(1 : Fin S128x128.rank) ∈ dot_S256x128_S128x128_S256x128_1_0_0_1_n_n.rhsBatch by decide),
    dif_pos (show (1 : Fin S128x128.rank) ∈ dot_S256x128_S128x128_S256x128_1_0_0_1_n_n.rhsNonContracting by decide)]
  rfl

/-- Re-indexed by Fin 128, the factors at contraction position j are the left operand at (p, j) and the right at (j, k). -/
theorem contrA (x : S256x128.Idx → EReal) (w : S128x128.Idx → EReal) (p : Fin 256) (k : Fin 128) :
    ∑ q : dot_S256x128_S128x128_S256x128_1_0_0_1_n_n.contr.Idx,
        x (dot_S256x128_S128x128_S256x128_1_0_0_1_n_n.lhsIdx (ix2 p k) q) * w (dot_S256x128_S128x128_S256x128_1_0_0_1_n_n.rhsIdx (ix2 p k) q)
      = ∑ j : Fin 128, x (ix2 p j) * w (ix2 j k) := by
  rw [← Equiv.sum_comp (contrEquiv1 dot_S256x128_S128x128_S256x128_1_0_0_1_n_n 128 rfl rfl).symm]
  refine Finset.sum_congr rfl fun j _ => ?_
  have hj := contrEquiv1_symm_val dot_S256x128_S128x128_S256x128_1_0_0_1_n_n 128 rfl rfl j
  have el : dot_S256x128_S128x128_S256x128_1_0_0_1_n_n.lhsIdx (ix2 p k)
      ((contrEquiv1 dot_S256x128_S128x128_S256x128_1_0_0_1_n_n 128 rfl rfl).symm j) = ix2 p j := funext fun a => Fin.ext (by
    match a with
    | ⟨0, _⟩ => exact lhsA_0 _ _
    | ⟨1, _⟩ => exact (dot_S256x128_S128x128_S256x128_1_0_0_1_n_n.lhsIdx_val_of_single rfl _ _).trans hj)
  have er : dot_S256x128_S128x128_S256x128_1_0_0_1_n_n.rhsIdx (ix2 p k)
      ((contrEquiv1 dot_S256x128_S128x128_S256x128_1_0_0_1_n_n 128 rfl rfl).symm j) = ix2 j k := funext fun a => Fin.ext (by
    match a with
    | ⟨0, _⟩ => exact (dot_S256x128_S128x128_S256x128_1_0_0_1_n_n.rhsIdx_val_of_single rfl _ _).trans hj
    | ⟨1, _⟩ => exact rhsA_1 _ _)
  rw [el, er]

/-- The kernel's product into a zero accumulator, read at (p, k). -/
theorem mmA_apply (x : FVec Ideal S256x128 .f32) (w : FVec Ideal S128x128 .f32) (p : Fin 256) (k : Fin 128) :
    matmul dot_S256x128_S128x128_S256x128_1_0_0_1_n_n none x w (constant (F := Ideal) S256x128 .f32 0x00000000#32) (ix2 p k)
      = ∑ j : Fin 128, x (ix2 p j) * w (ix2 j k) :=
  (Ideal.matmul_constant_zero_apply dot_S256x128_S128x128_S256x128_1_0_0_1_n_n none x w (ix2 p k)).trans (contrA x w p k)

/-- The reference's product of the same dimension numbers, read at (p, k): the same sum. -/
theorem hostDotA_apply (x : FVec Ideal S256x128 .f32) (w : FVec Ideal S128x128 .f32) (p : Fin 256) (k : Fin 128) :
    Host.dotGeneral Cert.ReferenceIdeal.dot_S256x128_S128x128_S256x128_1_0_0_1_n_n none x w (ix2 p k)
      = ∑ j : Fin 128, x (ix2 p j) * w (ix2 j k) :=
  (Ideal.dotGeneral_apply Cert.ReferenceIdeal.dot_S256x128_S128x128_S256x128_1_0_0_1_n_n none .single x w (ix2 p k)).trans (contrA x w p k)

/-! ### [256,128] times [128,10] -/

theorem lhsB_0 (i : S256x10.Idx) (q : dot_S256x128_S128x10_S256x10_1_0_0_1_n_n.contr.Idx) :
    (dot_S256x128_S128x10_S256x10_1_0_0_1_n_n.lhsIdx i q 0).val = (i 0).val := by
  unfold DotDims.lhsIdx
  rw [dif_neg (show ¬(0 : Fin S256x128.rank) ∈ dot_S256x128_S128x10_S256x10_1_0_0_1_n_n.lhsBatch by decide),
    dif_pos (show (0 : Fin S256x128.rank) ∈ dot_S256x128_S128x10_S256x10_1_0_0_1_n_n.lhsNonContracting by decide)]
  rfl

theorem rhsB_1 (i : S256x10.Idx) (q : dot_S256x128_S128x10_S256x10_1_0_0_1_n_n.contr.Idx) :
    (dot_S256x128_S128x10_S256x10_1_0_0_1_n_n.rhsIdx i q 1).val = (i 1).val := by
  unfold DotDims.rhsIdx
  rw [dif_neg (show ¬(1 : Fin S128x10.rank) ∈ dot_S256x128_S128x10_S256x10_1_0_0_1_n_n.rhsBatch by decide),
    dif_pos (show (1 : Fin S128x10.rank) ∈ dot_S256x128_S128x10_S256x10_1_0_0_1_n_n.rhsNonContracting by decide)]
  rfl

/-- Re-indexed by Fin 128, the factors at contraction position j are the left operand at (p, j) and the right at (j, k). -/
theorem contrB (x : S256x128.Idx → EReal) (w : S128x10.Idx → EReal) (p : Fin 256) (k : Fin 10) :
    ∑ q : dot_S256x128_S128x10_S256x10_1_0_0_1_n_n.contr.Idx,
        x (dot_S256x128_S128x10_S256x10_1_0_0_1_n_n.lhsIdx (ix2 p k) q) * w (dot_S256x128_S128x10_S256x10_1_0_0_1_n_n.rhsIdx (ix2 p k) q)
      = ∑ j : Fin 128, x (ix2 p j) * w (ix2 j k) := by
  rw [← Equiv.sum_comp (contrEquiv1 dot_S256x128_S128x10_S256x10_1_0_0_1_n_n 128 rfl rfl).symm]
  refine Finset.sum_congr rfl fun j _ => ?_
  have hj := contrEquiv1_symm_val dot_S256x128_S128x10_S256x10_1_0_0_1_n_n 128 rfl rfl j
  have el : dot_S256x128_S128x10_S256x10_1_0_0_1_n_n.lhsIdx (ix2 p k)
      ((contrEquiv1 dot_S256x128_S128x10_S256x10_1_0_0_1_n_n 128 rfl rfl).symm j) = ix2 p j := funext fun a => Fin.ext (by
    match a with
    | ⟨0, _⟩ => exact lhsB_0 _ _
    | ⟨1, _⟩ => exact (dot_S256x128_S128x10_S256x10_1_0_0_1_n_n.lhsIdx_val_of_single rfl _ _).trans hj)
  have er : dot_S256x128_S128x10_S256x10_1_0_0_1_n_n.rhsIdx (ix2 p k)
      ((contrEquiv1 dot_S256x128_S128x10_S256x10_1_0_0_1_n_n 128 rfl rfl).symm j) = ix2 j k := funext fun a => Fin.ext (by
    match a with
    | ⟨0, _⟩ => exact (dot_S256x128_S128x10_S256x10_1_0_0_1_n_n.rhsIdx_val_of_single rfl _ _).trans hj
    | ⟨1, _⟩ => exact rhsB_1 _ _)
  rw [el, er]

/-- The kernel's product into a zero accumulator, read at (p, k). -/
theorem mmB_apply (x : FVec Ideal S256x128 .f32) (w : FVec Ideal S128x10 .f32) (p : Fin 256) (k : Fin 10) :
    matmul dot_S256x128_S128x10_S256x10_1_0_0_1_n_n none x w (constant (F := Ideal) S256x10 .f32 0x00000000#32) (ix2 p k)
      = ∑ j : Fin 128, x (ix2 p j) * w (ix2 j k) :=
  (Ideal.matmul_constant_zero_apply dot_S256x128_S128x10_S256x10_1_0_0_1_n_n none x w (ix2 p k)).trans (contrB x w p k)

/-- The reference's product of the same dimension numbers, read at (p, k): the same sum. -/
theorem hostDotB_apply (x : FVec Ideal S256x128 .f32) (w : FVec Ideal S128x10 .f32) (p : Fin 256) (k : Fin 10) :
    Host.dotGeneral Cert.ReferenceIdeal.dot_S256x128_S128x10_S256x10_1_0_0_1_n_n none x w (ix2 p k)
      = ∑ j : Fin 128, x (ix2 p j) * w (ix2 j k) :=
  (Ideal.dotGeneral_apply Cert.ReferenceIdeal.dot_S256x128_S128x10_S256x10_1_0_0_1_n_n none .single x w (ix2 p k)).trans (contrB x w p k)

/-! ### [256,128] times [128,1] -/

theorem lhsC_0 (i : S256x1.Idx) (q : dot_S256x128_S128x1_S256x1_1_0_0_1_n_n.contr.Idx) :
    (dot_S256x128_S128x1_S256x1_1_0_0_1_n_n.lhsIdx i q 0).val = (i 0).val := by
  unfold DotDims.lhsIdx
  rw [dif_neg (show ¬(0 : Fin S256x128.rank) ∈ dot_S256x128_S128x1_S256x1_1_0_0_1_n_n.lhsBatch by decide),
    dif_pos (show (0 : Fin S256x128.rank) ∈ dot_S256x128_S128x1_S256x1_1_0_0_1_n_n.lhsNonContracting by decide)]
  rfl

theorem rhsC_1 (i : S256x1.Idx) (q : dot_S256x128_S128x1_S256x1_1_0_0_1_n_n.contr.Idx) :
    (dot_S256x128_S128x1_S256x1_1_0_0_1_n_n.rhsIdx i q 1).val = (i 1).val := by
  unfold DotDims.rhsIdx
  rw [dif_neg (show ¬(1 : Fin S128x1.rank) ∈ dot_S256x128_S128x1_S256x1_1_0_0_1_n_n.rhsBatch by decide),
    dif_pos (show (1 : Fin S128x1.rank) ∈ dot_S256x128_S128x1_S256x1_1_0_0_1_n_n.rhsNonContracting by decide)]
  rfl

/-- Re-indexed by Fin 128, the factors at contraction position j are the left operand at (p, j) and the right at (j, k). -/
theorem contrC (x : S256x128.Idx → EReal) (w : S128x1.Idx → EReal) (p : Fin 256) (k : Fin 1) :
    ∑ q : dot_S256x128_S128x1_S256x1_1_0_0_1_n_n.contr.Idx,
        x (dot_S256x128_S128x1_S256x1_1_0_0_1_n_n.lhsIdx (ix2 p k) q) * w (dot_S256x128_S128x1_S256x1_1_0_0_1_n_n.rhsIdx (ix2 p k) q)
      = ∑ j : Fin 128, x (ix2 p j) * w (ix2 j k) := by
  rw [← Equiv.sum_comp (contrEquiv1 dot_S256x128_S128x1_S256x1_1_0_0_1_n_n 128 rfl rfl).symm]
  refine Finset.sum_congr rfl fun j _ => ?_
  have hj := contrEquiv1_symm_val dot_S256x128_S128x1_S256x1_1_0_0_1_n_n 128 rfl rfl j
  have el : dot_S256x128_S128x1_S256x1_1_0_0_1_n_n.lhsIdx (ix2 p k)
      ((contrEquiv1 dot_S256x128_S128x1_S256x1_1_0_0_1_n_n 128 rfl rfl).symm j) = ix2 p j := funext fun a => Fin.ext (by
    match a with
    | ⟨0, _⟩ => exact lhsC_0 _ _
    | ⟨1, _⟩ => exact (dot_S256x128_S128x1_S256x1_1_0_0_1_n_n.lhsIdx_val_of_single rfl _ _).trans hj)
  have er : dot_S256x128_S128x1_S256x1_1_0_0_1_n_n.rhsIdx (ix2 p k)
      ((contrEquiv1 dot_S256x128_S128x1_S256x1_1_0_0_1_n_n 128 rfl rfl).symm j) = ix2 j k := funext fun a => Fin.ext (by
    match a with
    | ⟨0, _⟩ => exact (dot_S256x128_S128x1_S256x1_1_0_0_1_n_n.rhsIdx_val_of_single rfl _ _).trans hj
    | ⟨1, _⟩ => exact rhsC_1 _ _)
  rw [el, er]

/-- The kernel's product into a zero accumulator, read at (p, k). -/
theorem mmC_apply (x : FVec Ideal S256x128 .f32) (w : FVec Ideal S128x1 .f32) (p : Fin 256) (k : Fin 1) :
    matmul dot_S256x128_S128x1_S256x1_1_0_0_1_n_n none x w (constant (F := Ideal) S256x1 .f32 0x00000000#32) (ix2 p k)
      = ∑ j : Fin 128, x (ix2 p j) * w (ix2 j k) :=
  (Ideal.matmul_constant_zero_apply dot_S256x128_S128x1_S256x1_1_0_0_1_n_n none x w (ix2 p k)).trans (contrC x w p k)

/-- The reference's product of the same dimension numbers, read at (p, k): the same sum. -/
theorem hostDotC_apply (x : FVec Ideal S256x128 .f32) (w : FVec Ideal S128x1 .f32) (p : Fin 256) (k : Fin 1) :
    Host.dotGeneral Cert.ReferenceIdeal.dot_S256x128_S128x1_S256x1_1_0_0_1_n_n none x w (ix2 p k)
      = ∑ j : Fin 128, x (ix2 p j) * w (ix2 j k) :=
  (Ideal.dotGeneral_apply Cert.ReferenceIdeal.dot_S256x128_S128x1_S256x1_1_0_0_1_n_n none .single x w (ix2 p k)).trans (contrC x w p k)

/-! ## The bias rows -/

theorem hz : (![0, 0] : Fin 2 → Nat) = fun _ => 0 := funext fun a => by fin_cases a <;> rfl

/-- A vector of length b laid out as one row and then repeated over a rows reads, at (p, c), its element c. -/
theorem hostRow_apply {α : Type} {a b : ℕ} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  refine (broadcastInDim_apply _ h2 _ (ix2 p c) (ix2 (0 : Fin 1) c) fun ax => ?_).trans ?_
  · match ax with
    | ⟨0, _⟩ => show 0 = if (1 : ℕ) = 1 then 0 else p.val; rw [if_pos rfl]
    | ⟨1, _⟩ =>
      show c.val = if b = 1 then 0 else c.val
      split
      · have := c.isLt; omega
      · rfl
  · refine broadcastInDim_apply _ h1 v (ix2 (0 : Fin 1) c) (ix1 c) fun ax => ?_
    match ax with
    | ⟨0, _⟩ =>
      show c.val = if b = 1 then 0 else c.val
      split
      · have := c.isLt; omega
      · rfl

/-! ## The body's two stored values, index by index -/

/-- The first stored value (two products, two bias rows, a maximum with zero) is rankOf of the loaded blocks. -/
theorem pay1_apply (g : Vec Ideal S256x128 .f32) (wc1 : Vec Ideal S128x128 .f32) (bc1 : Vec Ideal S1x128 .f32)
    (wc2 : Vec Ideal S128x10 .f32) (bc2 : Vec Ideal S1x10 .f32) (p : Fin 256) (q : Fin 10) :
    k8_pay1 (F := Ideal) g wc1 bc1 wc2 bc2 (ix2 p q) = rankOf g wc1 bc1 wc2 bc2 (ix2 p q) := by
  refine Eq.trans ?_ (rankOf_apply g wc1 bc1 wc2 bc2 p q).symm
  unfold k8_pay1
  simp only [shapeCast_self]
  refine (addf_apply _ _ (ix2 p q)).trans ?_
  refine congrArg₂ (· + ·) ?_ (broadcastTo_1b_ab_apply bc2 broadcasts_S1x10_S256x10 p q)
  refine (mmB_apply _ wc2 p q).trans (Finset.sum_congr rfl fun k _ => congrArg (· * wc2 (ix2 k q)) ?_)
  refine (maximumf_apply _ _ (ix2 p k)).trans ?_
  refine congrArg₂ max ?_ Ideal.ofBits_zero_f32
  refine (addf_apply _ _ (ix2 p k)).trans ?_
  exact congrArg₂ (· + ·) (mmA_apply g wc1 p k) (broadcastTo_1b_ab_apply bc1 broadcasts_S1x128_S256x128 p k)

theorem pay1_eq (g : Vec Ideal S256x128 .f32) (wc1 : Vec Ideal S128x128 .f32) (bc1 : Vec Ideal S1x128 .f32)
    (wc2 : Vec Ideal S128x10 .f32) (bc2 : Vec Ideal S1x10 .f32) :
    k8_pay1 (F := Ideal) g wc1 bc1 wc2 bc2 = rankOf g wc1 bc1 wc2 bc2 := by
  funext i
  obtain ⟨p, q, rfl⟩ : ∃ (p : Fin 256) (q : Fin 10), i = ix2 p q := ⟨i 0, i 1, eq_ix2 i⟩
  exact pay1_apply g wc1 bc1 wc2 bc2 p q

/-- The second stored value (a product, a bias, the logistic function) is stabOf of the loaded blocks. -/
theorem pay2_apply (g : Vec Ideal S256x128 .f32) (wa : Vec Ideal S128x1 .f32) (ba : Vec Ideal S1x1 .f32)
    (p : Fin 256) (q : Fin 1) :
    k8_pay2 (F := Ideal) g wa ba (ix2 p q) = stabOf g wa ba (ix2 p q) := by
  obtain rfl : q = 0 := Subsingleton.elim _ _
  refine Eq.trans ?_ (stabOf_apply g wa ba p 0).symm
  unfold k8_pay2
  simp only [shapeCast_self]
  show Ideal.logistic (addf (F := Ideal) (φ := .f32) _ _ (ix2 p (0 : Fin 1))) = _
  refine congrArg Ideal.logistic ?_
  refine (addf_apply _ _ (ix2 p (0 : Fin 1))).trans ?_
  exact congrArg₂ (· + ·) (mmC_apply g wa p 0) (broadcastTo_1b_ab_apply ba broadcasts_S1x1_S256x1 p 0)

theorem pay2_eq (g : Vec Ideal S256x128 .f32) (wa : Vec Ideal S128x1 .f32) (ba : Vec Ideal S1x1 .f32) :
    k8_pay2 (F := Ideal) g wa ba = stabOf g wa ba := by
  funext i
  obtain ⟨p, q, rfl⟩ : ∃ (p : Fin 256) (q : Fin 1), i = ix2 p q := ⟨i 0, i 1, eq_ix2 i⟩
  exact pay2_apply g wa ba p q

/-! ## The last region: every window's block is its whole array -/

/-- The index maps, decided over the one-point grid: every window's block index is zero on both axes. -/
theorem idx8 : ∀ t : Fin cfg8.N,
    (win8_0.index t (0 : Fin 2) = 0 ∧ win8_0.index t (1 : Fin 2) = 0)
    ∧ (win8_1.index t (0 : Fin 2) = 0 ∧ win8_1.index t (1 : Fin 2) = 0)
    ∧ (win8_2.index t (0 : Fin 2) = 0 ∧ win8_2.index t (1 : Fin 2) = 0)
    ∧ (win8_3.index t (0 : Fin 2) = 0 ∧ win8_3.index t (1 : Fin 2) = 0)
    ∧ (win8_4.index t (0 : Fin 2) = 0 ∧ win8_4.index t (1 : Fin 2) = 0)
    ∧ (win8_5.index t (0 : Fin 2) = 0 ∧ win8_5.index t (1 : Fin 2) = 0)
    ∧ (win8_6.index t (0 : Fin 2) = 0 ∧ win8_6.index t (1 : Fin 2) = 0)
    ∧ (win8_7.index t (0 : Fin 2) = 0 ∧ win8_7.index t (1 : Fin 2) = 0)
    ∧ (win8_8.index t (0 : Fin 2) = 0 ∧ win8_8.index t (1 : Fin 2) = 0) :=
  (by decide +kernel : ∀ t : Fin grid8.N, _)

/-! An element of a window's block sits in the array at its own coordinates: block index 0 times the block's
    extent, plus the coordinate inside the block, on each axis. One statement per window. -/

theorem emb8_0 (t : Fin cfg8.N) (y : S256x128.Idx) : ((cfg8.win 0).blk t).view.emb y = y := by
  obtain ⟨⟨e0, e1⟩, -, -, -, -, -, -, -, -⟩ := idx8 t
  funext a
  apply Fin.ext
  match a with
  | ⟨0, _⟩ => show win8_0.index t (0 : Fin 2) * 256 + 1 * (y 0).val = (y 0).val; omega
  | ⟨1, _⟩ => show win8_0.index t (1 : Fin 2) * 128 + 1 * (y 1).val = (y 1).val; omega

theorem emb8_1 (t : Fin cfg8.N) (y : S128x128.Idx) : ((cfg8.win 1).blk t).view.emb y = y := by
  obtain ⟨-, ⟨e0, e1⟩, -, -, -, -, -, -, -⟩ := idx8 t
  funext a
  apply Fin.ext
  match a with
  | ⟨0, _⟩ => show win8_1.index t (0 : Fin 2) * 128 + 1 * (y 0).val = (y 0).val; omega
  | ⟨1, _⟩ => show win8_1.index t (1 : Fin 2) * 128 + 1 * (y 1).val = (y 1).val; omega

theorem emb8_2 (t : Fin cfg8.N) (y : S1x128.Idx) : ((cfg8.win 2).blk t).view.emb y = y := by
  obtain ⟨-, -, ⟨e0, e1⟩, -, -, -, -, -, -⟩ := idx8 t
  funext a
  apply Fin.ext
  match a with
  | ⟨0, _⟩ => show win8_2.index t (0 : Fin 2) * 1 + 1 * (y 0).val = (y 0).val; omega
  | ⟨1, _⟩ => show win8_2.index t (1 : Fin 2) * 128 + 1 * (y 1).val = (y 1).val; omega

theorem emb8_3 (t : Fin cfg8.N) (y : S128x10.Idx) : ((cfg8.win 3).blk t).view.emb y = y := by
  obtain ⟨-, -, -, ⟨e0, e1⟩, -, -, -, -, -⟩ := idx8 t
  funext a
  apply Fin.ext
  match a with
  | ⟨0, _⟩ => show win8_3.index t (0 : Fin 2) * 128 + 1 * (y 0).val = (y 0).val; omega
  | ⟨1, _⟩ => show win8_3.index t (1 : Fin 2) * 10 + 1 * (y 1).val = (y 1).val; omega

theorem emb8_4 (t : Fin cfg8.N) (y : S1x10.Idx) : ((cfg8.win 4).blk t).view.emb y = y := by
  obtain ⟨-, -, -, -, ⟨e0, e1⟩, -, -, -, -⟩ := idx8 t
  funext a
  apply Fin.ext
  match a with
  | ⟨0, _⟩ => show win8_4.index t (0 : Fin 2) * 1 + 1 * (y 0).val = (y 0).val; omega
  | ⟨1, _⟩ => show win8_4.index t (1 : Fin 2) * 10 + 1 * (y 1).val = (y 1).val; omega

theorem emb8_5 (t : Fin cfg8.N) (y : S128x1.Idx) : ((cfg8.win 5).blk t).view.emb y = y := by
  obtain ⟨-, -, -, -, -, ⟨e0, e1⟩, -, -, -⟩ := idx8 t
  funext a
  apply Fin.ext
  match a with
  | ⟨0, _⟩ => show win8_5.index t (0 : Fin 2) * 128 + 1 * (y 0).val = (y 0).val; omega
  | ⟨1, _⟩ => show win8_5.index t (1 : Fin 2) * 1 + 1 * (y 1).val = (y 1).val; omega

theorem emb8_6 (t : Fin cfg8.N) (y : S1x1.Idx) : ((cfg8.win 6).blk t).view.emb y = y := by
  obtain ⟨-, -, -, -, -, -, ⟨e0, e1⟩, -, -⟩ := idx8 t
  funext a
  apply Fin.ext
  match a with
  | ⟨0, _⟩ => show win8_6.index t (0 : Fin 2) * 1 + 1 * (y 0).val = (y 0).val; omega
  | ⟨1, _⟩ => show win8_6.index t (1 : Fin 2) * 1 + 1 * (y 1).val = (y 1).val; omega

theorem emb8_7 (t : Fin cfg8.N) (y : S256x10.Idx) : ((cfg8.win 7).blk t).view.emb y = y := by
  obtain ⟨-, -, -, -, -, -, -, ⟨e0, e1⟩, -⟩ := idx8 t
  funext a
  apply Fin.ext
  match a with
  | ⟨0, _⟩ => show win8_7.index t (0 : Fin 2) * 256 + 1 * (y 0).val = (y 0).val; omega
  | ⟨1, _⟩ => show win8_7.index t (1 : Fin 2) * 10 + 1 * (y 1).val = (y 1).val; omega

theorem emb8_8 (t : Fin cfg8.N) (y : S256x1.Idx) : ((cfg8.win 8).blk t).view.emb y = y := by
  obtain ⟨-, -, -, -, -, -, -, -, ⟨e0, e1⟩⟩ := idx8 t
  funext a
  apply Fin.ext
  match a with
  | ⟨0, _⟩ => show win8_8.index t (0 : Fin 2) * 256 + 1 * (y 0).val = (y 0).val; omega
  | ⟨1, _⟩ => show win8_8.index t (1 : Fin 2) * 1 + 1 * (y 1).val = (y 1).val; omega

section Region
variable (V : (c : Dev nD) → (b : Ref sig .tc) → Buf (Elt Ideal) ((c : Thread nD τ).loc b))

/-! Each input window's block at any point is its array as the region finds it. -/

theorem blk8_0 (c : Dev nD) (t : Fin cfg8.N) :
    (iblk8 (F := Ideal) V c 0 t : Vec Ideal S256x128 .f32) = V c (Pipeline.arrRef spec8 0) := by
  funext y
  show V c (Pipeline.arrRef spec8 0) (((cfg8.win 0).blk t).view.emb y) = V c (Pipeline.arrRef spec8 0) y
  rw [emb8_0 t y]

theorem blk8_1 (c : Dev nD) (t : Fin cfg8.N) :
    (iblk8 (F := Ideal) V c 1 t : Vec Ideal S128x128 .f32) = V c (Pipeline.arrRef spec8 1) := by
  funext y
  show V c (Pipeline.arrRef spec8 1) (((cfg8.win 1).blk t).view.emb y) = V c (Pipeline.arrRef spec8 1) y
  rw [emb8_1 t y]

theorem blk8_2 (c : Dev nD) (t : Fin cfg8.N) :
    (iblk8 (F := Ideal) V c 2 t : Vec Ideal S1x128 .f32) = V c (Pipeline.arrRef spec8 2) := by
  funext y
  show V c (Pipeline.arrRef spec8 2) (((cfg8.win 2).blk t).view.emb y) = V c (Pipeline.arrRef spec8 2) y
  rw [emb8_2 t y]

theorem blk8_3 (c : Dev nD) (t : Fin cfg8.N) :
    (iblk8 (F := Ideal) V c 3 t : Vec Ideal S128x10 .f32) = V c (Pipeline.arrRef spec8 3) := by
  funext y
  show V c (Pipeline.arrRef spec8 3) (((cfg8.win 3).blk t).view.emb y) = V c (Pipeline.arrRef spec8 3) y
  rw [emb8_3 t y]

theorem blk8_4 (c : Dev nD) (t : Fin cfg8.N) :
    (iblk8 (F := Ideal) V c 4 t : Vec Ideal S1x10 .f32) = V c (Pipeline.arrRef spec8 4) := by
  funext y
  show V c (Pipeline.arrRef spec8 4) (((cfg8.win 4).blk t).view.emb y) = V c (Pipeline.arrRef spec8 4) y
  rw [emb8_4 t y]

theorem blk8_5 (c : Dev nD) (t : Fin cfg8.N) :
    (iblk8 (F := Ideal) V c 5 t : Vec Ideal S128x1 .f32) = V c (Pipeline.arrRef spec8 5) := by
  funext y
  show V c (Pipeline.arrRef spec8 5) (((cfg8.win 5).blk t).view.emb y) = V c (Pipeline.arrRef spec8 5) y
  rw [emb8_5 t y]

theorem blk8_6 (c : Dev nD) (t : Fin cfg8.N) :
    (iblk8 (F := Ideal) V c 6 t : Vec Ideal S1x1 .f32) = V c (Pipeline.arrRef spec8 6) := by
  funext y
  show V c (Pipeline.arrRef spec8 6) (((cfg8.win 6).blk t).view.emb y) = V c (Pipeline.arrRef spec8 6) y
  rw [emb8_6 t y]

/-- A whole-array contents read back through the rank window's block is itself. -/
theorem read8_7 (t : Fin cfg8.N) (G : S256x10.Idx → EReal) : ((cfg8.win 7).blk t).view.read (Elt Ideal) G = G := by
  funext y
  show G (((cfg8.win 7).blk t).view.emb y) = G y
  rw [emb8_7 t y]

/-- A whole-array contents read back through the stability window's block is itself. -/
theorem read8_8 (t : Fin cfg8.N) (G : S256x1.Idx → EReal) : ((cfg8.win 8).blk t).view.read (Elt Ideal) G = G := by
  funext y
  show G (((cfg8.win 8).blk t).view.emb y) = G y
  rw [emb8_8 t y]

/-- What a point writes back to the rank array is its block of rankOf of the input arrays. -/
theorem flushed8_7 (c : Dev nD) (t : Fin cfg8.N) :
    (dat8 (F := Ideal) V c).flushed 7 t = ((cfg8.win 7).blk t).view.read (Elt Ideal)
      (rankOf (V c (Pipeline.arrRef spec8 0)) (V c (Pipeline.arrRef spec8 1)) (V c (Pipeline.arrRef spec8 2))
        (V c (Pipeline.arrRef spec8 3)) (V c (Pipeline.arrRef spec8 4))) := by
  show (cfg8.win 7).cut (grid8.coords t) ((dat8 (F := Ideal) V c).after 7 t) = _
  rw [after8_7]
  unfold out8_7
  rw [View.canon_unit_zero hz]
  simp only [View.ld_unit_zero (S := S256x128) hz, View.ld_unit_zero (S := S128x128) hz, View.ld_unit_zero (S := S1x128) hz,
    View.ld_unit_zero (S := S128x10) hz, View.ld_unit_zero (S := S1x10) hz]
  rw [blk8_0 V c t, blk8_1 V c t, blk8_2 V c t, blk8_3 V c t, blk8_4 V c t, pay1_eq, read8_7]
  rfl

/-- What a point writes back to the stability array is its block of stabOf of the input arrays. -/
theorem flushed8_8 (c : Dev nD) (t : Fin cfg8.N) :
    (dat8 (F := Ideal) V c).flushed 8 t = ((cfg8.win 8).blk t).view.read (Elt Ideal)
      (stabOf (V c (Pipeline.arrRef spec8 0)) (V c (Pipeline.arrRef spec8 5)) (V c (Pipeline.arrRef spec8 6))) := by
  show (cfg8.win 8).cut (grid8.coords t) ((dat8 (F := Ideal) V c).after 8 t) = _
  rw [after8_8]
  unfold out8_8
  rw [View.canon_unit_zero hz]
  simp only [View.ld_unit_zero (S := S256x128) hz, View.ld_unit_zero (S := S128x1) hz, View.ld_unit_zero (S := S1x1) hz]
  rw [blk8_0 V c t, blk8_5 V c t, blk8_6 V c t, pay2_eq, read8_8]
  rfl

/-- The one point's block covers the rank array. -/
theorem cover_rank (i : S256x10.Idx) :
    ∃ t : Fin cfg8.N, (cfg8.win 7).flush t = true ∧ i ∈ ((cfg8.win 7).blk t).view.set := by
  have t : Fin cfg8.N := ⟨0, by decide⟩
  refine ⟨t, flush8_7 t, ?_⟩
  obtain ⟨-, -, -, -, -, -, -, ⟨e0, e1⟩, -⟩ := idx8 t
  show i ∈ ((View.whole main_v113_0).slice (win8_7.rect t)).set
  rw [View.set_slice_whole, Rect.mem_set_unit]
  intro a
  have h0 : (i 0).val < 256 := (i 0).isLt
  have h1 : (i 1).val < 10 := (i 1).isLt
  match a with
  | ⟨0, _⟩ => show win8_7.index t (0 : Fin 2) * 256 ≤ (i 0).val ∧ (i 0).val < win8_7.index t (0 : Fin 2) * 256 + 256; omega
  | ⟨1, _⟩ => show win8_7.index t (1 : Fin 2) * 10 ≤ (i 1).val ∧ (i 1).val < win8_7.index t (1 : Fin 2) * 10 + 10; omega

/-- The one point's block covers the stability array. -/
theorem cover_stab (i : S256x1.Idx) :
    ∃ t : Fin cfg8.N, (cfg8.win 8).flush t = true ∧ i ∈ ((cfg8.win 8).blk t).view.set := by
  have t : Fin cfg8.N := ⟨0, by decide⟩
  refine ⟨t, flush8_8 t, ?_⟩
  obtain ⟨-, -, -, -, -, -, -, -, ⟨e0, e1⟩⟩ := idx8 t
  show i ∈ ((View.whole main_v113_1).slice (win8_8.rect t)).set
  rw [View.set_slice_whole, Rect.mem_set_unit]
  intro a
  have h0 : (i 0).val < 256 := (i 0).isLt
  have h1 : (i 1).val < 1 := (i 1).isLt
  match a with
  | ⟨0, _⟩ => show win8_8.index t (0 : Fin 2) * 256 ≤ (i 0).val ∧ (i 0).val < win8_8.index t (0 : Fin 2) * 256 + 256; omega
  | ⟨1, _⟩ => show win8_8.index t (1 : Fin 2) * 1 ≤ (i 1).val ∧ (i 1).val < win8_8.index t (1 : Fin 2) * 1 + 1; omega

/-- After the last region the rank array holds rankOf of the region's input arrays. -/
theorem region8_rank (c : Dev nD) :
    (Gen.dat8 (F := Ideal) V c).arrAt 7 cfg8.N
      = rankOf (V c (Pipeline.arrRef spec8 0)) (V c (Pipeline.arrRef spec8 1)) (V c (Pipeline.arrRef spec8 2))
          (V c (Pipeline.arrRef spec8 3)) (V c (Pipeline.arrRef spec8 4)) :=
  (dat8 (F := Ideal) V c).arrAt_eq_of_cover 7 _ (fun t _ => flushed8_7 V c t) cover_rank

/-- After the last region the stability array holds stabOf of the region's input arrays. -/
theorem region8_stab (c : Dev nD) :
    (Gen.dat8 (F := Ideal) V c).arrAt 8 cfg8.N
      = stabOf (V c (Pipeline.arrRef spec8 0)) (V c (Pipeline.arrRef spec8 5)) (V c (Pipeline.arrRef spec8 6)) :=
  (dat8 (F := Ideal) V c).arrAt_eq_of_cover 8 _ (fun t _ => flushed8_8 V c t) cover_stab

end Region

/-! ## The reference's two heads, index by index -/

/-- A scalar constant broadcast to any shape reads the constant's value everywhere. -/
theorem hostSplat_apply {t : Shape} (h : Cert.ReferenceIdeal.S_.BroadcastsInDim t ![]) (b : BitVec 32) (j : t.Idx) :
    broadcastInDim t ![] h (constant (F := Ideal) Cert.ReferenceIdeal.S_ .f32 b) j = Ideal.ofBits .f32 b := rfl

/-- The reference's rank head is rankOf with each bias vector read as a one-row array. -/
theorem host_rank (g : FVec Ideal Cert.ReferenceIdeal.S256x128 .f32) (wc1 : FVec Ideal Cert.ReferenceIdeal.S128x128 .f32)
    (b13 : FVec Ideal Cert.ReferenceIdeal.S128 .f32) (wc2 : FVec Ideal Cert.ReferenceIdeal.S128x10 .f32)
    (b15 : FVec Ideal Cert.ReferenceIdeal.S10 .f32) :
    addf (Host.dotGeneral Cert.ReferenceIdeal.dot_S256x128_S128x10_S256x10_1_0_0_1_n_n none
            (maximumf
              (addf (Host.dotGeneral Cert.ReferenceIdeal.dot_S256x128_S128x128_S256x128_1_0_0_1_n_n none g wc1)
                (broadcastInDim Cert.ReferenceIdeal.S256x128 ![0, 1] Cert.ReferenceIdeal.Gen.bcast_S1x128_S256x128_0_1
                  (broadcastInDim Cert.ReferenceIdeal.S1x128 ![1] Cert.ReferenceIdeal.Gen.bcast_S128_S1x128_1 b13)))
              (broadcastInDim Cert.ReferenceIdeal.S256x128 ![] Cert.ReferenceIdeal.Gen.bcast_S_S256x128
                (constant (F := Ideal) Cert.ReferenceIdeal.S_ .f32 0x00000000#32)))
            wc2)
        (broadcastInDim Cert.ReferenceIdeal.S256x10 ![0, 1] Cert.ReferenceIdeal.Gen.bcast_S1x10_S256x10_0_1
          (broadcastInDim Cert.ReferenceIdeal.S1x10 ![1] Cert.ReferenceIdeal.Gen.bcast_S10_S1x10_1 b15))
      = rankOf g wc1 (shapeCast S1x128 b13 shapeCasts_S128_S1x128) wc2 (shapeCast S1x10 b15 shapeCasts_S10_S1x10) := by
  funext i
  obtain ⟨p, q, rfl⟩ : ∃ (p : Fin 256) (q : Fin 10), i = ix2 p q := ⟨i 0, i 1, eq_ix2 i⟩
  refine Eq.trans ?_ (rankOf_apply g wc1 _ wc2 _ p q).symm
  refine (addf_apply _ _ (ix2 p q)).trans ?_
  refine congrArg₂ (· + ·) ?_ ((hostRow_apply b15 _ _ p q).trans (shapeCast_a_1a_apply b15 shapeCasts_S10_S1x10 0 q).symm)
  refine (hostDotB_apply _ wc2 p q).trans (Finset.sum_congr rfl fun k _ => congrArg (· * wc2 (ix2 k q)) ?_)
  refine (maximumf_apply _ _ (ix2 p k)).trans ?_
  refine congrArg₂ max ?_ ((hostSplat_apply _ _ (ix2 p k)).trans Ideal.ofBits_zero_f32)
  refine (addf_apply _ _ (ix2 p k)).trans ?_
  exact congrArg₂ (· + ·) (hostDotA_apply g wc1 p k)
    ((hostRow_apply b13 _ _ p k).trans (shapeCast_a_1a_apply b13 shapeCasts_S128_S1x128 0 k).symm)

/-- The bit pattern of the constant one. -/
theorem ofBits_one_f32 : Ideal.ofBits .f32 0x3F800000#32 = 1 := IdealRules.sign_bit.ideal_onePat .f32

/-- The reference's stability head (a product, a bias, then 1 / (1 + exp (- x)) spelt out) is stabOf with the bias
    read as a one-by-one array. -/
theorem host_stab (g : FVec Ideal Cert.ReferenceIdeal.S256x128 .f32) (wa : FVec Ideal Cert.ReferenceIdeal.S128x1 .f32)
    (b17 : FVec Ideal Cert.ReferenceIdeal.S1 .f32) :
    Host.divf
        (broadcastInDim Cert.ReferenceIdeal.S256x1 ![] Cert.ReferenceIdeal.Gen.bcast_S_S256x1
          (constant (F := Ideal) Cert.ReferenceIdeal.S_ .f32 0x3F800000#32))
        (addf
          (broadcastInDim Cert.ReferenceIdeal.S256x1 ![] Cert.ReferenceIdeal.Gen.bcast_S_S256x1
            (constant (F := Ideal) Cert.ReferenceIdeal.S_ .f32 0x3F800000#32))
          (Host.exp (Host.negf
            (addf (Host.dotGeneral Cert.ReferenceIdeal.dot_S256x128_S128x1_S256x1_1_0_0_1_n_n none g wa)
              (broadcastInDim Cert.ReferenceIdeal.S256x1 ![0, 1] Cert.ReferenceIdeal.Gen.bcast_S1x1_S256x1_0_1
                (broadcastInDim Cert.ReferenceIdeal.S1x1 ![1] Cert.ReferenceIdeal.Gen.bcast_S1_S1x1_1 b17))))))
      = stabOf g wa (shapeCast S1x1 b17 shapeCasts_S1_S1x1) := by
  funext i
  obtain ⟨p, q, rfl⟩ : ∃ (p : Fin 256) (q : Fin 1), i = ix2 p q := ⟨i 0, i 1, eq_ix2 i⟩
  obtain rfl : q = 0 := Subsingleton.elim _ _
  refine Eq.trans ?_ (stabOf_apply g wa _ p 0).symm
  show Ideal.div (Ideal.ofBits .f32 0x3F800000#32)
      (Ideal.ofBits .f32 0x3F800000#32 + Ideal.exp (-(addf (F := Ideal) (φ := .f32) _ _ (ix2 p (0 : Fin 1)))))
    = Ideal.div 1 (1 + Ideal.exp (-_))
  rw [ofBits_one_f32]
  refine congrArg (fun z => Ideal.div 1 (1 + Ideal.exp (-z))) ?_
  refine (addf_apply _ _ (ix2 p (0 : Fin 1))).trans ?_
  exact congrArg₂ (· + ·) (hostDotC_apply g wa p 0)
    ((hostRow_apply b17 _ _ p 0).trans (shapeCast_a_1a_apply b17 shapeCasts_S1_S1x1 0 0).symm)

end Cert.KernelIdeal.Heads

end
-- ==== Proof.FoldHeads.lean ====
/-
  The kernel's buffers after the pooling, the heads region and the last host line.

  The last layer's activations are averaged per graph by the same host operations in both programs, giving the
  256 × 128 pooled embedding.  The heads region then leaves, in its two output arrays, the rank logits
  relu(g·Wc1 + bc1)·Wc2 + bc2 and the stability column logistic(g·Wa + ba); both are what the reference's operations
  compute from the pooled embedding, the logistic being 1 / (1 + exp(−x)) at the ideal instance.  The last host line
  reads the stability column as a vector.  So the fold's last valuation holds the reference's two results at the
  kernel's two result buffers.
-/
import proofs.«158055_j16381005267206_1_alg».proof.Defs
import proofs.«158055_j16381005267206_1_alg».proof.Proof.Gen.KernelIdeal.Frame
import proofs.«158055_j16381005267206_1_alg».proof.Proof.FoldLayers
import proofs.«158055_j16381005267206_1_alg».proof.Proof.Heads
set_option maxRecDepth 16384

noncomputable section

open Idealize.ShloMosaic Idealize.ShloMosaic.TcCoe Idealize.SL.Sem
open Idealize.ShloMosaic.Pipeline (Dat)

namespace Cert.KernelIdeal.Fold

open Cert.KernelIdeal Cert.KernelIdeal.Gen

variable (m : (ℓ : Loc nD τ sig) → Buf (Elt Ideal) ℓ) (ρ : Dev nD → PrngReg) (c : Dev nD)
set_option maxHeartbeats 1000000 in
/-- The pooled embedding: each graph's rows added up and divided by the graph's node count clamped below at 1. -/
theorem w16_v109 : W16 m ρ c (Proc.devRef .tc main_v109) = Cert.ReferenceIdeal.Read.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have h0 := w15_v97 m ρ c
  have h1 := arg2_at15 m ρ c
  show StableHlo.after hostOps8 (W15 m ρ c) (Proc.devRef .tc main_v109) = _
  generalize W15 m ρ c = Vp at h0 h1 ⊢
  after_results_simp
  rw [h0, h1]
  rfl

set_option maxHeartbeats 1000000 in
/-- A head's bias as a one-row array. -/
theorem w16_v110 : W16 m ρ c (Proc.devRef .tc main_v110) = (shapeCast S1x128 (m ((c : Thread nD τ).loc main_arg13)) shapeCasts_S128_S1x128) := by
  have h0 := arg13_at15 m ρ c
  show StableHlo.after hostOps8 (W15 m ρ c) (Proc.devRef .tc main_v110) = _
  generalize W15 m ρ c = Vp at h0 ⊢
  after_results_simp
  rw [h0]
  rfl

set_option maxHeartbeats 1000000 in
/-- A head's bias as a one-row array. -/
theorem w16_v111 : W16 m ρ c (Proc.devRef .tc main_v111) = (shapeCast S1x10 (m ((c : Thread nD τ).loc main_arg15)) shapeCasts_S10_S1x10) := by
  have h0 := arg15_at15 m ρ c
  show StableHlo.after hostOps8 (W15 m ρ c) (Proc.devRef .tc main_v111) = _
  generalize W15 m ρ c = Vp at h0 ⊢
  after_results_simp
  rw [h0]
  rfl

set_option maxHeartbeats 1000000 in
/-- A head's bias as a one-row array. -/
theorem w16_v112 : W16 m ρ c (Proc.devRef .tc main_v112) = (shapeCast S1x1 (m ((c : Thread nD τ).loc main_arg17)) shapeCasts_S1_S1x1) := by
  have h0 := arg17_at15 m ρ c
  show StableHlo.after hostOps8 (W15 m ρ c) (Proc.devRef .tc main_v112) = _
  generalize W15 m ρ c = Vp at h0 ⊢
  after_results_simp
  rw [h0]
  rfl

/-- The rank head: the region leaves relu(g·Wc1 + bc1)·Wc2 + bc2 of the pooled embedding, the reference's two products with their broadcast biases and `relu`. -/
theorem w17_rank : W17 m ρ c (Proc.devRef .tc main_v113_0) = Cert.ReferenceIdeal.Read.val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W17_arr m ρ c 7).trans ?_
  rw [Cert.KernelIdeal.Heads.region8_rank (V16 m ρ) c]
  show Cert.KernelIdeal.Heads.rankOf (W16 m ρ c (Proc.devRef .tc main_v109)) (W16 m ρ c (Proc.devRef .tc main_arg12)) (W16 m ρ c (Proc.devRef .tc main_v110)) (W16 m ρ c (Proc.devRef .tc main_arg14)) (W16 m ρ c (Proc.devRef .tc main_v111)) = _
  rw [w16_v109 m ρ c, arg12_at16 m ρ c, w16_v110 m ρ c, arg14_at16 m ρ c, w16_v111 m ρ c]
  exact (Cert.KernelIdeal.Heads.host_rank _ _ _ _ _).symm

/-- The stability head: the region leaves the logistic of g·Wa + ba, which at the ideal instance is the reference's 1 / (1 + exp(−·)). -/
theorem w17_stab : W17 m ρ c (Proc.devRef .tc main_v113_1) = Cert.ReferenceIdeal.Read.val_main_v136 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17)) := by
  refine (W17_arr m ρ c 8).trans ?_
  rw [Cert.KernelIdeal.Heads.region8_stab (V16 m ρ) c]
  show Cert.KernelIdeal.Heads.stabOf (W16 m ρ c (Proc.devRef .tc main_v109)) (W16 m ρ c (Proc.devRef .tc main_arg16)) (W16 m ρ c (Proc.devRef .tc main_v112)) = _
  rw [w16_v109 m ρ c, arg16_at16 m ρ c, w16_v112 m ρ c]
  exact (Cert.KernelIdeal.Heads.host_stab _ _ _).symm

/-- The last host line does not write the rank logits. -/
theorem w18_rank : W18 m ρ c (Proc.devRef .tc main_v113_0) = Cert.ReferenceIdeal.Read.val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  (StableHlo.after_of_forall_not_mem (b := Proc.devRef .tc main_v113_0) _ _ (List.forall_iff_forall_mem.mp (by
          simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (w17_rank m ρ c)

set_option maxHeartbeats 1000000 in
/-- The stability column read as a vector of 256 entries. -/
theorem w18_stab : W18 m ρ c (Proc.devRef .tc main_v114) = Cert.ReferenceIdeal.Read.val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17)) := by
  have h0 := w17_stab m ρ c
  show StableHlo.after hostOps9 (W17 m ρ c) (Proc.devRef .tc main_v114) = _
  generalize W17 m ρ c = Vp at h0 ⊢
  after_results_simp
  rw [h0]
  rfl

end Cert.KernelIdeal.Fold

end
-- ==== Proof.lean ====
/-
  A four-layer graph convolution with pooled MLP heads: the Pallas program and its plain reference compute the
  same two results at the ideal instance.

  Both programs first build, on the host, the edge list with a self loop per node, the weighted in-degree d of every
  node and the symmetric normalisation d(s)^(-1/2) · w · d(t)^(-1/2) of every edge.  Each of the four layers then
    * multiplies the node features by the layer's weight matrix — one `dot_general` in the reference, a pipelined
      region in the kernel whose ten grid points each multiply 5000 rows into a zero accumulator;
    * gathers the transformed rows by edge source, scales them and adds them into the destination rows — the same
      host operations in both programs;
    * adds the bias to every row and takes the positive part — two broadcasts, an add and a maximum in the reference,
      one region over the same ten row blocks in the kernel, which reads the bias as a 1 × 128 row.
  The node rows are then averaged per graph (the same host operations on both sides), and two heads are applied to
  the 256 × 128 pooled embedding: relu(g·Wc1 + bc1)·Wc2 + bc2, and the logistic of g·Wa + ba.  The kernel computes
  both heads in one region on whole arrays; the reference spells the logistic as 1 / (1 + exp(−x)), which is what
  the logistic is at the ideal instance.

  At the ideal instance a matrix product into a zero accumulator and the host's `dot_general` are the same finite
  sum over the contracted axis, and sums of extended reals do not depend on grouping, so every region leaves exactly
  the array the reference's corresponding operations compute.  No step uses distributivity or cancellation, so the
  finiteness of the inputs is never needed.

  The proof follows the kernel's buffer contents segment by segment (ten host stretches, nine regions): after each
  segment the buffers the later segments read hold the reference's own intermediate values of the same arguments.
  Each region's output array is identified by showing that what grid point t writes back is block t of one
  whole-array function and that the blocks tile the array.
-/
import proofs.«158055_j16381005267206_1_alg».proof.Defs
import proofs.«158055_j16381005267206_1_alg».proof.Proof.Gen.Kernel
import proofs.«158055_j16381005267206_1_alg».proof.Proof.Gen.Kernel.Skeleton
import proofs.«158055_j16381005267206_1_alg».proof.Proof.Gen.Kernel.Launch
import proofs.«158055_j16381005267206_1_alg».proof.Proof.Gen.Kernel.Points
import proofs.«158055_j16381005267206_1_alg».proof.Proof.Gen.Kernel.Frame
import proofs.«158055_j16381005267206_1_alg».proof.Proof.Gen.KernelIdeal
import proofs.«158055_j16381005267206_1_alg».proof.Proof.Gen.KernelIdeal.Skeleton
import proofs.«158055_j16381005267206_1_alg».proof.Proof.Gen.KernelIdeal.Launch
import proofs.«158055_j16381005267206_1_alg».proof.Proof.Gen.KernelIdeal.Points
import proofs.«158055_j16381005267206_1_alg».proof.Proof.Gen.KernelIdeal.Frame
import proofs.«158055_j16381005267206_1_alg».proof.Proof.Gen.ReferenceIdeal
import proofs.«158055_j16381005267206_1_alg».proof.Proof.Gen.ReferenceIdeal.Run
import proofs.«158055_j16381005267206_1_alg».proof.Proof.Gen.ReferenceIdeal.Read
import proofs.«158055_j16381005267206_1_alg».proof.Proof.Gen.Pre_finite_inputs
import proofs.«158055_j16381005267206_1_alg».proof.Proof.KernelRun
import proofs.«158055_j16381005267206_1_alg».proof.Proof.FoldHeads
import Idealize.ShloMosaic.Adequacy
import Idealize.ShloMosaic.Init

set_option maxRecDepth 16384

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: it terminates and writes no argument. -/
theorem frame_referenceIdeal : Cert.frame_ReferenceIdeal := fun m ρ _ =>
  (θ_run Cert.ReferenceIdeal.defs _ _).mono (fun _ h c => (h c).2.2) (Cert.ReferenceIdeal.Value.run (F := Ideal) m ρ)

open Cert.KernelIdeal in
set_option maxHeartbeats 2000000 in
/-- From memories that agree on the arguments both programs end with the rank logits and the stability scores the
    reference's operations compute from those arguments. -/
theorem algebraic : Cert.algebraic_KernelIdeal_ReferenceIdeal := by
  intro m ρ m' ρ' _ hagree
  refine ⟨fun c => Cert.ReferenceIdeal.Read.val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)), fun c => Cert.ReferenceIdeal.Read.val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17)), ?_, ?_⟩
  · refine (θ_run Cert.KernelIdeal.defs _ _).mono (fun r h c => ?_) (Cert.KernelIdeal.RunValue.run_results (F := Ideal) m ρ)
    obtain ⟨h0, h1, hargs⟩ := h c
    exact ⟨h0.trans (Cert.KernelIdeal.Fold.w18_rank m ρ c), h1.trans (Cert.KernelIdeal.Fold.w18_stab m ρ c), hargs⟩
  · refine (θ_run Cert.ReferenceIdeal.defs _ _).mono (fun r h c => ?_) (Cert.ReferenceIdeal.Value.run (F := Ideal) m' ρ')
    obtain ⟨h0, h1, hargs⟩ := h c
    obtain ⟨e0, e1, e2, e3, e4, e5, e6, e7, e8, e9, e10, e11, e12, e13, e14, e15, e16, e17⟩ := hagree c
    refine ⟨h0.trans ?_, h1.trans ?_, hargs⟩
    · rw [Cert.ReferenceIdeal.Read.val_main_v126_eq, e0, e1, e2, e3, e4, e5, e6, e7, e8, e9, e10, e11, e12, e13, e14, e15]
    · rw [Cert.ReferenceIdeal.Read.val_main_v137_eq, e0, e1, e2, e3, e4, e5, e6, e7, e8, e9, e10, e11, e16, e17]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
